-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x64 : Shape := ⟨2, ![32, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S64x128 .f32) (main_arg13 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S16x32 .f32) (main_arg9 : FVec F S32 .f32) (main_arg10 : FVec F S32x64 .f32) (main_arg11 : FVec F S64 .f32) (main_arg12 : FVec F S64x128 .f32) (main_arg13 : FVec F S128 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S16x32 .f32) (main_arg9 : FVec F S32 .f32) (main_arg10 : FVec F S32x64 .f32) (main_arg11 : FVec F S64 .f32) (main_arg12 : FVec F S64x128 .f32) (main_arg13 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x600000 32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S16x32 .f32) (main_arg9 : FVec F S32 .f32) (main_arg10 : FVec F S32x64 .f32) (main_arg11 : FVec F S64 .f32) (main_arg12 : FVec F S64x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x64 : Shape := ⟨2, ![32, 64]⟩
abbrev S64x128 : Shape := ⟨2, ![64, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x64 : Shape := ⟨2, ![100000, 64]⟩
abbrev S10000x128 : Shape := ⟨2, ![10000, 128]⟩
abbrev S10000x64 : Shape := ⟨2, ![10000, 64]⟩
abbrev S700000x64 : Shape := ⟨2, ![700000, 64]⟩
abbrev S1x64 : Shape := ⟨2, ![1, 64]⟩
abbrev S100000x32 : Shape := ⟨2, ![100000, 32]⟩
abbrev S10000x32 : Shape := ⟨2, ![10000, 32]⟩
abbrev S700000x32 : Shape := ⟨2, ![700000, 32]⟩
abbrev S1x32 : Shape := ⟨2, ![1, 32]⟩
abbrev S100000x16 : Shape := ⟨2, ![100000, 16]⟩
abbrev S10000x16 : Shape := ⟨2, ![10000, 16]⟩
abbrev S700000x16 : Shape := ⟨2, ![700000, 16]⟩
abbrev S1x16 : Shape := ⟨2, ![1, 16]⟩
abbrev S1x128 : Shape := ⟨2, ![1, 128]⟩

abbrev nBuf : Space → Nat
  | .hbm => 227
  | .vmem => 33
  | .smem => 0
  | _ => 0

abbrev hbmTy0_0 (i : Nat) : BufTy := match i % 128 with
  | 0 => ⟨S100000x128, .f32⟩
  | 1 => ⟨S2x600000, .i32⟩
  | 2 => ⟨S128x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x32, .f32⟩
  | 9 => ⟨S32, .f32⟩
  | 10 => ⟨S32x64, .f32⟩
  | 11 => ⟨S64, .f32⟩
  | 12 => ⟨S64x128, .f32⟩
  | 13 => ⟨S128, .f32⟩
  | 14 => ⟨S100000, .i32⟩
  | 15 => ⟨S1x600000, .i32⟩
  | 16 => ⟨S600000, .i32⟩
  | 17 => ⟨S700000, .i32⟩
  | 18 => ⟨S1x600000, .i32⟩
  | 19 => ⟨S600000, .i32⟩
  | 20 => ⟨S700000, .i32⟩
  | 21 => ⟨S_, .f32⟩
  | 22 => ⟨S700000, .f32⟩
  | 23 => ⟨S_, .f32⟩
  | 24 => ⟨S100000, .f32⟩
  | 25 => ⟨S700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S700000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S700000, .f32⟩
  | 55 => ⟨S_, .f32⟩
  | 56 => ⟨S600000, .f32⟩
  | 57 => ⟨S600000, .f32⟩
  | 58 => ⟨S_, .f32⟩
  | 59 => ⟨S100000, .f32⟩
  | 60 => ⟨S_, .f32⟩
  | 61 => ⟨S100000, .f32⟩
  | 62 => ⟨S100000, .f32⟩
  | 63 => ⟨S700000, .f32⟩
  | 64 => ⟨S_, .f32⟩
  | 65 => ⟨S600000, .f32⟩
  | 66 => ⟨S_, .f32⟩
  | 67 => ⟨S100000, .f32⟩
  | 68 => ⟨S_, .f32⟩
  | 69 => ⟨S100000, .f32⟩
  | 70 => ⟨S100000, .f32⟩
  | 71 => ⟨S700000, .f32⟩
  | 72 => ⟨S_, .f32⟩
  | 73 => ⟨S100000, .f32⟩
  | 74 => ⟨S700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S700000, .i32⟩
  | 86 => ⟨S700000, .i1⟩
  | 87 => ⟨S_, .i32⟩
  | 88 => ⟨S700000, .i32⟩
  | 89 => ⟨S700000, .i32⟩
  | 90 => ⟨S700000, .i32⟩
  | 91 => ⟨S700000x1, .i32⟩
  | 92 => ⟨S700000, .f32⟩
  | 93 => ⟨S700000, .f32⟩
  | 94 => ⟨S_, .i32⟩
  | 95 => ⟨S700000, .i32⟩
  | 96 => ⟨S700000, .i1⟩
  | 97 => ⟨S_, .i32⟩
  | 98 => ⟨S700000, .i32⟩
  | 99 => ⟨S700000, .i32⟩
  | 100 => ⟨S700000, .i32⟩
  | 101 => ⟨S700000x1, .i32⟩
  | 102 => ⟨S700000, .f32⟩
  | 103 => ⟨S700000, .f32⟩
  | 104 => ⟨S100000x64, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000x64, .f32⟩
  | 114 => ⟨S700000x1, .f32⟩
  | 115 => ⟨S700000x64, .f32⟩
  | 116 => ⟨S700000x64, .f32⟩
  | 117 => ⟨S_, .f32⟩
  | 118 => ⟨S100000x64, .f32⟩
  | 119 => ⟨S700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x32, .f32⟩
  | _ => ⟨S100000x128, .f32⟩

abbrev hbmTy0_1 (i : Nat) : BufTy := match i % 128 with
  | 0 => ⟨S_, .i32⟩
  | 1 => ⟨S700000, .i32⟩
  | 2 => ⟨S700000, .i1⟩
  | 3 => ⟨S_, .i32⟩
  | 4 => ⟨S700000, .i32⟩
  | 5 => ⟨S700000, .i32⟩
  | 6 => ⟨S700000, .i32⟩
  | 7 => ⟨S700000x1, .i32⟩
  | 8 => ⟨S700000x32, .f32⟩
  | 9 => ⟨S700000x1, .f32⟩
  | 10 => ⟨S700000x32, .f32⟩
  | 11 => ⟨S700000x32, .f32⟩
  | 12 => ⟨S_, .f32⟩
  | 13 => ⟨S100000x32, .f32⟩
  | 14 => ⟨S700000x1, .i32⟩
  | 15 => ⟨S100000x32, .f32⟩
  | 16 => ⟨S1x32, .f32⟩
  | 17 => ⟨S100000x32, .f32⟩
  | 18 => ⟨S100000x32, .f32⟩
  | 19 => ⟨S_, .f32⟩
  | 20 => ⟨S100000x32, .f32⟩
  | 21 => ⟨S100000x32, .f32⟩
  | 22 => ⟨S100000x16, .f32⟩
  | 23 => ⟨S_, .i32⟩
  | 24 => ⟨S700000, .i32⟩
  | 25 => ⟨S700000, .i1⟩
  | 26 => ⟨S_, .i32⟩
  | 27 => ⟨S700000, .i32⟩
  | 28 => ⟨S700000, .i32⟩
  | 29 => ⟨S700000, .i32⟩
  | 30 => ⟨S700000x1, .i32⟩
  | 31 => ⟨S700000x16, .f32⟩
  | 32 => ⟨S700000x1, .f32⟩
  | 33 => ⟨S700000x16, .f32⟩
  | 34 => ⟨S700000x16, .f32⟩
  | 35 => ⟨S_, .f32⟩
  | 36 => ⟨S100000x16, .f32⟩
  | 37 => ⟨S700000x1, .i32⟩
  | 38 => ⟨S100000x16, .f32⟩
  | 39 => ⟨S1x16, .f32⟩
  | 40 => ⟨S100000x16, .f32⟩
  | 41 => ⟨S100000x16, .f32⟩
  | 42 => ⟨S_, .f32⟩
  | 43 => ⟨S100000x16, .f32⟩
  | 44 => ⟨S100000x16, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000x16, .f32⟩
  | 54 => ⟨S700000x1, .f32⟩
  | 55 => ⟨S700000x16, .f32⟩
  | 56 => ⟨S700000x16, .f32⟩
  | 57 => ⟨S_, .f32⟩
  | 58 => ⟨S100000x16, .f32⟩
  | 59 => ⟨S700000x1, .i32⟩
  | 60 => ⟨S100000x16, .f32⟩
  | 61 => ⟨S1x32, .f32⟩
  | 62 => ⟨S100000x32, .f32⟩
  | 63 => ⟨S_, .i32⟩
  | 64 => ⟨S700000, .i32⟩
  | 65 => ⟨S700000, .i1⟩
  | 66 => ⟨S_, .i32⟩
  | 67 => ⟨S700000, .i32⟩
  | 68 => ⟨S700000, .i32⟩
  | 69 => ⟨S700000, .i32⟩
  | 70 => ⟨S700000x1, .i32⟩
  | 71 => ⟨S700000x32, .f32⟩
  | 72 => ⟨S700000x1, .f32⟩
  | 73 => ⟨S700000x32, .f32⟩
  | 74 => ⟨S700000x32, .f32⟩
  | 75 => ⟨S_, .f32⟩
  | 76 => ⟨S100000x32, .f32⟩
  | 77 => ⟨S700000x1, .i32⟩
  | 78 => ⟨S100000x32, .f32⟩
  | 79 => ⟨S1x64, .f32⟩
  | 80 => ⟨S100000x64, .f32⟩
  | 81 => ⟨S_, .i32⟩
  | 82 => ⟨S700000, .i32⟩
  | 83 => ⟨S700000, .i1⟩
  | 84 => ⟨S_, .i32⟩
  | 85 => ⟨S700000, .i32⟩
  | 86 => ⟨S700000, .i32⟩
  | 87 => ⟨S700000, .i32⟩
  | 88 => ⟨S700000x1, .i32⟩
  | 89 => ⟨S700000x64, .f32⟩
  | 90 => ⟨S700000x1, .f32⟩
  | 91 => ⟨S700000x64, .f32⟩
  | 92 => ⟨S700000x64, .f32⟩
  | 93 => ⟨S_, .f32⟩
  | 94 => ⟨S100000x64, .f32⟩
  | 95 => ⟨S700000x1, .i32⟩
  | 96 => ⟨S100000x64, .f32⟩
  | 97 => ⟨S1x128, .f32⟩
  | 98 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S16x32, .f32⟩
  | .local _ .vmem, ⟨18, _⟩ => ⟨S1x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S32x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x128, .f32⟩
  | .local _ .vmem, ⟨30, _⟩ => ⟨S1x128, .f32⟩
  | .local _ .vmem, ⟨31, _⟩ => ⟨S10000x128, .f32⟩
  | .local _ .vmem, ⟨32, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_cst_11 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_14 : Ref sig .tc := ⟨.hbm, 80, rfl⟩
abbrev main_call1_v0 : Ref sig .tc := ⟨.hbm, 81, rfl⟩
abbrev main_call1_v1 : Ref sig .tc := ⟨.hbm, 82, rfl⟩
abbrev main_v48 : Ref sig .tc := ⟨.hbm, 83, rfl⟩
abbrev main_c_15 : Ref sig .tc := ⟨.hbm, 84, rfl⟩
abbrev main_v49 : Ref sig .tc := ⟨.hbm, 85, rfl⟩
abbrev main_v50 : Ref sig .tc := ⟨.hbm, 86, rfl⟩
abbrev main_c_16 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_17 : Ref sig .tc := ⟨.hbm, 94, rfl⟩
abbrev main_v57 : Ref sig .tc := ⟨.hbm, 95, rfl⟩
abbrev main_v58 : Ref sig .tc := ⟨.hbm, 96, rfl⟩
abbrev main_c_18 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_19 : Ref sig .tc := ⟨.hbm, 105, rfl⟩
abbrev main_v66 : Ref sig .tc := ⟨.hbm, 106, rfl⟩
abbrev main_v67 : Ref sig .tc := ⟨.hbm, 107, rfl⟩
abbrev main_c_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call2_cst : Ref sig .tc := ⟨.hbm, 124, rfl⟩
abbrev main_call2_v0 : Ref sig .tc := ⟨.hbm, 125, rfl⟩
abbrev main_v82 : Ref sig .tc := ⟨.hbm, 126, rfl⟩
abbrev main_v83 : Ref sig .tc := ⟨.hbm, 127, rfl⟩
abbrev main_c_22 : Ref sig .tc := ⟨.hbm, 128, rfl⟩
abbrev main_v84 : Ref sig .tc := ⟨.hbm, 129, rfl⟩
abbrev main_v85 : Ref sig .tc := ⟨.hbm, 130, rfl⟩
abbrev main_c_23 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call3_cst : Ref sig .tc := ⟨.hbm, 147, rfl⟩
abbrev main_call3_v0 : Ref sig .tc := ⟨.hbm, 148, rfl⟩
abbrev main_v100 : Ref sig .tc := ⟨.hbm, 149, rfl⟩
abbrev main_v101 : Ref sig .tc := ⟨.hbm, 150, rfl⟩
abbrev main_c_25 : Ref sig .tc := ⟨.hbm, 151, rfl⟩
abbrev main_v102 : Ref sig .tc := ⟨.hbm, 152, rfl⟩
abbrev main_v103 : Ref sig .tc := ⟨.hbm, 153, rfl⟩
abbrev main_c_26 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_27 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_call4_cst : Ref sig .tc := ⟨.hbm, 170, rfl⟩
abbrev main_call4_v0 : Ref sig .tc := ⟨.hbm, 171, rfl⟩
abbrev main_v118 : Ref sig .tc := ⟨.hbm, 172, rfl⟩
abbrev main_c_28 : Ref sig .tc := ⟨.hbm, 173, rfl⟩
abbrev main_v119 : Ref sig .tc := ⟨.hbm, 174, rfl⟩
abbrev main_v120 : Ref sig .tc := ⟨.hbm, 175, rfl⟩
abbrev main_c_29 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_30 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_c_31 : Ref sig .tc := ⟨.hbm, 191, rfl⟩
abbrev main_v134 : Ref sig .tc := ⟨.hbm, 192, rfl⟩
abbrev main_v135 : Ref sig .tc := ⟨.hbm, 193, rfl⟩
abbrev main_c_32 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_33 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_34 : Ref sig .tc := ⟨.hbm, 209, rfl⟩
abbrev main_v149 : Ref sig .tc := ⟨.hbm, 210, rfl⟩
abbrev main_v150 : Ref sig .tc := ⟨.hbm, 211, rfl⟩
abbrev main_c_35 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_36 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S_S600000 : S_.BroadcastsInDim S600000 (![] : Fin 0 → Fin S600000.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S700000x1_S700000x32_0_1 : S700000x1.BroadcastsInDim S700000x32 (![0, 1] : Fin 2 → Fin S700000x32.rank)
  bcast_S_S100000x32 : S_.BroadcastsInDim S100000x32 (![] : Fin 0 → Fin S100000x32.rank)
  shapeCasts_S32_S1x32 : S32.ShapeCasts S1x32
  bcast_S1x32_S100000x32_0_1 : S1x32.BroadcastsInDim S100000x32 (![0, 1] : Fin 2 → Fin S100000x32.rank)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S700000x1_S700000x16_0_1 : S700000x1.BroadcastsInDim S700000x16 (![0, 1] : Fin 2 → Fin S700000x16.rank)
  bcast_S_S100000x16 : S_.BroadcastsInDim S100000x16 (![] : Fin 0 → Fin S100000x16.rank)
  shapeCasts_S16_S1x16 : S16.ShapeCasts S1x16
  bcast_S1x16_S100000x16_0_1 : S1x16.BroadcastsInDim S100000x16 (![0, 1] : Fin 2 → Fin S100000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x64_S10000x64_1_0_0_1_n_n_wf : DotDims.WF S10000x128 S128x64 S10000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S10000x64_S64x32_S10000x32_1_0_0_1_n_n_wf : DotDims.WF S10000x64 S64x32 S10000x32 [1] [0] [0] [1] [] []
  gather_S100000x32_S700000x1_S700000x32_1_0_n_n_0_1_132_wf : GatherDims.WF S100000x32 S700000x1 S700000x32 [1] [0] [] [0] [] 1 ![1, 32]
  scatter_S100000x32_S700000x1_S700000x32_1_0_0_1_wf : ScatterDims.WF S100000x32 S700000x1 S700000x32 [1] [0] [0] 1
  dot_S10000x32_S32x16_S10000x16_1_0_0_1_n_n_wf : DotDims.WF S10000x32 S32x16 S10000x16 [1] [0] [0] [1] [] []
  gather_S100000x16_S700000x1_S700000x16_1_0_n_n_0_1_116_wf : GatherDims.WF S100000x16 S700000x1 S700000x16 [1] [0] [] [0] [] 1 ![1, 16]
  scatter_S100000x16_S700000x1_S700000x16_1_0_0_1_wf : ScatterDims.WF S100000x16 S700000x1 S700000x16 [1] [0] [0] 1
  dot_S10000x16_S16x32_S10000x32_1_0_0_1_n_n_wf : DotDims.WF S10000x16 S16x32 S10000x32 [1] [0] [0] [1] [] []
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S700000x1_S700000x16_1_0_n_n_0_1_116 : GatherDims S100000x16 S700000x1 S700000x16 where
  offsetDims := [1]
  collapsedSliceDims := [0]
  operandBatchingDims := []
  startIndicesBatchingDims := []
  startIndexMap := [0]
  indexVectorDim := 1
  sliceSizes := ![1, 16]
  wf := gather_S100000x16_S700000x1_S700000x16_1_0_n_n_0_1_116_wf
def scatter_S100000x16_S700000x1_S700000x16_1_0_0_1 : ScatterDims S100000x16 S700000x1 S700000x16 where
  updateWindowDims := [1]
  insertedWindowDims := [0]
  scatterDimsToOperandDims := [0]
  indexVectorDim := 1
  wf := scatter_S100000x16_S700000x1_S700000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v82) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v100) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v131) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v132) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v133) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v146) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v147) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v148) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v161) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v162) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v163) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x64 : Shape := ⟨2, ![32, 64]⟩
abbrev S64x128 : Shape := ⟨2, ![64, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x64 : Shape := ⟨2, ![100000, 64]⟩
abbrev S700000x64 : Shape := ⟨2, ![700000, 64]⟩
abbrev S1x64 : Shape := ⟨2, ![1, 64]⟩
abbrev S100000x32 : Shape := ⟨2, ![100000, 32]⟩
abbrev S700000x32 : Shape := ⟨2, ![700000, 32]⟩
abbrev S1x32 : Shape := ⟨2, ![1, 32]⟩
abbrev S100000x16 : Shape := ⟨2, ![100000, 16]⟩
abbrev S700000x16 : Shape := ⟨2, ![700000, 16]⟩
abbrev S1x16 : Shape := ⟨2, ![1, 16]⟩
abbrev S700000x128 : Shape := ⟨2, ![700000, 128]⟩
abbrev S1x128 : Shape := ⟨2, ![1, 128]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S2x600000, .i32⟩
  | 2 => ⟨S128x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x32, .f32⟩
  | 9 => ⟨S32, .f32⟩
  | 10 => ⟨S32x64, .f32⟩
  | 11 => ⟨S64, .f32⟩
  | 12 => ⟨S64x128, .f32⟩
  | 13 => ⟨S128, .f32⟩
  | 14 => ⟨S100000, .i32⟩
  | 15 => ⟨S1x600000, .i32⟩
  | 16 => ⟨S600000, .i32⟩
  | 17 => ⟨S700000, .i32⟩
  | 18 => ⟨S1x600000, .i32⟩
  | 19 => ⟨S600000, .i32⟩
  | 20 => ⟨S700000, .i32⟩
  | 21 => ⟨S_, .f32⟩
  | 22 => ⟨S700000, .f32⟩
  | 23 => ⟨S_, .f32⟩
  | 24 => ⟨S100000, .f32⟩
  | 25 => ⟨S700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S700000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S700000, .f32⟩
  | 55 => ⟨S100000, .i32⟩
  | 56 => ⟨S1x600000, .i32⟩
  | 57 => ⟨S600000, .i32⟩
  | 58 => ⟨S700000, .i32⟩
  | 59 => ⟨S1x600000, .i32⟩
  | 60 => ⟨S600000, .i32⟩
  | 61 => ⟨S700000, .i32⟩
  | 62 => ⟨S_, .f32⟩
  | 63 => ⟨S600000, .f32⟩
  | 64 => ⟨S600000, .f32⟩
  | 65 => ⟨S_, .f32⟩
  | 66 => ⟨S100000, .f32⟩
  | 67 => ⟨S_, .f32⟩
  | 68 => ⟨S100000, .f32⟩
  | 69 => ⟨S100000, .f32⟩
  | 70 => ⟨S700000, .f32⟩
  | 71 => ⟨S_, .f32⟩
  | 72 => ⟨S600000, .f32⟩
  | 73 => ⟨S_, .f32⟩
  | 74 => ⟨S100000, .f32⟩
  | 75 => ⟨S_, .f32⟩
  | 76 => ⟨S100000, .f32⟩
  | 77 => ⟨S100000, .f32⟩
  | 78 => ⟨S700000, .f32⟩
  | 79 => ⟨S_, .f32⟩
  | 80 => ⟨S100000, .f32⟩
  | 81 => ⟨S700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S700000, .i32⟩
  | 93 => ⟨S700000, .i1⟩
  | 94 => ⟨S_, .i32⟩
  | 95 => ⟨S700000, .i32⟩
  | 96 => ⟨S700000, .i32⟩
  | 97 => ⟨S700000, .i32⟩
  | 98 => ⟨S700000x1, .i32⟩
  | 99 => ⟨S700000, .f32⟩
  | 100 => ⟨S700000, .f32⟩
  | 101 => ⟨S_, .i32⟩
  | 102 => ⟨S700000, .i32⟩
  | 103 => ⟨S700000, .i1⟩
  | 104 => ⟨S_, .i32⟩
  | 105 => ⟨S700000, .i32⟩
  | 106 => ⟨S700000, .i32⟩
  | 107 => ⟨S700000, .i32⟩
  | 108 => ⟨S700000x1, .i32⟩
  | 109 => ⟨S700000, .f32⟩
  | 110 => ⟨S700000, .f32⟩
  | 111 => ⟨S100000x64, .f32⟩
  | 112 => ⟨S700000x1, .f32⟩
  | 113 => ⟨S_, .i32⟩
  | 114 => ⟨S700000, .i32⟩
  | 115 => ⟨S700000, .i1⟩
  | 116 => ⟨S_, .i32⟩
  | 117 => ⟨S700000, .i32⟩
  | 118 => ⟨S700000, .i32⟩
  | 119 => ⟨S700000, .i32⟩
  | 120 => ⟨S700000x1, .i32⟩
  | 121 => ⟨S700000x64, .f32⟩
  | 122 => ⟨S700000x64, .f32⟩
  | 123 => ⟨S700000x64, .f32⟩
  | 124 => ⟨S_, .f32⟩
  | 125 => ⟨S100000x64, .f32⟩
  | 126 => ⟨S700000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x32, .f32⟩
  | 7 => ⟨S700000x1, .f32⟩
  | 8 => ⟨S_, .i32⟩
  | 9 => ⟨S700000, .i32⟩
  | 10 => ⟨S700000, .i1⟩
  | 11 => ⟨S_, .i32⟩
  | 12 => ⟨S700000, .i32⟩
  | 13 => ⟨S700000, .i32⟩
  | 14 => ⟨S700000, .i32⟩
  | 15 => ⟨S700000x1, .i32⟩
  | 16 => ⟨S700000x32, .f32⟩
  | 17 => ⟨S700000x32, .f32⟩
  | 18 => ⟨S700000x32, .f32⟩
  | 19 => ⟨S_, .f32⟩
  | 20 => ⟨S100000x32, .f32⟩
  | 21 => ⟨S700000x1, .i32⟩
  | 22 => ⟨S100000x32, .f32⟩
  | 23 => ⟨S1x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x16, .f32⟩
  | 30 => ⟨S700000x1, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000x16, .f32⟩
  | 40 => ⟨S700000x16, .f32⟩
  | 41 => ⟨S700000x16, .f32⟩
  | 42 => ⟨S_, .f32⟩
  | 43 => ⟨S100000x16, .f32⟩
  | 44 => ⟨S700000x1, .i32⟩
  | 45 => ⟨S100000x16, .f32⟩
  | 46 => ⟨S1x16, .f32⟩
  | 47 => ⟨S100000x16, .f32⟩
  | 48 => ⟨S100000x16, .f32⟩
  | 49 => ⟨S_, .f32⟩
  | 50 => ⟨S100000x16, .f32⟩
  | 51 => ⟨S100000x16, .f32⟩
  | 52 => ⟨S100000x32, .f32⟩
  | 53 => ⟨S700000x1, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x32, .f32⟩
  | 63 => ⟨S700000x32, .f32⟩
  | 64 => ⟨S700000x32, .f32⟩
  | 65 => ⟨S_, .f32⟩
  | 66 => ⟨S100000x32, .f32⟩
  | 67 => ⟨S700000x1, .i32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S100000x64, .f32⟩
  | 76 => ⟨S700000x1, .f32⟩
  | 77 => ⟨S_, .i32⟩
  | 78 => ⟨S700000, .i32⟩
  | 79 => ⟨S700000, .i1⟩
  | 80 => ⟨S_, .i32⟩
  | 81 => ⟨S700000, .i32⟩
  | 82 => ⟨S700000, .i32⟩
  | 83 => ⟨S700000, .i32⟩
  | 84 => ⟨S700000x1, .i32⟩
  | 85 => ⟨S700000x64, .f32⟩
  | 86 => ⟨S700000x64, .f32⟩
  | 87 => ⟨S700000x64, .f32⟩
  | 88 => ⟨S_, .f32⟩
  | 89 => ⟨S100000x64, .f32⟩
  | 90 => ⟨S700000x1, .i32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x128, .f32⟩
  | 99 => ⟨S700000x1, .f32⟩
  | 100 => ⟨S_, .i32⟩
  | 101 => ⟨S700000, .i32⟩
  | 102 => ⟨S700000, .i1⟩
  | 103 => ⟨S_, .i32⟩
  | 104 => ⟨S700000, .i32⟩
  | 105 => ⟨S700000, .i32⟩
  | 106 => ⟨S700000, .i32⟩
  | 107 => ⟨S700000x1, .i32⟩
  | 108 => ⟨S700000x128, .f32⟩
  | 109 => ⟨S700000x128, .f32⟩
  | 110 => ⟨S700000x128, .f32⟩
  | 111 => ⟨S_, .f32⟩
  | 112 => ⟨S100000x128, .f32⟩
  | 113 => ⟨S700000x1, .i32⟩
  | 114 => ⟨S100000x128, .f32⟩
  | 115 => ⟨S1x128, .f32⟩
  | 116 => ⟨S100000x128, .f32⟩
  | 117 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_call1_v0 : Ref sig .tc := ⟨.hbm, 88, rfl⟩
abbrev main_call1_v1 : Ref sig .tc := ⟨.hbm, 89, rfl⟩
abbrev main_v55 : Ref sig .tc := ⟨.hbm, 90, rfl⟩
abbrev main_c_15 : Ref sig .tc := ⟨.hbm, 91, rfl⟩
abbrev main_v56 : Ref sig .tc := ⟨.hbm, 92, rfl⟩
abbrev main_v57 : Ref sig .tc := ⟨.hbm, 93, rfl⟩
abbrev main_c_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_17 : Ref sig .tc := ⟨.hbm, 101, rfl⟩
abbrev main_v64 : Ref sig .tc := ⟨.hbm, 102, rfl⟩
abbrev main_v65 : Ref sig .tc := ⟨.hbm, 103, rfl⟩
abbrev main_c_18 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_19 : Ref sig .tc := ⟨.hbm, 113, rfl⟩
abbrev main_v74 : Ref sig .tc := ⟨.hbm, 114, rfl⟩
abbrev main_v75 : Ref sig .tc := ⟨.hbm, 115, rfl⟩
abbrev main_c_20 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_21 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call2_cst : Ref sig .tc := ⟨.hbm, 131, rfl⟩
abbrev main_call2_v0 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_22 : Ref sig .tc := ⟨.hbm, 136, rfl⟩
abbrev main_v92 : Ref sig .tc := ⟨.hbm, 137, rfl⟩
abbrev main_v93 : Ref sig .tc := ⟨.hbm, 138, rfl⟩
abbrev main_c_23 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_24 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call3_cst : Ref sig .tc := ⟨.hbm, 154, rfl⟩
abbrev main_call3_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_25 : Ref sig .tc := ⟨.hbm, 159, rfl⟩
abbrev main_v110 : Ref sig .tc := ⟨.hbm, 160, rfl⟩
abbrev main_v111 : Ref sig .tc := ⟨.hbm, 161, rfl⟩
abbrev main_c_26 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_27 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call4_cst : Ref sig .tc := ⟨.hbm, 177, rfl⟩
abbrev main_call4_v0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_28 : Ref sig .tc := ⟨.hbm, 182, rfl⟩
abbrev main_v128 : Ref sig .tc := ⟨.hbm, 183, rfl⟩
abbrev main_v129 : Ref sig .tc := ⟨.hbm, 184, rfl⟩
abbrev main_c_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_30 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_call5_cst : Ref sig .tc := ⟨.hbm, 200, rfl⟩
abbrev main_call5_v0 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_c_31 : Ref sig .tc := ⟨.hbm, 205, rfl⟩
abbrev main_v146 : Ref sig .tc := ⟨.hbm, 206, rfl⟩
abbrev main_v147 : Ref sig .tc := ⟨.hbm, 207, rfl⟩
abbrev main_c_32 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_33 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_call6_cst : Ref sig .tc := ⟨.hbm, 223, rfl⟩
abbrev main_call6_v0 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_c_34 : Ref sig .tc := ⟨.hbm, 228, rfl⟩
abbrev main_v164 : Ref sig .tc := ⟨.hbm, 229, rfl⟩
abbrev main_v165 : Ref sig .tc := ⟨.hbm, 230, rfl⟩
abbrev main_c_35 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_36 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S_S600000 : S_.BroadcastsInDim S600000 (![] : Fin 0 → Fin S600000.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S700000x1_S700000x32_0_1 : S700000x1.BroadcastsInDim S700000x32 (![0, 1] : Fin 2 → Fin S700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S700000x1_S700000x16_0_1 : S700000x1.BroadcastsInDim S700000x16 (![0, 1] : Fin 2 → Fin S700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S100000x64_S64x32_S100000x32_1_0_0_1_n_n_wf : DotDims.WF S100000x64 S64x32 S100000x32 [1] [0] [0] [1] [] []
  gather_S100000x32_S700000x1_S700000x32_1_0_n_n_0_1_132_wf : GatherDims.WF S100000x32 S700000x1 S700000x32 [1] [0] [] [0] [] 1 ![1, 32]
  scatter_S100000x32_S700000x1_S700000x32_1_0_0_1_wf : ScatterDims.WF S100000x32 S700000x1 S700000x32 [1] [0] [0] 1
  dot_S100000x32_S32x16_S100000x16_1_0_0_1_n_n_wf : DotDims.WF S100000x32 S32x16 S100000x16 [1] [0] [0] [1] [] []
  gather_S100000x16_S700000x1_S700000x16_1_0_n_n_0_1_116_wf : GatherDims.WF S100000x16 S700000x1 S700000x16 [1] [0] [] [0] [] 1 ![1, 16]
  scatter_S100000x16_S700000x1_S700000x16_1_0_0_1_wf : ScatterDims.WF S100000x16 S700000x1 S700000x16 [1] [0] [0] 1
  dot_S100000x16_S16x32_S100000x32_1_0_0_1_n_n_wf : DotDims.WF S100000x16 S16x32 S100000x32 [1] [0] [0] [1] [] []
  dot_S100000x32_S32x64_S100000x64_1_0_0_1_n_n_wf : DotDims.WF S100000x32 S32x64 S100000x64 [1] [0] [0] [1] [] []
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S700000x1_S700000x16_1_0_n_n_0_1_116 : GatherDims S100000x16 S700000x1 S700000x16 where
  offsetDims := [1]
  collapsedSliceDims := [0]
  operandBatchingDims := []
  startIndicesBatchingDims := []
  startIndexMap := [0]
  indexVectorDim := 1
  sliceSizes := ![1, 16]
  wf := gather_S100000x16_S700000x1_S700000x16_1_0_n_n_0_1_116_wf
def scatter_S100000x16_S700000x1_S700000x16_1_0_0_1 : ScatterDims S100000x16 S700000x1 S700000x16 where
  updateWindowDims := [1]
  insertedWindowDims := [0]
  scatterDimsToOperandDims := [0]
  indexVectorDim := 1
  wf := scatter_S100000x16_S700000x1_S700000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KRun.lean ====
/-
  The kernel program's run with its result named.

  The program is twenty segments: stretches of host operations and six dense calls. The generated frame proof follows
  the buffers' contents through every segment boundary (`W0 … W20`) and reads the final state against the last of them.
  Read at the result buffer instead of only at the arguments, the same launch says: every weakly fair execution
  terminates, nothing faulting, with the result array at `W20`'s contents and the arguments as launched.
-/
import proofs.«118487_j45509473469002_2_alg».proof.Proof.Gen.KernelIdeal.Frame

set_option maxRecDepth 16384

noncomputable section

namespace Cert.Gala.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result array at the last
    boundary's contents and every argument array as launched. -/
theorem run_value : θ_run defs (onTc (τ := τ) (main (F := F))) ⟨m, fun _ => 0, ρ⟩ (fun r => ∀ c : Dev nD,
      r.2.mem ((c.tc : Thread nD τ).loc main_v163) = W20 m ρ c (Proc.devRef .tc main_v163)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v163 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c)⟩)

end Cert.Gala.KRun

end
-- ==== Proof.LibGcnBatchNorm.lean ====
/-
  Extended-real algebra for a normalised message-passing layer: when every quantity involved is a real number,
  two ways of writing the layer are the same extended real.

  * IsReal a: the extended real a is (the coercion of) a real number. It is closed under zero, one, sum, difference,
    product, negation, finite sums, division by a nonzero real, and if-then-else; it is the same as being neither
    infinity (isReal_iff). An IEEE pattern whose exponent field is not all ones denotes a real (isReal_ieee,
    isReal_ofBits_f32), and the single-precision words of 50000, of the float nearest 1/3 and of the float nearest
    1e-5 are evaluated (ofBits_f32_50000, isReal_ofBits_f32_third, isReal_ofBits_f32_eps).
  * scale_comm: scaling every term of a sum of products by one real factor before the sum, or the sum afterwards, is
    the same — distributivity, which on the extended reals needs the terms to be real.
  * variance_eq: the mean of the squared deviations from the mean is the mean of the squares minus the squared mean,
    the means being taken by dividing by the (nonzero, real) number of terms.
  * sum_fin_three: a sum over Fin (A * B * C) of a function of the position is the three-level sum over
    A blocks, B tiles in a block and C rows in a tile, at position (a * B + b) * C + c (sum_fin_three' for a
    function of the index itself).
-/
import Idealize.ShloMosaic.PureOps.Ideal
import Idealize.ShloMosaic.PureOps.Ideal.Laws
import Mathlib.Algebra.BigOperators.Fin
import Mathlib.Algebra.BigOperators.Intervals
import Mathlib.Tactic

noncomputable section

namespace Cert.LibGcnBatchNorm

open Idealize.ShloMosaic
open scoped BigOperators

/-! ### Real extended reals -/

/-- The extended real a is a real number. -/
def IsReal (a : EReal) : Prop := ∃ r : ℝ, a = (r : EReal)

/-- The coercion of a real is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- The sum of two reals is real. -/
theorem IsReal.add {a b : EReal} (ha : IsReal a) (hb : IsReal b) : IsReal (a + b) := by
  obtain ⟨x, rfl⟩ := ha; obtain ⟨y, rfl⟩ := hb; exact ⟨x + y, (EReal.coe_add x y).symm⟩

/-- The difference of two reals is real. -/
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- The product of two reals is real. -/
theorem IsReal.mul {a b : EReal} (ha : IsReal a) (hb : IsReal b) : IsReal (a * b) := by
  obtain ⟨x, rfl⟩ := ha; obtain ⟨y, rfl⟩ := hb; exact ⟨x * y, (EReal.coe_mul x y).symm⟩

/-- The negation of a real is real. -/
theorem IsReal.neg {a : EReal} (ha : IsReal a) : IsReal (-a) := by
  obtain ⟨x, rfl⟩ := ha; exact ⟨-x, (EReal.coe_neg x).symm⟩

/-- The larger of two reals is real. -/
theorem IsReal.max {a b : EReal} (ha : IsReal a) (hb : IsReal b) : IsReal (max a b) := by
  rcases max_choice a b with h | h <;> rw [h] <;> assumption

/-- Either branch real, the conditional is real. -/
theorem IsReal.ite {p : Prop} [Decidable p] {a b : EReal} (ha : IsReal a) (hb : IsReal b) :
    IsReal (if p then a else b) := by
  split_ifs <;> assumption

/-- A finite sum of reals is real. -/
theorem IsReal.sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A real divided by a nonzero real is real. -/
theorem IsReal.div_coe {a : EReal} (ha : IsReal a) {c : ℝ} (hc : c ≠ 0) : IsReal (Ideal.div a (c : EReal)) := by
  rw [Ideal.div_coe hc]; exact ha.mul (isReal_coe _)

/-- A real divided by a nonzero real is real, the divisor given as an extended real with its real value. -/
theorem IsReal.div {a n : EReal} (ha : IsReal a) {c : ℝ} (hn : n = (c : EReal)) (hc : c ≠ 0) :
    IsReal (Ideal.div a n) := by
  rw [hn]; exact ha.div_coe hc

/-- Real means neither infinity. -/
theorem isReal_iff (a : EReal) : IsReal a ↔ a ≠ ⊤ ∧ a ≠ ⊥ := by
  constructor
  · rintro ⟨r, rfl⟩; exact ⟨EReal.coe_ne_top r, EReal.coe_ne_bot r⟩
  · rintro ⟨ht, hb⟩; exact ⟨a.toReal, (EReal.coe_toReal ht hb).symm⟩

/-- A real is not plus infinity. -/
theorem IsReal.ne_top {a : EReal} (ha : IsReal a) : a ≠ ⊤ := ((isReal_iff a).mp ha).1

/-- A real is not minus infinity. -/
theorem IsReal.ne_bot {a : EReal} (ha : IsReal a) : a ≠ ⊥ := ((isReal_iff a).mp ha).2

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ### Bit patterns that denote reals -/

/-- An IEEE pattern whose exponent field is not all ones denotes a real number. -/
theorem isReal_ieee (e m : ℕ) {w : ℕ} (b : BitVec w) (h : (b.extractLsb' m e).toNat ≠ 2 ^ e - 1) :
    IsReal (Ideal.ieee e m b) := by
  unfold Ideal.ieee
  simp only [if_neg h]
  split_ifs <;> exact isReal_coe _

/-- A single-precision word whose exponent field is not 255 denotes a real number. -/
theorem isReal_ofBits_f32 (w : BitVec 32) (h : (w.extractLsb' 23 8).toNat ≠ 255) : IsReal (Ideal.ofBits .f32 w) :=
  isReal_ieee 8 23 w h

/-- The single-precision word of 50000. -/
theorem ofBits_f32_50000 : Ideal.ofBits .f32 0x47435000#32 = ((50000 : ℝ) : EReal) := by
  simp [Ideal.ofBits, Ideal.ieee, -EReal.coe_mul]; norm_num

/-- The single-precision word nearest 1/3 denotes a real. -/
theorem isReal_ofBits_f32_third : IsReal (Ideal.ofBits .f32 0x3EAAAAAB#32) :=
  isReal_ofBits_f32 _ (by decide)

/-- The single-precision word nearest 1e-5 denotes a real. -/
theorem isReal_ofBits_f32_eps : IsReal (Ideal.ofBits .f32 0x3727C5AC#32) :=
  isReal_ofBits_f32 _ (by decide)

/-- The all-zero single-precision word is zero. -/
theorem ofBits_f32_zero : Ideal.ofBits .f32 0x00000000#32 = 0 := Ideal.ofBits_zero_f32

/-! ### Scaling before or after a sum of products -/

/-- Scaling each term of a sum of products by one factor before the sum, or the whole sum afterwards, is the same
    extended real when the terms, the weights and the factor are real. -/
theorem scale_comm' {K : Type*} (t : Finset K) (p w : K → EReal) (s : EReal)
    (hp : ∀ k, IsReal (p k)) (hw : ∀ k, IsReal (w k)) (hs : IsReal s) :
    ∑ k ∈ t, (p k * s) * w k = (∑ k ∈ t, p k * w k) * s := by
  choose p' hp' using hp
  choose w' hw' using hw
  obtain ⟨s', rfl⟩ := hs
  simp only [hp', hw', ← EReal.coe_mul]
  rw [← coe_sum, ← coe_sum, ← EReal.coe_mul, Finset.sum_mul]
  congr 1
  exact Finset.sum_congr rfl fun k _ => by ring

/-- The same with each term itself a product of two reals: the sum over k of (a k · b k · s) · w k is
    (the sum over k of (a k · b k) · w k) · s. -/
theorem scale_comm {K : Type*} [Fintype K] (a b w : K → EReal) (s : EReal)
    (ha : ∀ k, IsReal (a k)) (hb : ∀ k, IsReal (b k)) (hw : ∀ k, IsReal (w k)) (hs : IsReal s) :
    ∑ k, (a k * b k * s) * w k = (∑ k, (a k * b k) * w k) * s :=
  scale_comm' Finset.univ (fun k => a k * b k) w s (fun k => (ha k).mul (hb k)) hw hs

/-! ### The two forms of the variance -/

/-- Over the reals: the mean of the squared deviations from the mean is the mean of the squares minus the squared
    mean, with 1/n written as a factor. -/
theorem variance_real {V : Type*} [Fintype V] (h : V → ℝ) {n : ℝ} (hn : n ≠ 0) (hcard : (Fintype.card V : ℝ) = n) :
    (∑ v, (h v - (∑ v, h v) * (1 / n)) * (h v - (∑ v, h v) * (1 / n))) * (1 / n)
      = (∑ v, h v * h v) * (1 / n) - ((∑ v, h v) * (1 / n)) * ((∑ v, h v) * (1 / n)) := by
  set S : ℝ := ∑ v, h v with hS
  have hexp : ∀ v, (h v - S * (1 / n)) * (h v - S * (1 / n))
      = h v * h v - (2 * (S * (1 / n))) * h v + (S * (1 / n)) * (S * (1 / n)) := fun v => by ring
  simp only [hexp, Finset.sum_add_distrib, Finset.sum_sub_distrib, ← Finset.mul_sum, Finset.sum_const,
    Finset.card_univ, nsmul_eq_mul, hcard, ← hS]
  field_simp
  ring

/-- On the extended reals, for a column of reals and a nonzero real count equal to the number of terms: the mean
    (sum divided by the count) of the squared deviations from the mean is the mean of the squares minus the
    squared mean. -/
theorem variance_eq {V : Type*} [Fintype V] (h : V → EReal) (hh : ∀ v, IsReal (h v)) {n : ℝ} (hn : n ≠ 0)
    (hcard : (Fintype.card V : ℝ) = n) :
    Ideal.div (∑ v, (h v - Ideal.div (∑ v, h v) (n : EReal)) * (h v - Ideal.div (∑ v, h v) (n : EReal))) (n : EReal)
      = Ideal.div (∑ v, h v * h v) (n : EReal)
        - Ideal.div (∑ v, h v) (n : EReal) * Ideal.div (∑ v, h v) (n : EReal) := by
  choose h' hh' using hh
  simp only [hh', Ideal.div_coe hn, ← EReal.coe_mul, ← coe_sum, ← EReal.coe_sub]
  congr 1
  exact variance_real h' hn hcard

/-! ### A flat sum as a three-level sum -/

/-- A sum over range (a * b) is the sum over a consecutive tiles of length b. -/
theorem sum_range_mul {M : Type*} [AddCommMonoid M] (g : ℕ → M) (a b : ℕ) :
    ∑ n ∈ Finset.range (a * b), g n = ∑ i ∈ Finset.range a, ∑ j ∈ Finset.range b, g (i * b + j) := by
  induction a with
  | zero => simp
  | succ a ih => rw [Nat.succ_mul, Finset.sum_range_add, ih, Finset.sum_range_succ]

/-- A sum over Fin (A * B * C) of a function of the position is the sum over A blocks, B tiles in a block and
    C rows in a tile of the function at position (a * B + b) * C + c. -/
theorem sum_fin_three {M : Type*} [AddCommMonoid M] (A B C : ℕ) (f : ℕ → M) :
    ∑ v : Fin (A * B * C), f v.val
      = ∑ a : Fin A, ∑ b : Fin B, ∑ c : Fin C, f ((a.val * B + b.val) * C + c.val) := by
  rw [Fin.sum_univ_eq_sum_range f (A * B * C), sum_range_mul f (A * B) C,
    sum_range_mul (fun i => ∑ c ∈ Finset.range C, f (i * C + c)) A B,
    ← Fin.sum_univ_eq_sum_range (fun a => ∑ b ∈ Finset.range B, ∑ c ∈ Finset.range C, f ((a * B + b) * C + c)) A]
  refine Finset.sum_congr rfl fun a _ => ?_
  rw [← Fin.sum_univ_eq_sum_range (fun b => ∑ c ∈ Finset.range C, f ((a.val * B + b) * C + c)) B]
  refine Finset.sum_congr rfl fun b _ => ?_
  rw [← Fin.sum_univ_eq_sum_range (fun c => f ((a.val * B + b.val) * C + c)) C]

/-- The position (a * B + b) * C + c of row c of tile b of block a lies below A * B * C. -/
theorem three_lt {A B C : ℕ} (a : Fin A) (b : Fin B) (c : Fin C) : (a.val * B + b.val) * C + c.val < A * B * C := by
  have h1 : a.val * B + b.val + 1 ≤ A * B := by
    calc a.val * B + b.val + 1 ≤ a.val * B + B := by have := b.isLt; omega
      _ = (a.val + 1) * B := by ring
      _ ≤ A * B := Nat.mul_le_mul_right B a.isLt
  calc (a.val * B + b.val) * C + c.val < (a.val * B + b.val) * C + C := by have := c.isLt; omega
    _ = (a.val * B + b.val + 1) * C := by ring
    _ ≤ A * B * C := Nat.mul_le_mul_right C h1

/-- A sum over Fin (A * B * C) is the sum over A blocks, B tiles in a block and C rows in a tile of the term at
    position (a * B + b) * C + c. -/
theorem sum_fin_three' {M : Type*} [AddCommMonoid M] (A B C : ℕ) (g : Fin (A * B * C) → M) :
    ∑ v, g v = ∑ a : Fin A, ∑ b : Fin B, ∑ c : Fin C, g ⟨(a.val * B + b.val) * C + c.val, three_lt a b c⟩ := by
  have h := sum_fin_three A B C (fun n => if hn : n < A * B * C then g ⟨n, hn⟩ else 0)
  simp only [Fin.is_lt, three_lt, dif_pos, Fin.eta] at h
  exact h

end Cert.LibGcnBatchNorm

end
-- ==== Proof.Conv.lean ====
/-
  One graph-convolution layer, entry by entry, on the extended reals.

  A layer takes node features `h : N → K → EReal`, a projection `U`, a bias and an edge list: edge `e` carries the
  features of its source node `src e` to its target with weight `w e`. The entry of the result at one node and one
  output column is the bias plus, over the edges `S` into that node, the weight times the projected source row:
  `(0 + ∑ e ∈ S, w e * ∑ k, h (src e) k * U k) + b`  (`convAt`; the `0 +` is the zero array the sum is scattered into).

  Two other arrangements of the same entry occur: the weight on the right of the projected row, which is the same
  extended real by commutativity alone; and AGGREGATE FIRST — the weighted source rows summed per feature column, the
  projection applied to that sum —, which is the same by distributing the projection over the sum over the edges and
  exchanging the two finite sums. On the extended reals that distribution needs every factor to be a real number
  (∞ - ∞ has no value), so that form takes the features, the weights and the projection real.
-/
import proofs.«118487_j45509473469002_2_alg».proof.Proof.LibGcnBatchNorm
import Idealize.ShloMosaic.PureOps.Ideal

noncomputable section

open scoped BigOperators

namespace Cert.Gala

open Cert.LibGcnBatchNorm

variable {E N K : Type} [Fintype K]

/-- The entry of one layer at a node whose incoming edges are `S`, for one output column (`U` that column of the
    projection, `b` that entry of the bias). -/
def convAt (S : Finset E) (src : E → N) (w : E → EReal) (h : N → K → EReal) (U : K → EReal) (b : EReal) : EReal :=
  (0 + ∑ e ∈ S, w e * ∑ k, h (src e) k * U k) + b

/-- Real features, weights, projection and bias give a real entry. -/
theorem convAt_real (S : Finset E) (src : E → N) (w : E → EReal) (h : N → K → EReal) (U : K → EReal) (b : EReal)
    (hh : ∀ n k, IsReal (h n k)) (hw : ∀ e, IsReal (w e)) (hU : ∀ k, IsReal (U k)) (hb : IsReal b) :
    IsReal (convAt S src w h U b) :=
  (isReal_zero.add (IsReal.sum S _ fun e _ => (hw e).mul (IsReal.sum_univ _ fun k => (hh _ k).mul (hU k)))).add hb

/-- The weight written on the right of the projected source row. -/
theorem conv_weight_right (S : Finset E) (src : E → N) (w : E → EReal) (h : N → K → EReal) (U : K → EReal) (b : EReal) :
    (0 + ∑ e ∈ S, (∑ k, h (src e) k * U k) * w e) + b = convAt S src w h U b :=
  congrArg (fun s => (0 + s) + b) (Finset.sum_congr rfl fun e _ => mul_comm _ _)

/-- AGGREGATE FIRST: the weighted source rows summed per feature column, then projected, is the layer's entry when the
    features, the weights and the projection are real. -/
theorem conv_aggregate_first (S : Finset E) (src : E → N) (w : E → EReal) (h : N → K → EReal) (U : K → EReal) (b : EReal)
    (hh : ∀ n k, IsReal (h n k)) (hw : ∀ e, IsReal (w e)) (hU : ∀ k, IsReal (U k)) :
    (∑ k, (0 + ∑ e ∈ S, h (src e) k * w e) * U k) + b = convAt S src w h U b := by
  obtain ⟨h', rfl⟩ : ∃ h' : N → K → ℝ, h = fun n k => ((h' n k : ℝ) : EReal) :=
    ⟨fun n k => (hh n k).choose, funext fun n => funext fun k => (hh n k).choose_spec⟩
  obtain ⟨w', rfl⟩ : ∃ w' : E → ℝ, w = fun e => ((w' e : ℝ) : EReal) :=
    ⟨fun e => (hw e).choose, funext fun e => (hw e).choose_spec⟩
  obtain ⟨U', rfl⟩ : ∃ U' : K → ℝ, U = fun k => ((U' k : ℝ) : EReal) :=
    ⟨fun k => (hU k).choose, funext fun k => (hU k).choose_spec⟩
  unfold convAt
  refine congrArg (· + b) ?_
  simp only [zero_add]
  have e1 : ∀ k, (∑ e ∈ S, ((h' (src e) k : ℝ) : EReal) * ((w' e : ℝ) : EReal)) * ((U' k : ℝ) : EReal)
      = (((∑ e ∈ S, h' (src e) k * w' e) * U' k : ℝ) : EReal) := by
    intro k
    rw [EReal.coe_mul, coe_sum]
    simp only [EReal.coe_mul]
  have e2 : ∀ e, ((w' e : ℝ) : EReal) * ∑ k, ((h' (src e) k : ℝ) : EReal) * ((U' k : ℝ) : EReal)
      = ((w' e * ∑ k, h' (src e) k * U' k : ℝ) : EReal) := by
    intro e
    rw [EReal.coe_mul, coe_sum]
    simp only [EReal.coe_mul]
  simp only [e1, e2, ← coe_sum]
  refine congrArg (fun r : ℝ => (r : EReal)) ?_
  simp only [Finset.sum_mul, Finset.mul_sum]
  rw [Finset.sum_comm]
  exact Finset.sum_congr rfl fun e _ => Finset.sum_congr rfl fun k _ => by ring

/-- The rectified entry is real when the entry is. -/
theorem relu_real {a : EReal} (ha : IsReal a) : IsReal (max a 0) := ha.max isReal_zero

/-! ## The whole network -/

/-- One layer as a map of feature arrays: `into p` the edges into node `p`. -/
def layer {E N K J : Type} [Fintype K] (into : N → Finset E) (src : E → N) (w : E → EReal) (U : K → J → EReal)
    (b : J → EReal) (h : N → K → EReal) : N → J → EReal :=
  fun p q => convAt (into p) src w h (fun k => U k q) (b q)

/-- The rectifier, entry by entry. -/
def rect {N J : Type} (f : N → J → EReal) : N → J → EReal := fun p q => max (f p q) 0

theorem layer_real {E N K J : Type} [Fintype K] (into : N → Finset E) (src : E → N) (w : E → EReal) (U : K → J → EReal)
    (b : J → EReal) (h : N → K → EReal) (hw : ∀ e, IsReal (w e)) (hU : ∀ k j, IsReal (U k j)) (hb : ∀ j, IsReal (b j))
    (hh : ∀ n k, IsReal (h n k)) (p : N) (q : J) : IsReal (layer into src w U b h p q) :=
  convAt_real _ _ _ _ _ _ hh hw (fun k => hU k q) (hb q)

theorem rect_real {N J : Type} (f : N → J → EReal) (hf : ∀ p q, IsReal (f p q)) (p : N) (q : J) : IsReal (rect f p q) :=
  relu_real (hf p q)

/-- The graph and the parameters of the six-layer network: the edges into each node and each edge's source; the smooth
    weights (encoder) and the sharp weights (decoder); the input features; three encoder and three decoder layers'
    projections and biases (widths 128 → 64 → 32 → 16 → 32 → 64 → 128). -/
structure Net (N E : ℕ) where
  into : Fin N → Finset (Fin E)
  src : Fin E → Fin N
  ws : Fin E → EReal
  wh : Fin E → EReal
  X : Fin N → Fin 128 → EReal
  W1 : Fin 128 → Fin 64 → EReal
  b1 : Fin 64 → EReal
  W2 : Fin 64 → Fin 32 → EReal
  b2 : Fin 32 → EReal
  W3 : Fin 32 → Fin 16 → EReal
  b3 : Fin 16 → EReal
  U1 : Fin 16 → Fin 32 → EReal
  c1 : Fin 32 → EReal
  U2 : Fin 32 → Fin 64 → EReal
  c2 : Fin 64 → EReal
  U3 : Fin 64 → Fin 128 → EReal
  c3 : Fin 128 → EReal

namespace Net

variable {N E : ℕ} (g : Net N E)

/-- The encoder's three rectified layers, the decoder's two rectified layers, and the output layer. -/
def a1 : Fin N → Fin 64 → EReal := rect (layer g.into g.src g.ws g.W1 g.b1 g.X)
def a2 : Fin N → Fin 32 → EReal := rect (layer g.into g.src g.ws g.W2 g.b2 g.a1)
def a3 : Fin N → Fin 16 → EReal := rect (layer g.into g.src g.ws g.W3 g.b3 g.a2)
def d1 : Fin N → Fin 32 → EReal := rect (layer g.into g.src g.wh g.U1 g.c1 g.a3)
def d2 : Fin N → Fin 64 → EReal := rect (layer g.into g.src g.wh g.U2 g.c2 g.d1)
def out : Fin N → Fin 128 → EReal := layer g.into g.src g.wh g.U3 g.c3 g.d2

/-- Every weight, feature, projection and bias is a real number. -/
structure Real : Prop where
  ws : ∀ e, IsReal (g.ws e)
  wh : ∀ e, IsReal (g.wh e)
  X : ∀ n k, IsReal (g.X n k)
  W1 : ∀ k j, IsReal (g.W1 k j)
  b1 : ∀ j, IsReal (g.b1 j)
  W2 : ∀ k j, IsReal (g.W2 k j)
  b2 : ∀ j, IsReal (g.b2 j)
  W3 : ∀ k j, IsReal (g.W3 k j)
  b3 : ∀ j, IsReal (g.b3 j)
  U1 : ∀ k j, IsReal (g.U1 k j)
  c1 : ∀ j, IsReal (g.c1 j)
  U2 : ∀ k j, IsReal (g.U2 k j)
  c2 : ∀ j, IsReal (g.c2 j)
  U3 : ∀ k j, IsReal (g.U3 k j)

variable {g}

theorem a1_real (h : g.Real) (p : Fin N) (q : Fin 64) : IsReal (g.a1 p q) :=
  rect_real _ (layer_real _ _ _ _ _ _ h.ws h.W1 h.b1 h.X) p q
theorem a2_real (h : g.Real) (p : Fin N) (q : Fin 32) : IsReal (g.a2 p q) :=
  rect_real _ (layer_real _ _ _ _ _ _ h.ws h.W2 h.b2 (a1_real h)) p q
theorem a3_real (h : g.Real) (p : Fin N) (q : Fin 16) : IsReal (g.a3 p q) :=
  rect_real _ (layer_real _ _ _ _ _ _ h.ws h.W3 h.b3 (a2_real h)) p q
theorem d1_real (h : g.Real) (p : Fin N) (q : Fin 32) : IsReal (g.d1 p q) :=
  rect_real _ (layer_real _ _ _ _ _ _ h.wh h.U1 h.c1 (a3_real h)) p q
theorem d2_real (h : g.Real) (p : Fin N) (q : Fin 64) : IsReal (g.d2 p q) :=
  rect_real _ (layer_real _ _ _ _ _ _ h.wh h.U2 h.c2 (d1_real h)) p q

end Net

end Cert.Gala

end
-- ==== Proof.LibScatterGather.lean ====
/-
  A scatter-add and a gather along the leading axis, read at one element.

  The accumulating scatter with one scatter index per update row (inserted window axis 0, the
  start index read signed and not clamped) adds to operand row `c` exactly the update rows whose
  index word, read as a signed integer, is `c`; the gather with one start index per result row
  (collapsed slice axis 0, the start index read signed and clamped into `[0, N - 1]`) reads the
  operand row at that clamped index. Both for a flat operand `[N]` and for a matrix operand
  `[N, C]` whose second axis is carried along unchanged.
-/
import Idealize.ShloMosaic.PureOps.Ideal
import Idealize.ShloMosaic.PureOps.Ideal.Laws
import Idealize.ShloMosaic.Lib.ValueIdx

noncomputable section

open scoped BigOperators

namespace Cert.ScatterGather

open Idealize.ShloMosaic Idealize.ShloMosaic.ValueIdx

/-- A scatter-add into a flat array `[N]` with one index per update: element `c` of the result is the
    operand's element `c` plus the sum of the updates `e` whose index word, read signed, equals `c`. -/
theorem scatterAdd1_apply {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (c : Fin N) :
    Ideal.hostScatterAdd d x idx upd (ix1 c)
      = x (ix1 c) + ∑ e ∈ Finset.univ.filter
          (fun e : Fin E => (idx (ix2 e ⟨0, Nat.one_pos⟩)).toInt = (c.val : Int)), upd (ix1 e) := by
  obtain ⟨uw, iw, sd, iv, wf⟩ := d
  dsimp only at huw hiw hsd hiv
  subst huw hiw hsd hiv
  unfold Ideal.hostScatterAdd
  congr 1
  have hsz : ((⟨1, ![N]⟩ : Shape).size 0 : Nat) = N := rfl
  have key : ∀ e : Fin E,
      (ScatterDims.resultIdx? (s := ⟨1, ![N]⟩) (si := ⟨2, ![E, 1]⟩) (u := ⟨1, ![E]⟩) ⟨[], [0], [0], 1, wf⟩
        (ix1 e) idx = some (ix1 c)) ↔ (idx (ix2 e ⟨0, Nat.one_pos⟩)).toInt = (c.val : Int) := by
    intro e
    have hst : ∀ a, ScatterDims.start (s := ⟨1, ![N]⟩) (si := ⟨2, ![E, 1]⟩) (u := ⟨1, ![E]⟩) ⟨[], [0], [0], 1, wf⟩
        (ix1 e) idx a = (idx (ix2 e ⟨0, Nat.one_pos⟩)).toInt := by
      intro a
      obtain rfl : a = 0 := Subsingleton.elim _ _
      unfold ScatterDims.start
      rw [dif_pos (List.mem_singleton.mpr rfl)]
      have hsi : ∀ p, ScatterDims.siIdx (s := ⟨1, ![N]⟩) (si := ⟨2, ![E, 1]⟩) (u := ⟨1, ![E]⟩) ⟨[], [0], [0], 1, wf⟩
          (ix1 e) ⟨List.idxOf (0 : Fin 1) [0], p⟩ = ix2 e ⟨0, Nat.one_pos⟩ := by
        intro p; funext b; refine Fin.ext ?_
        match b with
        | ⟨0, _⟩ => rfl
        | ⟨1, _⟩ => rfl
      rw [hsi]
    have hwin : ∀ a, ScatterDims.window (s := ⟨1, ![N]⟩) (si := ⟨2, ![E, 1]⟩) (u := ⟨1, ![E]⟩) ⟨[], [0], [0], 1, wf⟩
        (ix1 e) a = 0 := by
      intro a
      obtain rfl : a = 0 := Subsingleton.elim _ _
      unfold ScatterDims.window
      rw [dif_neg (by simp [Shape.kept])]
    have hc := c.isLt
    constructor
    · intro h
      unfold ScatterDims.resultIdx? at h
      split at h
      · rename_i hall
        have h0 := hall 0
        have hc0 : (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val :=
          congrArg Fin.val (congrFun (Option.some.inj h) 0)
        rw [hst, hwin] at h0 hc0
        rw [hsz] at h0
        omega
      · cases h
    · intro hv
      have hall : ∀ a, 0 ≤ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
          ∧ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
            < (((⟨1, ![N]⟩ : Shape).size a : Nat) : Int) := by
        intro a
        rw [hst, hwin]
        obtain rfl : a = 0 := Subsingleton.elim _ _
        rw [hsz]
        omega
      unfold ScatterDims.resultIdx?
      rw [dif_pos hall]
      congr 1
      funext a
      obtain rfl : a = 0 := Subsingleton.elim _ _
      refine Fin.ext ?_
      show (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val
      rw [hst, hwin]
      omega
  refine Finset.sum_nbij' (fun j => (j 0 : Fin E)) (fun e => ix1 e) ?_ ?_ ?_ ?_ ?_
  · intro j hj
    have h2 := (Finset.mem_filter.1 hj).2
    rw [eq_ix1 j] at h2
    exact Finset.mem_filter.2 ⟨Finset.mem_univ _, (key _).1 h2⟩
  · intro e he
    exact Finset.mem_filter.2 ⟨Finset.mem_univ _, (key e).2 (Finset.mem_filter.1 he).2⟩
  · intro j _
    exact (eq_ix1 j).symm
  · intro e _
    rfl
  · intro j _
    exact congrArg upd (eq_ix1 j)

/-- A scatter-add of rows into a matrix `[N, C]` with one row index per update row: element `(c, k)` of the
    result is the operand's element `(c, k)` plus the sum over the update rows `e` whose index word, read
    signed, equals `c` of their element `k`. -/
theorem scatterAdd2_apply {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (c : Fin N) (k : Fin C) :
    Ideal.hostScatterAdd d x idx upd (ix2 c k)
      = x (ix2 c k) + ∑ e ∈ Finset.univ.filter
          (fun e : Fin E => (idx (ix2 e ⟨0, Nat.one_pos⟩)).toInt = (c.val : Int)), upd (ix2 e k) := by
  obtain ⟨uw, iw, sd, iv, wf⟩ := d
  dsimp only at huw hiw hsd hiv
  subst huw hiw hsd hiv
  unfold Ideal.hostScatterAdd
  congr 1
  have hsz0 : ((⟨2, ![N, C]⟩ : Shape).size 0 : Nat) = N := rfl
  have hsz1 : ((⟨2, ![N, C]⟩ : Shape).size 1 : Nat) = C := rfl
  have key : ∀ (e : Fin E) (k' : Fin C),
      (ScatterDims.resultIdx? (⟨[1], [0], [0], 1, wf⟩ : ScatterDims ⟨2, ![N, C]⟩ ⟨2, ![E, 1]⟩ ⟨2, ![E, C]⟩) (ix2 e k') idx = some (ix2 c k))
        ↔ ((idx (ix2 e ⟨0, Nat.one_pos⟩)).toInt = (c.val : Int) ∧ k' = k) := by
    intro e k'
    have hst0 : ScatterDims.start (⟨[1], [0], [0], 1, wf⟩ : ScatterDims ⟨2, ![N, C]⟩ ⟨2, ![E, 1]⟩ ⟨2, ![E, C]⟩) (ix2 e k') idx 0 = (idx (ix2 e ⟨0, Nat.one_pos⟩)).toInt := by
      unfold ScatterDims.start
      rw [dif_pos (List.mem_singleton.mpr rfl)]
      have hsi : ∀ p, ScatterDims.siIdx (⟨[1], [0], [0], 1, wf⟩ : ScatterDims ⟨2, ![N, C]⟩ ⟨2, ![E, 1]⟩ ⟨2, ![E, C]⟩) (ix2 e k') ⟨List.idxOf (0 : Fin 2) [0], p⟩ = ix2 e ⟨0, Nat.one_pos⟩ := by
        intro p; funext b; refine Fin.ext ?_
        match b with
        | ⟨0, _⟩ => rfl
        | ⟨1, _⟩ => rfl
      rw [hsi]
    have hst1 : ScatterDims.start (⟨[1], [0], [0], 1, wf⟩ : ScatterDims ⟨2, ![N, C]⟩ ⟨2, ![E, 1]⟩ ⟨2, ![E, C]⟩) (ix2 e k') idx 1 = 0 := by
      unfold ScatterDims.start
      rw [dif_neg (fun h => absurd (congrArg Fin.val (List.mem_singleton.mp h)) Nat.one_ne_zero)]
    have hwin0 : ScatterDims.window (⟨[1], [0], [0], 1, wf⟩ : ScatterDims ⟨2, ![N, C]⟩ ⟨2, ![E, 1]⟩ ⟨2, ![E, C]⟩) (ix2 e k') 0 = 0 := by
      unfold ScatterDims.window
      rw [dif_neg (by simp [Shape.kept])]
    have hwin1 : ScatterDims.window (⟨[1], [0], [0], 1, wf⟩ : ScatterDims ⟨2, ![N, C]⟩ ⟨2, ![E, 1]⟩ ⟨2, ![E, C]⟩) (ix2 e k') 1 = k'.val := by
      unfold ScatterDims.window
      rw [dif_pos (by simp [Shape.kept])]
      rfl
    have hc := c.isLt
    have hk := k.isLt
    have hk' := k'.isLt
    constructor
    · intro h
      unfold ScatterDims.resultIdx? at h
      split at h
      · rename_i hall
        have h0 := hall 0
        have hc0 : (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val :=
          congrArg Fin.val (congrFun (Option.some.inj h) 0)
        have hc1 : (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k.val :=
          congrArg Fin.val (congrFun (Option.some.inj h) 1)
        rw [hst0, hwin0] at h0 hc0
        rw [hsz0] at h0
        rw [hst1, hwin1] at hc1
        exact ⟨by omega, Fin.ext (by omega)⟩
      · cases h
    · rintro ⟨hv, rfl⟩
      have hall : ∀ a, 0 ≤ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
          ∧ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
            < (((⟨2, ![N, C]⟩ : Shape).size a : Nat) : Int) := by
        intro a
        match a with
        | ⟨0, _⟩ =>
          show 0 ≤ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
            ∧ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
              < (((⟨2, ![N, C]⟩ : Shape).size 0 : Nat) : Int)
          rw [hst0, hwin0, hsz0]
          omega
        | ⟨1, _⟩ =>
          show 0 ≤ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
            ∧ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
              < (((⟨2, ![N, C]⟩ : Shape).size 1 : Nat) : Int)
          rw [hst1, hwin1, hsz1]
          omega
      unfold ScatterDims.resultIdx?
      rw [dif_pos hall]
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val
        rw [hst0, hwin0]
        omega
      | ⟨1, _⟩ =>
        show (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k'.val
        rw [hst1, hwin1]
        omega
  have hmem : ∀ j : (⟨2, ![E, C]⟩ : Shape).Idx,
      ScatterDims.resultIdx? (⟨[1], [0], [0], 1, wf⟩ : ScatterDims ⟨2, ![N, C]⟩ ⟨2, ![E, 1]⟩ ⟨2, ![E, C]⟩) j idx = some (ix2 c k)
        → (idx (ix2 (j 0 : Fin E) ⟨0, Nat.one_pos⟩)).toInt = (c.val : Int) ∧ ix2 (j 0 : Fin E) k = j := by
    intro j hj
    rw [eq_ix2 j] at hj
    have h2 := (key _ _).1 hj
    refine ⟨h2.1, ?_⟩
    have h3 : ix2 (j 0 : Fin E) k = ix2 (j 0 : Fin E) (j 1 : Fin C) :=
      congrArg (fun t : Fin C => ix2 (j 0 : Fin E) t) h2.2.symm
    exact h3.trans (eq_ix2 j).symm
  refine Finset.sum_nbij' (fun j => (j 0 : Fin E)) (fun e => ix2 e k) ?_ ?_ ?_ ?_ ?_
  · intro j hj
    exact Finset.mem_filter.2 ⟨Finset.mem_univ _, (hmem j (Finset.mem_filter.1 hj).2).1⟩
  · intro e he
    exact Finset.mem_filter.2 ⟨Finset.mem_univ _, (key e k).2 ⟨(Finset.mem_filter.1 he).2, rfl⟩⟩
  · intro j hj
    exact (hmem j (Finset.mem_filter.1 hj).2).2
  · intro e _
    rfl
  · intro j hj
    exact congrArg upd (hmem j (Finset.mem_filter.1 hj).2).2.symm

/-- A gather from a flat array `[N]` with one start index per result element: result element `e` is the
    operand at the index word of `e`, read signed and clamped into `[0, N - 1]`. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e)
      = x (ix1 ⟨min (idx (ix2 e ⟨0, Nat.one_pos⟩)).toInt.toNat (N - 1), by omega⟩) := by
  obtain ⟨od, cd, ob, sb, sm, iv, ss, wf⟩ := d
  dsimp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p, GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e ⟨0, Nat.one_pos⟩ := by
    intro p
    funext b; refine Fin.ext ?_
    match b with
    | ⟨0, _⟩ => rfl
    | ⟨1, _⟩ => rfl
  rw [hsi]
  rfl

/-- A gather of rows from a matrix `[N, C]` with one start index per result row: result element `(e, k)` is
    the operand's element `k` of the row at the index word of `e`, read signed and clamped into `[0, N - 1]`. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ p, GatherDims.siIdx (s := ⟨2, ![N, C]⟩) (si := ⟨2, ![E, 1]⟩) (t := ⟨2, ![E, C]⟩)
        ⟨[1], [0], [], [], [0], 1, ![1, C], wf⟩ (ix2 e k) ⟨List.idxOf (0 : Fin 2) [0], p⟩ = ix2 e ⟨0, Nat.one_pos⟩ := by
      intro p
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ScatterGather

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«118487_j45509473469002_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.ConvOps.lean ====
/-
  The operations of one graph-convolution layer, as the two programs spell them, read at one entry.

  Conventions. The edge list reaches every gather and scatter as an `[E, 1]` array of 32-bit index words. The SOURCE
  node of edge `e` is its row word read signed and clamped into the node range (what a gather of one row does with its
  start index): `srcOf`. The edges INTO node `p` are those whose column word read signed is `p` (what a scatter-add
  sums at `p`; an out-of-range word updates nothing): `edgesInto`.

  `aggregate_apply`: zeros scatter-added, at the column words, with the gathered rows of a feature array each scaled
  by its edge's weight — entry `(p, k)` is `0 + ∑ e into p, feat (src e, k) * w e`.
  `reference_layer_apply`: the reference's layer — project (`dot_general`), gather, scale (weight on the LEFT),
  scatter-add, add the bias broadcast from a vector — at `(p, q)` is the layer's entry `convAt`.
  `matArr`, `denseArr`: a matrix product, and a matrix product plus a bias row, as whole-array functions.
-/
import proofs.«118487_j45509473469002_2_alg».proof.Proof.Conv
import proofs.«118487_j45509473469002_2_alg».proof.Proof.LibScatterGather
import proofs.«118487_j45509473469002_2_alg».proof.Proof.LibMatRows
import proofs.«118487_j45509473469002_2_alg».proof.Proof.LibHostBroadcast
import Idealize.ShloMosaic.Lib.Pipeline.Value
import Idealize.ShloMosaic.Lib.ValueIdx
import Idealize.ShloMosaic.PureOps.Ideal.Laws

noncomputable section

open scoped BigOperators

namespace Cert.Gala

open Idealize.ShloMosaic Idealize.ShloMosaic.ValueIdx Cert.LibMatRows Cert.LibHostBroadcast Cert.ScatterGather

variable {N E K J : ℕ}

/-- A buffer's contents read as a float array of a stated shape (the contents' own type names the buffer; this one
    names the shape, so that arithmetic on an entry is arithmetic on the extended reals). -/
abbrev asF (s : Shape) (x : s.Idx → EReal) : s.Idx → EReal := x

/-- The edges whose column word, read signed, is node `p`. -/
def edgesInto (colI : IVec ⟨2, ![E, 1]⟩ 32) (p : Fin N) : Finset (Fin E) :=
  Finset.univ.filter (fun e : Fin E => (colI (ix2 e ⟨0, Nat.one_pos⟩)).toInt = (p.val : Int))

/-- The source node of edge `e`: its row word read signed, clamped into `[0, N - 1]`. -/
def srcOf (hN : 0 < N) (rowI : IVec ⟨2, ![E, 1]⟩ 32) (e : Fin E) : Fin N :=
  ⟨min (rowI (ix2 e ⟨0, Nat.one_pos⟩)).toInt.toNat (N - 1), by omega⟩

/-- The column words as every scatter takes them: the `[E]` vector of words as an `[E, 1]` array. -/
def colWords {E : ℕ} (h1 : (⟨1, ![E]⟩ : Shape).BroadcastsInDim ⟨2, ![E, 1]⟩ ![0]) (c : IVec ⟨1, ![E]⟩ 32) :
    IVec ⟨2, ![E, 1]⟩ 32 :=
  broadcastInDim ⟨2, ![E, 1]⟩ ![0] h1 c

/-- The row words as every gather takes them: a negative word has the node count `n` added (the wrap of negative
    indices), then the `[E]` vector as an `[E, 1]` array. -/
def rowWords {E : ℕ} (h0 : (⟨0, ![]⟩ : Shape).BroadcastsInDim ⟨1, ![E]⟩ ![])
    (h1 : (⟨1, ![E]⟩ : Shape).BroadcastsInDim ⟨2, ![E, 1]⟩ ![0]) (n : BitVec 32) (r : IVec ⟨1, ![E]⟩ 32) :
    IVec ⟨2, ![E, 1]⟩ 32 :=
  broadcastInDim ⟨2, ![E, 1]⟩ ![0] h1
    (select (cmpi .slt r (broadcastInDim ⟨1, ![E]⟩ ![] h0 (constantI ⟨0, ![]⟩ 32 0#32)))
      (addi r (broadcastInDim ⟨1, ![E]⟩ ![] h0 (constantI ⟨0, ![]⟩ 32 n))) r)

/-- The f32 zero word broadcast to any shape is zero everywhere. -/
theorem zeros_apply {s : Shape} (hz : (⟨0, ![]⟩ : Shape).BroadcastsInDim s ![]) (j : s.Idx) :
    broadcastInDim s ![] hz (constant (F := Ideal) ⟨0, ![]⟩ .f32 0x00000000#32) j = 0 :=
  (broadcastInDim_apply ![] hz _ j ix0 (fun a => a.elim0)).trans Ideal.ofBits_zero_f32

/-- An edge weight vector spread over the feature columns reads, at `(e, k)`, the weight of edge `e`. -/
theorem weight_apply (hw1 : (⟨1, ![E]⟩ : Shape).BroadcastsInDim ⟨2, ![E, 1]⟩ ![0])
    (hw2 : (⟨2, ![E, 1]⟩ : Shape).BroadcastsInDim ⟨2, ![E, K]⟩ ![0, 1]) (ew : (⟨1, ![E]⟩ : Shape).Idx → EReal)
    (e : Fin E) (k : Fin K) :
    broadcastInDim ⟨2, ![E, K]⟩ ![0, 1] hw2 (broadcastInDim ⟨2, ![E, 1]⟩ ![0] hw1 ew) (ix2 e k) = ew (ix1 e) :=
  (col_to_mat_apply _ hw2 e k).trans (vec_to_col_apply ew hw1 e 0)

/-- A bias vector made a row and spread over the nodes reads, at `(p, q)`, the bias of column `q`. -/
theorem bias_apply (hb1 : (⟨1, ![J]⟩ : Shape).BroadcastsInDim ⟨2, ![1, J]⟩ ![1])
    (hb2 : (⟨2, ![1, J]⟩ : Shape).BroadcastsInDim ⟨2, ![N, J]⟩ ![0, 1]) (bv : (⟨1, ![J]⟩ : Shape).Idx → EReal)
    (p : Fin N) (q : Fin J) :
    broadcastInDim ⟨2, ![N, J]⟩ ![0, 1] hb2 (broadcastInDim ⟨2, ![1, J]⟩ ![1] hb1 bv) (ix2 p q) = bv (ix1 q) :=
  (row_to_mat_apply _ hb2 p q).trans (vec_to_row_apply bv hb1 0 q)

/-- Gather the source rows of a feature array, scale each by its edge's weight (on the right), scatter-add into zeros
    at the column words: entry `(p, k)`. -/
theorem aggregate_apply (hN : 0 < N)
    (dg : GatherDims ⟨2, ![N, K]⟩ ⟨2, ![E, 1]⟩ ⟨2, ![E, K]⟩)
    (hod : dg.offsetDims = [1]) (hcd : dg.collapsedSliceDims = [0]) (hob : dg.operandBatchingDims = [])
    (hsb : dg.startIndicesBatchingDims = []) (hsm : dg.startIndexMap = [0]) (hiv : dg.indexVectorDim = 1)
    (hss : dg.sliceSizes = ![1, K])
    (ds : ScatterDims ⟨2, ![N, K]⟩ ⟨2, ![E, 1]⟩ ⟨2, ![E, K]⟩)
    (huw : ds.updateWindowDims = [1]) (hiw : ds.insertedWindowDims = [0])
    (hsd : ds.scatterDimsToOperandDims = [0]) (hiv' : ds.indexVectorDim = 1)
    (hz : (⟨0, ![]⟩ : Shape).BroadcastsInDim ⟨2, ![N, K]⟩ ![])
    (hw1 : (⟨1, ![E]⟩ : Shape).BroadcastsInDim ⟨2, ![E, 1]⟩ ![0])
    (hw2 : (⟨2, ![E, 1]⟩ : Shape).BroadcastsInDim ⟨2, ![E, K]⟩ ![0, 1])
    (feat : FVec Ideal ⟨2, ![N, K]⟩ .f32) (ew : FVec Ideal ⟨1, ![E]⟩ .f32)
    (rowI colI : IVec ⟨2, ![E, 1]⟩ 32) (p : Fin N) (k : Fin K) :
    Host.scatterAdd ds (broadcastInDim ⟨2, ![N, K]⟩ ![] hz (constant (F := Ideal) ⟨0, ![]⟩ .f32 0x00000000#32)) colI
        (mulf (Host.gather dg feat rowI)
          (broadcastInDim ⟨2, ![E, K]⟩ ![0, 1] hw2 (broadcastInDim ⟨2, ![E, 1]⟩ ![0] hw1 ew))) (ix2 p k)
      = 0 + ∑ e ∈ edgesInto colI p, feat (ix2 (srcOf hN rowI e) k) * ew (ix1 e) := by
  refine (scatterAdd2_apply ds huw hiw hsd hiv' _ colI _ p k).trans ?_
  refine congrArg₂ (· + ·) (zeros_apply hz _) (Finset.sum_congr rfl fun e _ => ?_)
  refine (mulf_apply _ _ _).trans ?_
  exact congrArg₂ (· * ·) (gather2_apply hN dg hod hcd hob hsb hsm hiv hss feat rowI e k) (weight_apply hw1 hw2 ew e k)

/-- The reference's layer at `(p, q)`: project, gather the source rows, scale (weight on the left), scatter-add into
    zeros, add the bias. -/
theorem reference_layer_apply (hN : 0 < N)
    (dd : DotDims ⟨2, ![N, K]⟩ ⟨2, ![K, J]⟩ ⟨2, ![N, J]⟩) (hdd : RowsTimesMat dd)
    (dg : GatherDims ⟨2, ![N, J]⟩ ⟨2, ![E, 1]⟩ ⟨2, ![E, J]⟩)
    (hod : dg.offsetDims = [1]) (hcd : dg.collapsedSliceDims = [0]) (hob : dg.operandBatchingDims = [])
    (hsb : dg.startIndicesBatchingDims = []) (hsm : dg.startIndexMap = [0]) (hiv : dg.indexVectorDim = 1)
    (hss : dg.sliceSizes = ![1, J])
    (ds : ScatterDims ⟨2, ![N, J]⟩ ⟨2, ![E, 1]⟩ ⟨2, ![E, J]⟩)
    (huw : ds.updateWindowDims = [1]) (hiw : ds.insertedWindowDims = [0])
    (hsd : ds.scatterDimsToOperandDims = [0]) (hiv' : ds.indexVectorDim = 1)
    (hz : (⟨0, ![]⟩ : Shape).BroadcastsInDim ⟨2, ![N, J]⟩ ![])
    (hw1 : (⟨1, ![E]⟩ : Shape).BroadcastsInDim ⟨2, ![E, 1]⟩ ![0])
    (hw2 : (⟨2, ![E, 1]⟩ : Shape).BroadcastsInDim ⟨2, ![E, J]⟩ ![0, 1])
    (hb1 : (⟨1, ![J]⟩ : Shape).BroadcastsInDim ⟨2, ![1, J]⟩ ![1])
    (hb2 : (⟨2, ![1, J]⟩ : Shape).BroadcastsInDim ⟨2, ![N, J]⟩ ![0, 1])
    (h : FVec Ideal ⟨2, ![N, K]⟩ .f32) (U : FVec Ideal ⟨2, ![K, J]⟩ .f32) (bv : FVec Ideal ⟨1, ![J]⟩ .f32)
    (ew : FVec Ideal ⟨1, ![E]⟩ .f32) (rowI colI : IVec ⟨2, ![E, 1]⟩ 32) (p : Fin N) (q : Fin J) :
    addf (Host.scatterAdd ds (broadcastInDim ⟨2, ![N, J]⟩ ![] hz (constant (F := Ideal) ⟨0, ![]⟩ .f32 0x00000000#32)) colI
          (mulf (broadcastInDim ⟨2, ![E, J]⟩ ![0, 1] hw2 (broadcastInDim ⟨2, ![E, 1]⟩ ![0] hw1 ew))
            (Host.gather dg (Host.dotGeneral dd none h U) rowI)))
        (broadcastInDim ⟨2, ![N, J]⟩ ![0, 1] hb2 (broadcastInDim ⟨2, ![1, J]⟩ ![1] hb1 bv)) (ix2 p q)
      = convAt (edgesInto colI p) (srcOf hN rowI) (fun e => ew (ix1 e)) (fun n k => h (ix2 n k)) (fun k => U (ix2 k q))
          (bv (ix1 q)) := by
  refine (addf_apply _ _ _).trans ?_
  unfold convAt
  refine congrArg₂ (· + ·) ?_ (bias_apply hb1 hb2 bv p q)
  refine (scatterAdd2_apply ds huw hiw hsd hiv' _ colI _ p q).trans ?_
  refine congrArg₂ (· + ·) (zeros_apply hz _) (Finset.sum_congr rfl fun e _ => ?_)
  refine (mulf_apply _ _ _).trans ?_
  refine congrArg₂ (· * ·) (weight_apply hw1 hw2 ew e q) ?_
  refine (gather2_apply hN dg hod hcd hob hsb hsm hiv hss _ rowI e q).trans ?_
  exact dotGeneral_rows hdd h U _ q

/-! ## The dense halves as whole-array functions -/

/-- The product of an `[a, k]` array with a `[k, n]` array. -/
def matArr {a k n : ℕ} (x : (⟨2, ![a, k]⟩ : Shape).Idx → EReal) (w : (⟨2, ![k, n]⟩ : Shape).Idx → EReal) :
    (⟨2, ![a, n]⟩ : Shape).Idx → EReal :=
  fun i => ∑ j : Fin k, x (ix2 (i 0) j) * w (ix2 j (i 1))

/-- The product plus a bias row `[1, n]`. -/
def denseArr {a k n : ℕ} (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => (∑ j : Fin k, x (ix2 (i 0) j) * w (ix2 j (i 1))) + b (ix2 (0 : Fin 1) (i 1))

/-- The product plus a bias row, rectified. -/
def denseReluArr {a k n : ℕ} (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => max ((∑ j : Fin k, x (ix2 (i 0) j) * w (ix2 j (i 1))) + b (ix2 (0 : Fin 1) (i 1))) 0

theorem matArr_apply {a k n : ℕ} (x : (⟨2, ![a, k]⟩ : Shape).Idx → EReal) (w : (⟨2, ![k, n]⟩ : Shape).Idx → EReal)
    (p : Fin a) (q : Fin n) : matArr x w (ix2 p q) = ∑ j : Fin k, x (ix2 p j) * w (ix2 j q) := rfl

theorem denseArr_apply {a k n : ℕ} (x : (⟨2, ![a, k]⟩ : Shape).Idx → EReal) (w : (⟨2, ![k, n]⟩ : Shape).Idx → EReal)
    (b : (⟨2, ![1, n]⟩ : Shape).Idx → EReal) (p : Fin a) (q : Fin n) :
    denseArr x w b (ix2 p q) = (∑ j : Fin k, x (ix2 p j) * w (ix2 j q)) + b (ix2 (0 : Fin 1) q) := rfl

theorem denseReluArr_apply {a k n : ℕ} (x : (⟨2, ![a, k]⟩ : Shape).Idx → EReal) (w : (⟨2, ![k, n]⟩ : Shape).Idx → EReal)
    (b : (⟨2, ![1, n]⟩ : Shape).Idx → EReal) (p : Fin a) (q : Fin n) :
    denseReluArr x w b (ix2 p q) = max ((∑ j : Fin k, x (ix2 p j) * w (ix2 j q)) + b (ix2 (0 : Fin 1) q)) 0 := rfl

/-- A kernel's product into the zero accumulator, at any contraction precision, is the plain sum at the ideal values. -/
theorem matmul_rows_prec {a k n : ℕ} {d : DotDims ⟨2, ![a, k]⟩ ⟨2, ![k, n]⟩ ⟨2, ![a, n]⟩} (hd : RowsTimesMat d)
    (prec : Option ContractPrecision) (lhs : FVec Ideal ⟨2, ![a, k]⟩ .f32) (rhs : FVec Ideal ⟨2, ![k, n]⟩ .f32)
    (p : Fin a) (c : Fin n) :
    matmul d prec lhs rhs (constant (F := Ideal) ⟨2, ![a, n]⟩ .f32 0x00000000#32) (ix2 p c)
      = ∑ j : Fin k, lhs (ix2 p j) * rhs (ix2 j c) :=
  ((Ideal.matmul_apply d prec lhs rhs _ _).trans (Ideal.matmul_apply d none lhs rhs _ _).symm).trans
    (matmul_rows hd lhs rhs p c)

end Cert.Gala

end
-- ==== Proof.KStretch.lean ====
/-
  The kernel program's host stretches between its dense calls, read at an entry, over ANY contents `V` of the buffers
  when the stretch begins.

  Each encoder stretch gathers the rows of the previous dense call's result along the edges, scales each by its edge's
  smooth weight, sums them into their target nodes and adds the layer's bias; a three-operation stretch then takes the
  maximum with zero. Each decoder stretch does the gather / scale (sharp weight) / sum on the previous layer's output and
  reshapes the next bias to a row; the projection, bias and rectifier are the next dense call's.
-/
import proofs.«118487_j45509473469002_2_alg».proof.Proof.Gen.KernelIdeal.Launch
import proofs.«118487_j45509473469002_2_alg».proof.Proof.ConvOps
import Idealize.ShloMosaic.Lib.StableHlo.Run
import Idealize.ShloMosaic.Lib.ValueLayout

set_option maxRecDepth 16384

noncomputable section

open scoped BigOperators

namespace Cert.Gala.KStretch

open Idealize.ShloMosaic Idealize.ShloMosaic.ValueIdx Idealize.ShloMosaic.TcCoe Idealize.SL.Sem Idealize.ShloMosaic.StableHlo
open Cert.KernelIdeal Cert.KernelIdeal.Gen Cert.Gala Cert.LibHostBroadcast

/-- `main_v81`: the rows of `main_v65` gathered along the edges, scaled by `main_v30`, summed into their targets, plus the bias. -/
theorem enc1 (V : Valuation τ sig (Elt Ideal)) (p : Fin 100000) (q : Fin 64) :
    asF S100000x64 (StableHlo.after hostOps1 V (Proc.devRef .tc main_v81)) (ix2 p q)
      = (0 + ∑ e ∈ edgesInto (colWords bcast_S700000_S700000x1_0 (V (Proc.devRef .tc main_v6))) p,
          asF S100000x64 (V (Proc.devRef .tc main_v65))
              (ix2 (srcOf (by omega) (rowWords bcast_S_S700000 bcast_S700000_S700000x1_0 100000#32 (V (Proc.devRef .tc main_v3))) e) q)
            * asF S700000 (V (Proc.devRef .tc main_v30)) (ix1 e))
        + asF S64 (V (Proc.devRef .tc main_arg3)) (ix1 q) := by
  simp only [hostOps1]
  after_results_simp
  refine (addf_apply _ _ _).trans (congrArg₂ (· + ·) ?_ ?_)
  · exact aggregate_apply (by omega) gather_S100000x64_S700000x1_S700000x64_1_0_n_n_0_1_164 rfl rfl rfl rfl rfl rfl rfl scatter_S100000x64_S700000x1_S700000x64_1_0_0_1 rfl rfl rfl rfl _ _ _ _ _ _ _ p q
  · exact (row_to_mat_apply _ _ p q).trans (shapeCast_a_1a_apply _ _ 0 q)

/-- `main_v82`: the maximum of `main_v81` with zero. -/
theorem relu1 (V : Valuation τ sig (Elt Ideal)) (i : S100000x64.Idx) :
    asF S100000x64 (StableHlo.after hostOps1_1 V (Proc.devRef .tc main_v82)) i
      = max (asF S100000x64 (V (Proc.devRef .tc main_v81)) i) 0 := by
  simp only [hostOps1_1]
  after_results_simp
  simp only [cast_eq]
  exact (maximumf_apply _ _ _).trans (congrArg (max _) (zeros_apply _ _))

/-- `main_v99`: the rows of `main_v83` gathered along the edges, scaled by `main_v30`, summed into their targets, plus the bias. -/
theorem enc2 (V : Valuation τ sig (Elt Ideal)) (p : Fin 100000) (q : Fin 32) :
    asF S100000x32 (StableHlo.after hostOps2 V (Proc.devRef .tc main_v99)) (ix2 p q)
      = (0 + ∑ e ∈ edgesInto (colWords bcast_S700000_S700000x1_0 (V (Proc.devRef .tc main_v6))) p,
          asF S100000x32 (V (Proc.devRef .tc main_v83))
              (ix2 (srcOf (by omega) (rowWords bcast_S_S700000 bcast_S700000_S700000x1_0 100000#32 (V (Proc.devRef .tc main_v3))) e) q)
            * asF S700000 (V (Proc.devRef .tc main_v30)) (ix1 e))
        + asF S32 (V (Proc.devRef .tc main_arg5)) (ix1 q) := by
  simp only [hostOps2]
  after_results_simp
  refine (addf_apply _ _ _).trans (congrArg₂ (· + ·) ?_ ?_)
  · exact aggregate_apply (by omega) gather_S100000x32_S700000x1_S700000x32_1_0_n_n_0_1_132 rfl rfl rfl rfl rfl rfl rfl scatter_S100000x32_S700000x1_S700000x32_1_0_0_1 rfl rfl rfl rfl _ _ _ _ _ _ _ p q
  · exact (row_to_mat_apply _ _ p q).trans (shapeCast_a_1a_apply _ _ 0 q)

/-- `main_v100`: the maximum of `main_v99` with zero. -/
theorem relu2 (V : Valuation τ sig (Elt Ideal)) (i : S100000x32.Idx) :
    asF S100000x32 (StableHlo.after hostOps2_1 V (Proc.devRef .tc main_v100)) i
      = max (asF S100000x32 (V (Proc.devRef .tc main_v99)) i) 0 := by
  simp only [hostOps2_1]
  after_results_simp
  simp only [cast_eq]
  exact (maximumf_apply _ _ _).trans (congrArg (max _) (zeros_apply _ _))

/-- `main_v117`: the rows of `main_v101` gathered along the edges, scaled by `main_v30`, summed into their targets, plus the bias. -/
theorem enc3 (V : Valuation τ sig (Elt Ideal)) (p : Fin 100000) (q : Fin 16) :
    asF S100000x16 (StableHlo.after hostOps3 V (Proc.devRef .tc main_v117)) (ix2 p q)
      = (0 + ∑ e ∈ edgesInto (colWords bcast_S700000_S700000x1_0 (V (Proc.devRef .tc main_v6))) p,
          asF S100000x16 (V (Proc.devRef .tc main_v101))
              (ix2 (srcOf (by omega) (rowWords bcast_S_S700000 bcast_S700000_S700000x1_0 100000#32 (V (Proc.devRef .tc main_v3))) e) q)
            * asF S700000 (V (Proc.devRef .tc main_v30)) (ix1 e))
        + asF S16 (V (Proc.devRef .tc main_arg7)) (ix1 q) := by
  simp only [hostOps3]
  after_results_simp
  refine (addf_apply _ _ _).trans (congrArg₂ (· + ·) ?_ ?_)
  · exact aggregate_apply (by omega) gather_S100000x16_S700000x1_S700000x16_1_0_n_n_0_1_116 rfl rfl rfl rfl rfl rfl rfl scatter_S100000x16_S700000x1_S700000x16_1_0_0_1 rfl rfl rfl rfl _ _ _ _ _ _ _ p q
  · exact (row_to_mat_apply _ _ p q).trans (shapeCast_a_1a_apply _ _ 0 q)

/-- `main_v118`: the maximum of `main_v117` with zero. -/
theorem relu3 (V : Valuation τ sig (Elt Ideal)) (i : S100000x16.Idx) :
    asF S100000x16 (StableHlo.after hostOps3_1 V (Proc.devRef .tc main_v118)) i
      = max (asF S100000x16 (V (Proc.devRef .tc main_v117)) i) 0 := by
  simp only [hostOps3_1]
  after_results_simp
  simp only [cast_eq]
  exact (maximumf_apply _ _ _).trans (congrArg (max _) (zeros_apply _ _))

/-- `main_v131`: the rows of `main_v118` gathered along the edges, scaled by `main_v64`, summed into their targets. -/
theorem dec1 (V : Valuation τ sig (Elt Ideal)) (p : Fin 100000) (q : Fin 16) :
    asF S100000x16 (StableHlo.after hostOps3_2 V (Proc.devRef .tc main_v131)) (ix2 p q)
      = 0 + ∑ e ∈ edgesInto (colWords bcast_S700000_S700000x1_0 (V (Proc.devRef .tc main_v6))) p,
          asF S100000x16 (V (Proc.devRef .tc main_v118))
              (ix2 (srcOf (by omega) (rowWords bcast_S_S700000 bcast_S700000_S700000x1_0 100000#32 (V (Proc.devRef .tc main_v3))) e) q)
            * asF S700000 (V (Proc.devRef .tc main_v64)) (ix1 e) := by
  simp only [hostOps3_2]
  after_results_simp
  exact aggregate_apply (by omega) gather_S100000x16_S700000x1_S700000x16_1_0_n_n_0_1_116 rfl rfl rfl rfl rfl rfl rfl scatter_S100000x16_S700000x1_S700000x16_1_0_0_1 rfl rfl rfl rfl _ _ _ _ _ _ _ p q

/-- `main_v132`: the bias vector as a row. -/
theorem dec1_bias (V : Valuation τ sig (Elt Ideal)) (q : Fin 32) :
    asF S1x32 (StableHlo.after hostOps3_2 V (Proc.devRef .tc main_v132)) (ix2 (0 : Fin 1) q)
      = asF S32 (V (Proc.devRef .tc main_arg9)) (ix1 q) := by
  simp only [hostOps3_2]
  after_results_simp
  exact shapeCast_a_1a_apply _ _ 0 q

/-- `main_v146`: the rows of `main_v133` gathered along the edges, scaled by `main_v64`, summed into their targets. -/
theorem dec2 (V : Valuation τ sig (Elt Ideal)) (p : Fin 100000) (q : Fin 32) :
    asF S100000x32 (StableHlo.after hostOps4 V (Proc.devRef .tc main_v146)) (ix2 p q)
      = 0 + ∑ e ∈ edgesInto (colWords bcast_S700000_S700000x1_0 (V (Proc.devRef .tc main_v6))) p,
          asF S100000x32 (V (Proc.devRef .tc main_v133))
              (ix2 (srcOf (by omega) (rowWords bcast_S_S700000 bcast_S700000_S700000x1_0 100000#32 (V (Proc.devRef .tc main_v3))) e) q)
            * asF S700000 (V (Proc.devRef .tc main_v64)) (ix1 e) := by
  simp only [hostOps4]
  after_results_simp
  exact aggregate_apply (by omega) gather_S100000x32_S700000x1_S700000x32_1_0_n_n_0_1_132 rfl rfl rfl rfl rfl rfl rfl scatter_S100000x32_S700000x1_S700000x32_1_0_0_1 rfl rfl rfl rfl _ _ _ _ _ _ _ p q

/-- `main_v147`: the bias vector as a row. -/
theorem dec2_bias (V : Valuation τ sig (Elt Ideal)) (q : Fin 64) :
    asF S1x64 (StableHlo.after hostOps4 V (Proc.devRef .tc main_v147)) (ix2 (0 : Fin 1) q)
      = asF S64 (V (Proc.devRef .tc main_arg11)) (ix1 q) := by
  simp only [hostOps4]
  after_results_simp
  exact shapeCast_a_1a_apply _ _ 0 q

/-- `main_v161`: the rows of `main_v148` gathered along the edges, scaled by `main_v64`, summed into their targets. -/
theorem dec3 (V : Valuation τ sig (Elt Ideal)) (p : Fin 100000) (q : Fin 64) :
    asF S100000x64 (StableHlo.after hostOps5 V (Proc.devRef .tc main_v161)) (ix2 p q)
      = 0 + ∑ e ∈ edgesInto (colWords bcast_S700000_S700000x1_0 (V (Proc.devRef .tc main_v6))) p,
          asF S100000x64 (V (Proc.devRef .tc main_v148))
              (ix2 (srcOf (by omega) (rowWords bcast_S_S700000 bcast_S700000_S700000x1_0 100000#32 (V (Proc.devRef .tc main_v3))) e) q)
            * asF S700000 (V (Proc.devRef .tc main_v64)) (ix1 e) := by
  simp only [hostOps5]
  after_results_simp
  exact aggregate_apply (by omega) gather_S100000x64_S700000x1_S700000x64_1_0_n_n_0_1_164 rfl rfl rfl rfl rfl rfl rfl scatter_S100000x64_S700000x1_S700000x64_1_0_0_1 rfl rfl rfl rfl _ _ _ _ _ _ _ p q

/-- `main_v162`: the bias vector as a row. -/
theorem dec3_bias (V : Valuation τ sig (Elt Ideal)) (q : Fin 128) :
    asF S1x128 (StableHlo.after hostOps5 V (Proc.devRef .tc main_v162)) (ix2 (0 : Fin 1) q)
      = asF S128 (V (Proc.devRef .tc main_arg13)) (ix1 q) := by
  simp only [hostOps5]
  after_results_simp
  exact shapeCast_a_1a_apply _ _ 0 q

end Cert.Gala.KStretch

end
-- ==== Proof.KKept0.lean ====
/-
  A stretch of host operations leaves every buffer it does not write as it found it: one lemma per stretch of the
  kernel program, the written buffers listed.
-/
import proofs.«118487_j45509473469002_2_alg».proof.Proof.Gen.KernelIdeal.Frame
import Idealize.ShloMosaic.Lib.StableHlo.Run

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

theorem kept_hostOps0 (V : Valuation τ sig (Elt F)) (b : Ref sig .tc)
    (hb : ∀ y ∈ [main_v0, main_v1, main_v2, main_v3, main_v4, main_v5, main_v6, main_cst, main_v7, main_cst_0, main_v8, main_v9, main_v10, main_cst_1, main_v11, main_v12, main_v13, main_cst_2], b ≠ y) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps0_1 (V : Valuation τ sig (Elt F)) (b : Ref sig .tc)
    (hb : ∀ y ∈ [main_call0_v0, main_call0_v1, main_v14], b ≠ y) :
    StableHlo.after hostOps0_1 V (Proc.devRef .tc b) = V (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps0_2 (V : Valuation τ sig (Elt F)) (b : Ref sig .tc)
    (hb : ∀ y ∈ [main_c, main_v15, main_v16, main_c_3, main_v17, main_v18, main_v19, main_v20, main_v21, main_v22, main_c_4, main_v23, main_v24, main_c_5, main_v25, main_v26, main_v27, main_v28, main_v29, main_v30, main_cst_6, main_v31, main_v32, main_cst_7, main_v33, main_cst_8, main_v34, main_v35, main_v36, main_cst_9, main_v37, main_cst_10, main_v38, main_cst_11, main_v39, main_v40, main_v41, main_cst_12, main_v42, main_v43, main_v44, main_cst_13, main_v45, main_v46, main_v47, main_cst_14], b ≠ y) :
    StableHlo.after hostOps0_2 V (Proc.devRef .tc b) = V (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps0_3 (V : Valuation τ sig (Elt F)) (b : Ref sig .tc)
    (hb : ∀ y ∈ [main_call1_v0, main_call1_v1, main_v48], b ≠ y) :
    StableHlo.after hostOps0_3 V (Proc.devRef .tc b) = V (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps0_4 (V : Valuation τ sig (Elt F)) (b : Ref sig .tc)
    (hb : ∀ y ∈ [main_c_15, main_v49, main_v50, main_c_16, main_v51, main_v52, main_v53, main_v54, main_v55, main_v56, main_c_17, main_v57, main_v58, main_c_18, main_v59, main_v60, main_v61, main_v62, main_v63, main_v64], b ≠ y) :
    StableHlo.after hostOps0_4 V (Proc.devRef .tc b) = V (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps1 (V : Valuation τ sig (Elt F)) (b : Ref sig .tc)
    (hb : ∀ y ∈ [main_c_19, main_v66, main_v67, main_c_20, main_v68, main_v69, main_v70, main_v71, main_v72, main_v73, main_v74, main_v75, main_cst_21, main_v76, main_v77, main_v78, main_v79, main_v80, main_v81], b ≠ y) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps1_1 (V : Valuation τ sig (Elt F)) (b : Ref sig .tc)
    (hb : ∀ y ∈ [main_call2_cst, main_call2_v0, main_v82], b ≠ y) :
    StableHlo.after hostOps1_1 V (Proc.devRef .tc b) = V (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps2 (V : Valuation τ sig (Elt F)) (b : Ref sig .tc)
    (hb : ∀ y ∈ [main_c_22, main_v84, main_v85, main_c_23, main_v86, main_v87, main_v88, main_v89, main_v90, main_v91, main_v92, main_v93, main_cst_24, main_v94, main_v95, main_v96, main_v97, main_v98, main_v99], b ≠ y) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps2_1 (V : Valuation τ sig (Elt F)) (b : Ref sig .tc)
    (hb : ∀ y ∈ [main_call3_cst, main_call3_v0, main_v100], b ≠ y) :
    StableHlo.after hostOps2_1 V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps3 (V : Valuation τ sig (Elt F)) (b : Ref sig .tc)
    (hb : ∀ y ∈ [main_c_25, main_v102, main_v103, main_c_26, main_v104, main_v105, main_v106, main_v107, main_v108, main_v109, main_v110, main_v111, main_cst_27, main_v112, main_v113, main_v114, main_v115, main_v116, main_v117], b ≠ y) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps3_1 (V : Valuation τ sig (Elt F)) (b : Ref sig .tc)
    (hb : ∀ y ∈ [main_call4_cst, main_call4_v0, main_v118], b ≠ y) :
    StableHlo.after hostOps3_1 V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps3_2 (V : Valuation τ sig (Elt F)) (b : Ref sig .tc)
    (hb : ∀ y ∈ [main_c_28, main_v119, main_v120, main_c_29, main_v121, main_v122, main_v123, main_v124, main_v125, main_v126, main_v127, main_v128, main_cst_30, main_v129, main_v130, main_v131, main_v132], b ≠ y) :
    StableHlo.after hostOps3_2 V (Proc.devRef .tc b) = V (Proc.devRef .tc b) :=
  StableHlo.after_of_forall_not_mem (b := Proc.devRef .tc b) _ _ (List.forall_iff_forall_mem.mp (by
    simp only [hostOps3_2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps4 (V : Valuation τ sig (Elt F)) (b : Ref sig .tc)
    (hb : ∀ y ∈ [main_c_31, main_v134, main_v135, main_c_32, main_v136, main_v137, main_v138, main_v139, main_v140, main_v141, main_v142, main_v143, main_cst_33, main_v144, main_v145, main_v146, main_v147], b ≠ y) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem kept_hostOps5 (V : Valuation τ sig (Elt F)) (b : Ref sig .tc)
    (hb : ∀ y ∈ [main_c_34, main_v149, main_v150, main_c_35, main_v151, main_v152, main_v153, main_v154, main_v155, main_v156, main_v157, main_v158, main_cst_36, main_v159, main_v160, main_v161, main_v162], b ≠ y) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

end Cert.Gala.KKept

end
-- ==== Proof.KKeptRows.lean ====
/-
  The row words keep their contents across every later stretch of host operations and every later dense call of the kernel
  program, since none of those writes them: each fact as an explicit walk back through the boundaries.
-/
import proofs.«118487_j45509473469002_2_alg».proof.Proof.KKept0

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

theorem v3_at6 : W6 m ρ c (Proc.devRef .tc main_v3) = W5 m ρ c (Proc.devRef .tc main_v3) :=
  (W6_of_ne m ρ c main_v3 (by decide))
theorem v3_at9 : W9 m ρ c (Proc.devRef .tc main_v3) = W5 m ρ c (Proc.devRef .tc main_v3) :=
  ((W9_of_ne m ρ c main_v3 (by decide)).trans ((kept_hostOps1_1 (W7 m ρ c) main_v3 (by decide)).trans ((kept_hostOps1 (W6 m ρ c) main_v3 (by decide)).trans (W6_of_ne m ρ c main_v3 (by decide)))))
theorem v3_at12 : W12 m ρ c (Proc.devRef .tc main_v3) = W5 m ρ c (Proc.devRef .tc main_v3) :=
  ((W12_of_ne m ρ c main_v3 (by decide)).trans ((kept_hostOps2_1 (W10 m ρ c) main_v3 (by decide)).trans ((kept_hostOps2 (W9 m ρ c) main_v3 (by decide)).trans ((W9_of_ne m ρ c main_v3 (by decide)).trans ((kept_hostOps1_1 (W7 m ρ c) main_v3 (by decide)).trans ((kept_hostOps1 (W6 m ρ c) main_v3 (by decide)).trans (W6_of_ne m ρ c main_v3 (by decide))))))))
theorem v3_at14 : W14 m ρ c (Proc.devRef .tc main_v3) = W5 m ρ c (Proc.devRef .tc main_v3) :=
  ((kept_hostOps3_1 (W13 m ρ c) main_v3 (by decide)).trans ((kept_hostOps3 (W12 m ρ c) main_v3 (by decide)).trans ((W12_of_ne m ρ c main_v3 (by decide)).trans ((kept_hostOps2_1 (W10 m ρ c) main_v3 (by decide)).trans ((kept_hostOps2 (W9 m ρ c) main_v3 (by decide)).trans ((W9_of_ne m ρ c main_v3 (by decide)).trans ((kept_hostOps1_1 (W7 m ρ c) main_v3 (by decide)).trans ((kept_hostOps1 (W6 m ρ c) main_v3 (by decide)).trans (W6_of_ne m ρ c main_v3 (by decide))))))))))
theorem v3_at16 : W16 m ρ c (Proc.devRef .tc main_v3) = W5 m ρ c (Proc.devRef .tc main_v3) :=
  ((W16_of_ne m ρ c main_v3 (by decide)).trans ((kept_hostOps3_2 (W14 m ρ c) main_v3 (by decide)).trans ((kept_hostOps3_1 (W13 m ρ c) main_v3 (by decide)).trans ((kept_hostOps3 (W12 m ρ c) main_v3 (by decide)).trans ((W12_of_ne m ρ c main_v3 (by decide)).trans ((kept_hostOps2_1 (W10 m ρ c) main_v3 (by decide)).trans ((kept_hostOps2 (W9 m ρ c) main_v3 (by decide)).trans ((W9_of_ne m ρ c main_v3 (by decide)).trans ((kept_hostOps1_1 (W7 m ρ c) main_v3 (by decide)).trans ((kept_hostOps1 (W6 m ρ c) main_v3 (by decide)).trans (W6_of_ne m ρ c main_v3 (by decide))))))))))))
theorem v3_at18 : W18 m ρ c (Proc.devRef .tc main_v3) = W5 m ρ c (Proc.devRef .tc main_v3) :=
  ((W18_of_ne m ρ c main_v3 (by decide)).trans ((kept_hostOps4 (W16 m ρ c) main_v3 (by decide)).trans ((W16_of_ne m ρ c main_v3 (by decide)).trans ((kept_hostOps3_2 (W14 m ρ c) main_v3 (by decide)).trans ((kept_hostOps3_1 (W13 m ρ c) main_v3 (by decide)).trans ((kept_hostOps3 (W12 m ρ c) main_v3 (by decide)).trans ((W12_of_ne m ρ c main_v3 (by decide)).trans ((kept_hostOps2_1 (W10 m ρ c) main_v3 (by decide)).trans ((kept_hostOps2 (W9 m ρ c) main_v3 (by decide)).trans ((W9_of_ne m ρ c main_v3 (by decide)).trans ((kept_hostOps1_1 (W7 m ρ c) main_v3 (by decide)).trans ((kept_hostOps1 (W6 m ρ c) main_v3 (by decide)).trans (W6_of_ne m ρ c main_v3 (by decide))))))))))))))

end Cert.Gala.KKept

end
-- ==== Proof.KKeptCols.lean ====
/-
  The column words keep their contents across every later stretch of host operations and every later dense call of the kernel
  program, since none of those writes them: each fact as an explicit walk back through the boundaries.
-/
import proofs.«118487_j45509473469002_2_alg».proof.Proof.KKept0

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

theorem v6_at6 : W6 m ρ c (Proc.devRef .tc main_v6) = W5 m ρ c (Proc.devRef .tc main_v6) :=
  (W6_of_ne m ρ c main_v6 (by decide))
theorem v6_at9 : W9 m ρ c (Proc.devRef .tc main_v6) = W5 m ρ c (Proc.devRef .tc main_v6) :=
  ((W9_of_ne m ρ c main_v6 (by decide)).trans ((kept_hostOps1_1 (W7 m ρ c) main_v6 (by decide)).trans ((kept_hostOps1 (W6 m ρ c) main_v6 (by decide)).trans (W6_of_ne m ρ c main_v6 (by decide)))))
theorem v6_at12 : W12 m ρ c (Proc.devRef .tc main_v6) = W5 m ρ c (Proc.devRef .tc main_v6) :=
  ((W12_of_ne m ρ c main_v6 (by decide)).trans ((kept_hostOps2_1 (W10 m ρ c) main_v6 (by decide)).trans ((kept_hostOps2 (W9 m ρ c) main_v6 (by decide)).trans ((W9_of_ne m ρ c main_v6 (by decide)).trans ((kept_hostOps1_1 (W7 m ρ c) main_v6 (by decide)).trans ((kept_hostOps1 (W6 m ρ c) main_v6 (by decide)).trans (W6_of_ne m ρ c main_v6 (by decide))))))))
theorem v6_at14 : W14 m ρ c (Proc.devRef .tc main_v6) = W5 m ρ c (Proc.devRef .tc main_v6) :=
  ((kept_hostOps3_1 (W13 m ρ c) main_v6 (by decide)).trans ((kept_hostOps3 (W12 m ρ c) main_v6 (by decide)).trans ((W12_of_ne m ρ c main_v6 (by decide)).trans ((kept_hostOps2_1 (W10 m ρ c) main_v6 (by decide)).trans ((kept_hostOps2 (W9 m ρ c) main_v6 (by decide)).trans ((W9_of_ne m ρ c main_v6 (by decide)).trans ((kept_hostOps1_1 (W7 m ρ c) main_v6 (by decide)).trans ((kept_hostOps1 (W6 m ρ c) main_v6 (by decide)).trans (W6_of_ne m ρ c main_v6 (by decide))))))))))
theorem v6_at16 : W16 m ρ c (Proc.devRef .tc main_v6) = W5 m ρ c (Proc.devRef .tc main_v6) :=
  ((W16_of_ne m ρ c main_v6 (by decide)).trans ((kept_hostOps3_2 (W14 m ρ c) main_v6 (by decide)).trans ((kept_hostOps3_1 (W13 m ρ c) main_v6 (by decide)).trans ((kept_hostOps3 (W12 m ρ c) main_v6 (by decide)).trans ((W12_of_ne m ρ c main_v6 (by decide)).trans ((kept_hostOps2_1 (W10 m ρ c) main_v6 (by decide)).trans ((kept_hostOps2 (W9 m ρ c) main_v6 (by decide)).trans ((W9_of_ne m ρ c main_v6 (by decide)).trans ((kept_hostOps1_1 (W7 m ρ c) main_v6 (by decide)).trans ((kept_hostOps1 (W6 m ρ c) main_v6 (by decide)).trans (W6_of_ne m ρ c main_v6 (by decide))))))))))))
theorem v6_at18 : W18 m ρ c (Proc.devRef .tc main_v6) = W5 m ρ c (Proc.devRef .tc main_v6) :=
  ((W18_of_ne m ρ c main_v6 (by decide)).trans ((kept_hostOps4 (W16 m ρ c) main_v6 (by decide)).trans ((W16_of_ne m ρ c main_v6 (by decide)).trans ((kept_hostOps3_2 (W14 m ρ c) main_v6 (by decide)).trans ((kept_hostOps3_1 (W13 m ρ c) main_v6 (by decide)).trans ((kept_hostOps3 (W12 m ρ c) main_v6 (by decide)).trans ((W12_of_ne m ρ c main_v6 (by decide)).trans ((kept_hostOps2_1 (W10 m ρ c) main_v6 (by decide)).trans ((kept_hostOps2 (W9 m ρ c) main_v6 (by decide)).trans ((W9_of_ne m ρ c main_v6 (by decide)).trans ((kept_hostOps1_1 (W7 m ρ c) main_v6 (by decide)).trans ((kept_hostOps1 (W6 m ρ c) main_v6 (by decide)).trans (W6_of_ne m ρ c main_v6 (by decide))))))))))))))

end Cert.Gala.KKept

end
-- ==== Proof.KKeptWeights.lean ====
/-
  The smooth and the sharp edge weights keep their contents across every later stretch of host operations and every later dense call of the kernel
  program, since none of those writes them: each fact as an explicit walk back through the boundaries.
-/
import proofs.«118487_j45509473469002_2_alg».proof.Proof.KKept0

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

theorem v30_at6 : W6 m ρ c (Proc.devRef .tc main_v30) = W5 m ρ c (Proc.devRef .tc main_v30) :=
  (W6_of_ne m ρ c main_v30 (by decide))
theorem v30_at9 : W9 m ρ c (Proc.devRef .tc main_v30) = W5 m ρ c (Proc.devRef .tc main_v30) :=
  ((W9_of_ne m ρ c main_v30 (by decide)).trans ((kept_hostOps1_1 (W7 m ρ c) main_v30 (by decide)).trans ((kept_hostOps1 (W6 m ρ c) main_v30 (by decide)).trans (W6_of_ne m ρ c main_v30 (by decide)))))
theorem v30_at12 : W12 m ρ c (Proc.devRef .tc main_v30) = W5 m ρ c (Proc.devRef .tc main_v30) :=
  ((W12_of_ne m ρ c main_v30 (by decide)).trans ((kept_hostOps2_1 (W10 m ρ c) main_v30 (by decide)).trans ((kept_hostOps2 (W9 m ρ c) main_v30 (by decide)).trans ((W9_of_ne m ρ c main_v30 (by decide)).trans ((kept_hostOps1_1 (W7 m ρ c) main_v30 (by decide)).trans ((kept_hostOps1 (W6 m ρ c) main_v30 (by decide)).trans (W6_of_ne m ρ c main_v30 (by decide))))))))
theorem v64_at14 : W14 m ρ c (Proc.devRef .tc main_v64) = W5 m ρ c (Proc.devRef .tc main_v64) :=
  ((kept_hostOps3_1 (W13 m ρ c) main_v64 (by decide)).trans ((kept_hostOps3 (W12 m ρ c) main_v64 (by decide)).trans ((W12_of_ne m ρ c main_v64 (by decide)).trans ((kept_hostOps2_1 (W10 m ρ c) main_v64 (by decide)).trans ((kept_hostOps2 (W9 m ρ c) main_v64 (by decide)).trans ((W9_of_ne m ρ c main_v64 (by decide)).trans ((kept_hostOps1_1 (W7 m ρ c) main_v64 (by decide)).trans ((kept_hostOps1 (W6 m ρ c) main_v64 (by decide)).trans (W6_of_ne m ρ c main_v64 (by decide))))))))))
theorem v64_at16 : W16 m ρ c (Proc.devRef .tc main_v64) = W5 m ρ c (Proc.devRef .tc main_v64) :=
  ((W16_of_ne m ρ c main_v64 (by decide)).trans ((kept_hostOps3_2 (W14 m ρ c) main_v64 (by decide)).trans ((kept_hostOps3_1 (W13 m ρ c) main_v64 (by decide)).trans ((kept_hostOps3 (W12 m ρ c) main_v64 (by decide)).trans ((W12_of_ne m ρ c main_v64 (by decide)).trans ((kept_hostOps2_1 (W10 m ρ c) main_v64 (by decide)).trans ((kept_hostOps2 (W9 m ρ c) main_v64 (by decide)).trans ((W9_of_ne m ρ c main_v64 (by decide)).trans ((kept_hostOps1_1 (W7 m ρ c) main_v64 (by decide)).trans ((kept_hostOps1 (W6 m ρ c) main_v64 (by decide)).trans (W6_of_ne m ρ c main_v64 (by decide))))))))))))
theorem v64_at18 : W18 m ρ c (Proc.devRef .tc main_v64) = W5 m ρ c (Proc.devRef .tc main_v64) :=
  ((W18_of_ne m ρ c main_v64 (by decide)).trans ((kept_hostOps4 (W16 m ρ c) main_v64 (by decide)).trans ((W16_of_ne m ρ c main_v64 (by decide)).trans ((kept_hostOps3_2 (W14 m ρ c) main_v64 (by decide)).trans ((kept_hostOps3_1 (W13 m ρ c) main_v64 (by decide)).trans ((kept_hostOps3 (W12 m ρ c) main_v64 (by decide)).trans ((W12_of_ne m ρ c main_v64 (by decide)).trans ((kept_hostOps2_1 (W10 m ρ c) main_v64 (by decide)).trans ((kept_hostOps2 (W9 m ρ c) main_v64 (by decide)).trans ((W9_of_ne m ρ c main_v64 (by decide)).trans ((kept_hostOps1_1 (W7 m ρ c) main_v64 (by decide)).trans ((kept_hostOps1 (W6 m ρ c) main_v64 (by decide)).trans (W6_of_ne m ρ c main_v64 (by decide))))))))))))))

end Cert.Gala.KKept

end
-- ==== Proof.KKeptLow.lean ====
/-
  The kernel program's fourteen arguments are its first fourteen buffers, and every buffer a host operation writes comes
  after them; so a stretch of host operations leaves every argument as it found it. One lemma per stretch, taking only
  that the buffer's number is below fourteen.
-/
import proofs.«118487_j45509473469002_2_alg».proof.Proof.Gen.KernelIdeal.Frame
import Idealize.ShloMosaic.Lib.StableHlo.Run

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

/-- A buffer numbered below fourteen is not one numbered fourteen or more. -/
theorem low_ne {b y : Ref sig .tc} (hb : b.idx.val < 14) (hy : 14 ≤ y.idx.val) : b ≠ y := fun h => by
  subst h
  omega

theorem kept_low_hostOps0 (V : Valuation τ sig (Elt F)) (b : Ref sig .tc) (hb : b.idx.val < 14) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps0_1 (V : Valuation τ sig (Elt F)) (b : Ref sig .tc) (hb : b.idx.val < 14) :
    StableHlo.after hostOps0_1 V (Proc.devRef .tc b) = V (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps0_2 (V : Valuation τ sig (Elt F)) (b : Ref sig .tc) (hb : b.idx.val < 14) :
    StableHlo.after hostOps0_2 V (Proc.devRef .tc b) = V (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps0_3 (V : Valuation τ sig (Elt F)) (b : Ref sig .tc) (hb : b.idx.val < 14) :
    StableHlo.after hostOps0_3 V (Proc.devRef .tc b) = V (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps0_4 (V : Valuation τ sig (Elt F)) (b : Ref sig .tc) (hb : b.idx.val < 14) :
    StableHlo.after hostOps0_4 V (Proc.devRef .tc b) = V (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps1 (V : Valuation τ sig (Elt F)) (b : Ref sig .tc) (hb : b.idx.val < 14) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps1_1 (V : Valuation τ sig (Elt F)) (b : Ref sig .tc) (hb : b.idx.val < 14) :
    StableHlo.after hostOps1_1 V (Proc.devRef .tc b) = V (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps2 (V : Valuation τ sig (Elt F)) (b : Ref sig .tc) (hb : b.idx.val < 14) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps2_1 (V : Valuation τ sig (Elt F)) (b : Ref sig .tc) (hb : b.idx.val < 14) :
    StableHlo.after hostOps2_1 V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps3 (V : Valuation τ sig (Elt F)) (b : Ref sig .tc) (hb : b.idx.val < 14) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps3_1 (V : Valuation τ sig (Elt F)) (b : Ref sig .tc) (hb : b.idx.val < 14) :
    StableHlo.after hostOps3_1 V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps3_2 (V : Valuation τ sig (Elt F)) (b : Ref sig .tc) (hb : b.idx.val < 14) :
    StableHlo.after hostOps3_2 V (Proc.devRef .tc b) = V (Proc.devRef .tc b) :=
  StableHlo.after_of_forall_not_mem (b := Proc.devRef .tc b) _ _ (List.forall_iff_forall_mem.mp (by
    simp only [hostOps3_2, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps4 (V : Valuation τ sig (Elt F)) (b : Ref sig .tc) (hb : b.idx.val < 14) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

theorem kept_low_hostOps5 (V : Valuation τ sig (Elt F)) (b : Ref sig .tc) (hb : b.idx.val < 14) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (low_ne hb (by decide))))

end Cert.Gala.KKept

end
-- ==== Proof.KKeptArgsA.lean ====
/-
  The encoder's parameters (arguments of the program) keep their contents across every later stretch of host operations and every later dense call of the kernel
  program, since none of those writes them: each fact as an explicit walk back through the boundaries.
-/
import proofs.«118487_j45509473469002_2_alg».proof.Proof.KKeptLow

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

theorem arg0_at5 : W5 m ρ c (Proc.devRef .tc main_arg0) = m ((c : Thread nD τ).loc main_arg0) :=
  ((kept_low_hostOps0_4 (W4 m ρ c) main_arg0 (by decide)).trans ((kept_low_hostOps0_3 (W3 m ρ c) main_arg0 (by decide)).trans ((kept_low_hostOps0_2 (W2 m ρ c) main_arg0 (by decide)).trans ((kept_low_hostOps0_1 (W1 m ρ c) main_arg0 (by decide)).trans (kept_low_hostOps0 (W0 m ρ c) main_arg0 (by decide)))))).trans rfl
theorem arg2_at5 : W5 m ρ c (Proc.devRef .tc main_arg2) = m ((c : Thread nD τ).loc main_arg2) :=
  ((kept_low_hostOps0_4 (W4 m ρ c) main_arg2 (by decide)).trans ((kept_low_hostOps0_3 (W3 m ρ c) main_arg2 (by decide)).trans ((kept_low_hostOps0_2 (W2 m ρ c) main_arg2 (by decide)).trans ((kept_low_hostOps0_1 (W1 m ρ c) main_arg2 (by decide)).trans (kept_low_hostOps0 (W0 m ρ c) main_arg2 (by decide)))))).trans rfl
theorem arg3_at6 : W6 m ρ c (Proc.devRef .tc main_arg3) = m ((c : Thread nD τ).loc main_arg3) :=
  ((W6_of_ne m ρ c main_arg3 (by decide)).trans ((kept_low_hostOps0_4 (W4 m ρ c) main_arg3 (by decide)).trans ((kept_low_hostOps0_3 (W3 m ρ c) main_arg3 (by decide)).trans ((kept_low_hostOps0_2 (W2 m ρ c) main_arg3 (by decide)).trans ((kept_low_hostOps0_1 (W1 m ρ c) main_arg3 (by decide)).trans (kept_low_hostOps0 (W0 m ρ c) main_arg3 (by decide))))))).trans rfl
theorem arg4_at8 : W8 m ρ c (Proc.devRef .tc main_arg4) = m ((c : Thread nD τ).loc main_arg4) :=
  ((kept_low_hostOps1_1 (W7 m ρ c) main_arg4 (by decide)).trans ((kept_low_hostOps1 (W6 m ρ c) main_arg4 (by decide)).trans ((W6_of_ne m ρ c main_arg4 (by decide)).trans ((kept_low_hostOps0_4 (W4 m ρ c) main_arg4 (by decide)).trans ((kept_low_hostOps0_3 (W3 m ρ c) main_arg4 (by decide)).trans ((kept_low_hostOps0_2 (W2 m ρ c) main_arg4 (by decide)).trans ((kept_low_hostOps0_1 (W1 m ρ c) main_arg4 (by decide)).trans (kept_low_hostOps0 (W0 m ρ c) main_arg4 (by decide))))))))).trans rfl
theorem arg5_at9 : W9 m ρ c (Proc.devRef .tc main_arg5) = m ((c : Thread nD τ).loc main_arg5) :=
  ((W9_of_ne m ρ c main_arg5 (by decide)).trans ((kept_low_hostOps1_1 (W7 m ρ c) main_arg5 (by decide)).trans ((kept_low_hostOps1 (W6 m ρ c) main_arg5 (by decide)).trans ((W6_of_ne m ρ c main_arg5 (by decide)).trans ((kept_low_hostOps0_4 (W4 m ρ c) main_arg5 (by decide)).trans ((kept_low_hostOps0_3 (W3 m ρ c) main_arg5 (by decide)).trans ((kept_low_hostOps0_2 (W2 m ρ c) main_arg5 (by decide)).trans ((kept_low_hostOps0_1 (W1 m ρ c) main_arg5 (by decide)).trans (kept_low_hostOps0 (W0 m ρ c) main_arg5 (by decide)))))))))).trans rfl
theorem arg6_at11 : W11 m ρ c (Proc.devRef .tc main_arg6) = m ((c : Thread nD τ).loc main_arg6) :=
  ((kept_low_hostOps2_1 (W10 m ρ c) main_arg6 (by decide)).trans ((kept_low_hostOps2 (W9 m ρ c) main_arg6 (by decide)).trans ((W9_of_ne m ρ c main_arg6 (by decide)).trans ((kept_low_hostOps1_1 (W7 m ρ c) main_arg6 (by decide)).trans ((kept_low_hostOps1 (W6 m ρ c) main_arg6 (by decide)).trans ((W6_of_ne m ρ c main_arg6 (by decide)).trans ((kept_low_hostOps0_4 (W4 m ρ c) main_arg6 (by decide)).trans ((kept_low_hostOps0_3 (W3 m ρ c) main_arg6 (by decide)).trans ((kept_low_hostOps0_2 (W2 m ρ c) main_arg6 (by decide)).trans ((kept_low_hostOps0_1 (W1 m ρ c) main_arg6 (by decide)).trans (kept_low_hostOps0 (W0 m ρ c) main_arg6 (by decide)))))))))))).trans rfl
theorem arg7_at12 : W12 m ρ c (Proc.devRef .tc main_arg7) = m ((c : Thread nD τ).loc main_arg7) :=
  ((W12_of_ne m ρ c main_arg7 (by decide)).trans ((kept_low_hostOps2_1 (W10 m ρ c) main_arg7 (by decide)).trans ((kept_low_hostOps2 (W9 m ρ c) main_arg7 (by decide)).trans ((W9_of_ne m ρ c main_arg7 (by decide)).trans ((kept_low_hostOps1_1 (W7 m ρ c) main_arg7 (by decide)).trans ((kept_low_hostOps1 (W6 m ρ c) main_arg7 (by decide)).trans ((W6_of_ne m ρ c main_arg7 (by decide)).trans ((kept_low_hostOps0_4 (W4 m ρ c) main_arg7 (by decide)).trans ((kept_low_hostOps0_3 (W3 m ρ c) main_arg7 (by decide)).trans ((kept_low_hostOps0_2 (W2 m ρ c) main_arg7 (by decide)).trans ((kept_low_hostOps0_1 (W1 m ρ c) main_arg7 (by decide)).trans (kept_low_hostOps0 (W0 m ρ c) main_arg7 (by decide))))))))))))).trans rfl

end Cert.Gala.KKept

end
-- ==== Proof.KKeptArgsB.lean ====
/-
  The decoder's parameters (arguments of the program) keep their contents across every later stretch of host operations and every later dense call of the kernel
  program, since none of those writes them: each fact as an explicit walk back through the boundaries.
-/
import proofs.«118487_j45509473469002_2_alg».proof.Proof.KKeptLow

set_option maxRecDepth 16384

noncomputable section

namespace Cert.Gala.KKept

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

theorem arg8_at15 : W15 m ρ c (Proc.devRef .tc main_arg8) = m ((c : Thread nD τ).loc main_arg8) :=
  ((kept_low_hostOps3_2 (W14 m ρ c) main_arg8 (by decide)).trans ((kept_low_hostOps3_1 (W13 m ρ c) main_arg8 (by decide)).trans ((kept_low_hostOps3 (W12 m ρ c) main_arg8 (by decide)).trans ((W12_of_ne m ρ c main_arg8 (by decide)).trans ((kept_low_hostOps2_1 (W10 m ρ c) main_arg8 (by decide)).trans ((kept_low_hostOps2 (W9 m ρ c) main_arg8 (by decide)).trans ((W9_of_ne m ρ c main_arg8 (by decide)).trans ((kept_low_hostOps1_1 (W7 m ρ c) main_arg8 (by decide)).trans ((kept_low_hostOps1 (W6 m ρ c) main_arg8 (by decide)).trans ((W6_of_ne m ρ c main_arg8 (by decide)).trans ((kept_low_hostOps0_4 (W4 m ρ c) main_arg8 (by decide)).trans ((kept_low_hostOps0_3 (W3 m ρ c) main_arg8 (by decide)).trans ((kept_low_hostOps0_2 (W2 m ρ c) main_arg8 (by decide)).trans ((kept_low_hostOps0_1 (W1 m ρ c) main_arg8 (by decide)).trans (kept_low_hostOps0 (W0 m ρ c) main_arg8 (by decide)))))))))))))))).trans rfl
theorem arg9_at14 : W14 m ρ c (Proc.devRef .tc main_arg9) = m ((c : Thread nD τ).loc main_arg9) :=
  ((kept_low_hostOps3_1 (W13 m ρ c) main_arg9 (by decide)).trans ((kept_low_hostOps3 (W12 m ρ c) main_arg9 (by decide)).trans ((W12_of_ne m ρ c main_arg9 (by decide)).trans ((kept_low_hostOps2_1 (W10 m ρ c) main_arg9 (by decide)).trans ((kept_low_hostOps2 (W9 m ρ c) main_arg9 (by decide)).trans ((W9_of_ne m ρ c main_arg9 (by decide)).trans ((kept_low_hostOps1_1 (W7 m ρ c) main_arg9 (by decide)).trans ((kept_low_hostOps1 (W6 m ρ c) main_arg9 (by decide)).trans ((W6_of_ne m ρ c main_arg9 (by decide)).trans ((kept_low_hostOps0_4 (W4 m ρ c) main_arg9 (by decide)).trans ((kept_low_hostOps0_3 (W3 m ρ c) main_arg9 (by decide)).trans ((kept_low_hostOps0_2 (W2 m ρ c) main_arg9 (by decide)).trans ((kept_low_hostOps0_1 (W1 m ρ c) main_arg9 (by decide)).trans (kept_low_hostOps0 (W0 m ρ c) main_arg9 (by decide))))))))))))))).trans rfl
theorem arg10_at17 : W17 m ρ c (Proc.devRef .tc main_arg10) = m ((c : Thread nD τ).loc main_arg10) :=
  ((kept_low_hostOps4 (W16 m ρ c) main_arg10 (by decide)).trans ((W16_of_ne m ρ c main_arg10 (by decide)).trans ((kept_low_hostOps3_2 (W14 m ρ c) main_arg10 (by decide)).trans ((kept_low_hostOps3_1 (W13 m ρ c) main_arg10 (by decide)).trans ((kept_low_hostOps3 (W12 m ρ c) main_arg10 (by decide)).trans ((W12_of_ne m ρ c main_arg10 (by decide)).trans ((kept_low_hostOps2_1 (W10 m ρ c) main_arg10 (by decide)).trans ((kept_low_hostOps2 (W9 m ρ c) main_arg10 (by decide)).trans ((W9_of_ne m ρ c main_arg10 (by decide)).trans ((kept_low_hostOps1_1 (W7 m ρ c) main_arg10 (by decide)).trans ((kept_low_hostOps1 (W6 m ρ c) main_arg10 (by decide)).trans ((W6_of_ne m ρ c main_arg10 (by decide)).trans ((kept_low_hostOps0_4 (W4 m ρ c) main_arg10 (by decide)).trans ((kept_low_hostOps0_3 (W3 m ρ c) main_arg10 (by decide)).trans ((kept_low_hostOps0_2 (W2 m ρ c) main_arg10 (by decide)).trans ((kept_low_hostOps0_1 (W1 m ρ c) main_arg10 (by decide)).trans (kept_low_hostOps0 (W0 m ρ c) main_arg10 (by decide)))))))))))))))))).trans rfl
theorem arg11_at16 : W16 m ρ c (Proc.devRef .tc main_arg11) = m ((c : Thread nD τ).loc main_arg11) :=
  ((W16_of_ne m ρ c main_arg11 (by decide)).trans ((kept_low_hostOps3_2 (W14 m ρ c) main_arg11 (by decide)).trans ((kept_low_hostOps3_1 (W13 m ρ c) main_arg11 (by decide)).trans ((kept_low_hostOps3 (W12 m ρ c) main_arg11 (by decide)).trans ((W12_of_ne m ρ c main_arg11 (by decide)).trans ((kept_low_hostOps2_1 (W10 m ρ c) main_arg11 (by decide)).trans ((kept_low_hostOps2 (W9 m ρ c) main_arg11 (by decide)).trans ((W9_of_ne m ρ c main_arg11 (by decide)).trans ((kept_low_hostOps1_1 (W7 m ρ c) main_arg11 (by decide)).trans ((kept_low_hostOps1 (W6 m ρ c) main_arg11 (by decide)).trans ((W6_of_ne m ρ c main_arg11 (by decide)).trans ((kept_low_hostOps0_4 (W4 m ρ c) main_arg11 (by decide)).trans ((kept_low_hostOps0_3 (W3 m ρ c) main_arg11 (by decide)).trans ((kept_low_hostOps0_2 (W2 m ρ c) main_arg11 (by decide)).trans ((kept_low_hostOps0_1 (W1 m ρ c) main_arg11 (by decide)).trans (kept_low_hostOps0 (W0 m ρ c) main_arg11 (by decide))))))))))))))))).trans rfl
theorem arg12_at19 : W19 m ρ c (Proc.devRef .tc main_arg12) = m ((c : Thread nD τ).loc main_arg12) :=
  ((kept_low_hostOps5 (W18 m ρ c) main_arg12 (by decide)).trans ((W18_of_ne m ρ c main_arg12 (by decide)).trans ((kept_low_hostOps4 (W16 m ρ c) main_arg12 (by decide)).trans ((W16_of_ne m ρ c main_arg12 (by decide)).trans ((kept_low_hostOps3_2 (W14 m ρ c) main_arg12 (by decide)).trans ((kept_low_hostOps3_1 (W13 m ρ c) main_arg12 (by decide)).trans ((kept_low_hostOps3 (W12 m ρ c) main_arg12 (by decide)).trans ((W12_of_ne m ρ c main_arg12 (by decide)).trans ((kept_low_hostOps2_1 (W10 m ρ c) main_arg12 (by decide)).trans ((kept_low_hostOps2 (W9 m ρ c) main_arg12 (by decide)).trans ((W9_of_ne m ρ c main_arg12 (by decide)).trans ((kept_low_hostOps1_1 (W7 m ρ c) main_arg12 (by decide)).trans ((kept_low_hostOps1 (W6 m ρ c) main_arg12 (by decide)).trans ((W6_of_ne m ρ c main_arg12 (by decide)).trans ((kept_low_hostOps0_4 (W4 m ρ c) main_arg12 (by decide)).trans ((kept_low_hostOps0_3 (W3 m ρ c) main_arg12 (by decide)).trans ((kept_low_hostOps0_2 (W2 m ρ c) main_arg12 (by decide)).trans ((kept_low_hostOps0_1 (W1 m ρ c) main_arg12 (by decide)).trans (kept_low_hostOps0 (W0 m ρ c) main_arg12 (by decide)))))))))))))))))))).trans rfl
theorem arg13_at18 : W18 m ρ c (Proc.devRef .tc main_arg13) = m ((c : Thread nD τ).loc main_arg13) :=
  ((W18_of_ne m ρ c main_arg13 (by decide)).trans ((kept_low_hostOps4 (W16 m ρ c) main_arg13 (by decide)).trans ((W16_of_ne m ρ c main_arg13 (by decide)).trans ((kept_low_hostOps3_2 (W14 m ρ c) main_arg13 (by decide)).trans ((kept_low_hostOps3_1 (W13 m ρ c) main_arg13 (by decide)).trans ((kept_low_hostOps3 (W12 m ρ c) main_arg13 (by decide)).trans ((W12_of_ne m ρ c main_arg13 (by decide)).trans ((kept_low_hostOps2_1 (W10 m ρ c) main_arg13 (by decide)).trans ((kept_low_hostOps2 (W9 m ρ c) main_arg13 (by decide)).trans ((W9_of_ne m ρ c main_arg13 (by decide)).trans ((kept_low_hostOps1_1 (W7 m ρ c) main_arg13 (by decide)).trans ((kept_low_hostOps1 (W6 m ρ c) main_arg13 (by decide)).trans ((W6_of_ne m ρ c main_arg13 (by decide)).trans ((kept_low_hostOps0_4 (W4 m ρ c) main_arg13 (by decide)).trans ((kept_low_hostOps0_3 (W3 m ρ c) main_arg13 (by decide)).trans ((kept_low_hostOps0_2 (W2 m ρ c) main_arg13 (by decide)).trans ((kept_low_hostOps0_1 (W1 m ρ c) main_arg13 (by decide)).trans (kept_low_hostOps0 (W0 m ρ c) main_arg13 (by decide))))))))))))))))))).trans rfl

end Cert.Gala.KKept

end
-- ==== Proof.Region0.lean ====
/-
  Dense call 0 of the kernel program, from row blocks to the whole array.

  The call runs over ten grid points; point `t` stages rows `10000·t … 10000·t + 9999` of its first operand, the whole
  `[128, 64]` projection, and writes back the product of its row block with the whole projection: rows `10000·t …` of the result.
  The ten blocks tile the `[100000, 64]` result, and each is the restriction of ONE function of the arrays the call
  finds — `matArr` (entry `(p, q)` is `∑ j, x (p, j) · w (j, q)`) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region0

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x128_S128x64_S10000x64_1_0_0_1_n_n where
  rank := rfl
  size := rfl
  l0 := fun i q => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  l1 := fun i q => dot_S10000x128_S128x64_S10000x64_1_0_0_1_n_n.lhsIdx_val_of_single rfl i q
  r0 := fun i q => dot_S10000x128_S128x64_S10000x64_1_0_0_1_n_n.rhsIdx_val_of_single rfl i q
  r1 := fun i q => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- The body's arithmetic on one block, at an entry. -/
theorem pay_apply (x0 : FVec Ideal S10000x128 .f32) (x1 : FVec Ideal S128x64 .f32) (p : Fin 10000) (q : Fin 64) :
    k0_pay1 x0 x1 (ix2 p q) = ∑ j : Fin 128, x0 (ix2 p j) * x1 (ix2 j q) := by
  unfold k0_pay1
  exact matmul_rows_prec hd (some .fp32) x0 x1 p q

/-- The printed index maps over the grid: the row block follows the point, everything else stays at block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the one function of the arrays the call finds. -/
theorem flushed_eq (c : Dev nD) (t : Fin cfg0.N) :
    (dat0 V c).flushed 2 t = ((cfg0.win 2).blk t).view.read (Elt Ideal) (matArr (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  show (fun j : S10000x64.Idx => k0_pay1 (iblk0 V c 0 t) (iblk0 V c 1 t) j)
    = fun j : S10000x64.Idx => matArr (V c main_arg0) (V c main_arg2) (((cfg0.win 2).blk t).view.emb j)
  funext j
  obtain ⟨p, q, rfl⟩ : ∃ (p : Fin 10000) (q : Fin 64), j = ix2 p q := ⟨j 0, j 1, eq_ix2 j⟩
  refine (pay_apply (iblk0 V c 0 t) (iblk0 V c 1 t) p q).trans ?_
  refine Finset.sum_congr rfl fun k _ => congrArg₂ (· * ·) ?_ ?_
  ·
    show V c main_arg0 (((cfg0.win 0).blk t).view.emb (ix2 p k)) = V c main_arg0 (ix2 ((((cfg0.win 2).blk t).view.emb (ix2 p q)) 0) k)
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  ·
    show V c main_arg2 (((cfg0.win 1).blk t).view.emb (ix2 k q)) = V c main_arg2 (ix2 k ((((cfg0.win 2).blk t).view.emb (ix2 p q)) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v65).slice (win0_2.rect t)).set ↔ _
  rw [View.set_slice_whole, Rect.mem_set_unit]
  exact Iff.rfl

/-- The ten blocks tile the result: row `r` is in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the call. -/
theorem final (c : Dev nD) : (dat0 V c).arrAt 2 cfg0.N = matArr (V c main_arg0) (V c main_arg2) :=
  (dat0 V c).arrAt_eq_of_cover 2 _ (fun t _ => flushed_eq V c t) cover

end Cert.Gala.Region0

end
-- ==== Proof.Region1.lean ====
/-
  Dense call 1 of the kernel program, from row blocks to the whole array.

  The call runs over ten grid points; point `t` stages rows `10000·t … 10000·t + 9999` of its first operand, the whole
  `[64, 32]` projection, and writes back the product of its row block with the whole projection: rows `10000·t …` of the result.
  The ten blocks tile the `[100000, 32]` result, and each is the restriction of ONE function of the arrays the call
  finds — `matArr` (entry `(p, q)` is `∑ j, x (p, j) · w (j, q)`) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region1

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x64_S64x32_S10000x32_1_0_0_1_n_n where
  rank := rfl
  size := rfl
  l0 := fun i q => by
    unfold DotDims.lhsIdx
    rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
    rfl
  l1 := fun i q => dot_S10000x64_S64x32_S10000x32_1_0_0_1_n_n.lhsIdx_val_of_single rfl i q
  r0 := fun i q => dot_S10000x64_S64x32_S10000x32_1_0_0_1_n_n.rhsIdx_val_of_single rfl i q
  r1 := fun i q => by
    unfold DotDims.rhsIdx
    rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
    rfl

/-- The body's arithmetic on one block, at an entry. -/
theorem pay_apply (x0 : FVec Ideal S10000x64 .f32) (x1 : FVec Ideal S64x32 .f32) (p : Fin 10000) (q : Fin 32) :
    k1_pay1 x0 x1 (ix2 p q) = ∑ j : Fin 64, x0 (ix2 p j) * x1 (ix2 j q) := by
  unfold k1_pay1
  simp only [shapeCast_self]
  exact matmul_rows_prec hd (some .fp32) x0 x1 p q

/-- The printed index maps over the grid: the row block follows the point, everything else stays at block 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the one function of the arrays the call finds. -/
theorem flushed_eq (c : Dev nD) (t : Fin cfg1.N) :
    (dat1 V c).flushed 2 t = ((cfg1.win 2).blk t).view.read (Elt Ideal) (matArr (V c main_v82) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨e0, e1, e2, e3, e4, e5⟩ := idx_facts t
  show (fun j : S10000x32.Idx => k1_pay1 (iblk1 V c 0 t) (iblk1 V c 1 t) j)
    = fun j : S10000x32.Idx => matArr (V c main_v82) (V c main_arg4) (((cfg1.win 2).blk t).view.emb j)
  funext j
  obtain ⟨p, q, rfl⟩ : ∃ (p : Fin 10000) (q : Fin 32), j = ix2 p q := ⟨j 0, j 1, eq_ix2 j⟩
  refine (pay_apply (iblk1 V c 0 t) (iblk1 V c 1 t) p q).trans ?_
  refine Finset.sum_congr rfl fun k _ => congrArg₂ (· * ·) ?_ ?_
  ·
    show V c main_v82 (((cfg1.win 0).blk t).view.emb (ix2 p k)) = V c main_v82 (ix2 ((((cfg1.win 2).blk t).view.emb (ix2 p q)) 0) k)
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  ·
    show V c main_arg4 (((cfg1.win 1).blk t).view.emb (ix2 k q)) = V c main_arg4 (ix2 k ((((cfg1.win 2).blk t).view.emb (ix2 p q)) 1))
    refine congrArg _ (funext fun a => Fin.ext ?_)
    match a with
    | ⟨0, _⟩ => show win1_1.index t (0 : Fin 2) * 64 + 1 * k.val = k.val; omega
    | ⟨1, _⟩ => show win1_1.index t (1 : Fin 2) * 32 + 1 * q.val = win1_2.index t (1 : Fin 2) * 32 + 1 * q.val; omega

/-- An index of the result is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v83).slice (win1_2.rect t)).set ↔ _
  rw [View.set_slice_whole, Rect.mem_set_unit]
  exact Iff.rfl

/-- The ten blocks tile the result: row `r` is in the block of point `r / 10000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- The result array after the call. -/
theorem final (c : Dev nD) : (dat1 V c).arrAt 2 cfg1.N = matArr (V c main_v82) (V c main_arg4) :=
  (dat1 V c).arrAt_eq_of_cover 2 _ (fun t _ => flushed_eq V c t) cover

end Cert.Gala.Region1

end
-- ==== Proof.Region2.lean ====
/-
  Dense call 2 of the kernel program, from row blocks to the whole array.

  The call runs over ten grid points; point `t` stages rows `10000·t … 10000·t + 9999` of its first operand, the whole
  `[32, 16]` projection, and writes back the product of its row block with the whole projection: rows `10000·t …` of the result.
  The ten blocks tile the `[100000, 16]` result, and each is the restriction of ONE function of the arrays the call
  finds — `matArr` (entry `(p, q)` is `∑ j, x (p, j) · w (j, q)`) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region2

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x32_S32x16_S10000x16_1_0_0_1_n_n where
  rank := rfl
  size := rfl
  l0 := fun i q => by
    unfold DotDims.lhsIdx
    rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
    rfl
  l1 := fun i q => dot_S10000x32_S32x16_S10000x16_1_0_0_1_n_n.lhsIdx_val_of_single rfl i q
  r0 := fun i q => dot_S10000x32_S32x16_S10000x16_1_0_0_1_n_n.rhsIdx_val_of_single rfl i q
  r1 := fun i q => by
    unfold DotDims.rhsIdx
    rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
    rfl

/-- The body's arithmetic on one block, at an entry. -/
theorem pay_apply (x0 : FVec Ideal S10000x32 .f32) (x1 : FVec Ideal S32x16 .f32) (p : Fin 10000) (q : Fin 16) :
    k2_pay1 x0 x1 (ix2 p q) = ∑ j : Fin 32, x0 (ix2 p j) * x1 (ix2 j q) := by
  unfold k2_pay1
  simp only [shapeCast_self]
  exact matmul_rows_prec hd (some .fp32) x0 x1 p q

/-- The printed index maps over the grid: the row block follows the point, everything else stays at block 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the one function of the arrays the call finds. -/
theorem flushed_eq (c : Dev nD) (t : Fin cfg2.N) :
    (dat2 V c).flushed 2 t = ((cfg2.win 2).blk t).view.read (Elt Ideal) (matArr (V c main_v100) (V c main_arg6)) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x16) hz]
  obtain ⟨e0, e1, e2, e3, e4, e5⟩ := idx_facts t
  show (fun j : S10000x16.Idx => k2_pay1 (iblk2 V c 0 t) (iblk2 V c 1 t) j)
    = fun j : S10000x16.Idx => matArr (V c main_v100) (V c main_arg6) (((cfg2.win 2).blk t).view.emb j)
  funext j
  obtain ⟨p, q, rfl⟩ : ∃ (p : Fin 10000) (q : Fin 16), j = ix2 p q := ⟨j 0, j 1, eq_ix2 j⟩
  refine (pay_apply (iblk2 V c 0 t) (iblk2 V c 1 t) p q).trans ?_
  refine Finset.sum_congr rfl fun k _ => congrArg₂ (· * ·) ?_ ?_
  ·
    show V c main_v100 (((cfg2.win 0).blk t).view.emb (ix2 p k)) = V c main_v100 (ix2 ((((cfg2.win 2).blk t).view.emb (ix2 p q)) 0) k)
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 32 + 1 * k.val = k.val; omega
  ·
    show V c main_arg6 (((cfg2.win 1).blk t).view.emb (ix2 k q)) = V c main_arg6 (ix2 k ((((cfg2.win 2).blk t).view.emb (ix2 p q)) 1))
    refine congrArg _ (funext fun a => Fin.ext ?_)
    match a with
    | ⟨0, _⟩ => show win2_1.index t (0 : Fin 2) * 32 + 1 * k.val = k.val; omega
    | ⟨1, _⟩ => show win2_1.index t (1 : Fin 2) * 16 + 1 * q.val = win2_2.index t (1 : Fin 2) * 16 + 1 * q.val; omega

/-- An index of the result is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v101).slice (win2_2.rect t)).set ↔ _
  rw [View.set_slice_whole, Rect.mem_set_unit]
  exact Iff.rfl

/-- The ten blocks tile the result: row `r` is in the block of point `r / 10000`. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The result array after the call. -/
theorem final (c : Dev nD) : (dat2 V c).arrAt 2 cfg2.N = matArr (V c main_v100) (V c main_arg6) :=
  (dat2 V c).arrAt_eq_of_cover 2 _ (fun t _ => flushed_eq V c t) cover

end Cert.Gala.Region2

end
-- ==== Proof.Region3.lean ====
/-
  Dense call 3 of the kernel program, from row blocks to the whole array.

  The call runs over ten grid points; point `t` stages rows `10000·t … 10000·t + 9999` of its first operand, the whole
  `[16, 32]` projection and the whole bias row, and writes back the product of its row block with the whole projection, plus the bias row, rectified: rows `10000·t …` of the result.
  The ten blocks tile the `[100000, 32]` result, and each is the restriction of ONE function of the arrays the call
  finds — `denseReluArr` (entry `(p, q)` is `∑ j, x (p, j) · w (j, q)` plus `b (0, q)`, then the maximum with 0) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region3

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x16_S16x32_S10000x32_1_0_0_1_n_n where
  rank := rfl
  size := rfl
  l0 := fun i q => by
    unfold DotDims.lhsIdx
    rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
    rfl
  l1 := fun i q => dot_S10000x16_S16x32_S10000x32_1_0_0_1_n_n.lhsIdx_val_of_single rfl i q
  r0 := fun i q => dot_S10000x16_S16x32_S10000x32_1_0_0_1_n_n.rhsIdx_val_of_single rfl i q
  r1 := fun i q => by
    unfold DotDims.rhsIdx
    rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
    rfl

/-- The body's arithmetic on one block, at an entry. -/
theorem pay_apply (x0 : FVec Ideal S10000x16 .f32) (x1 : FVec Ideal S16x32 .f32) (x2 : FVec Ideal S1x32 .f32) (p : Fin 10000) (q : Fin 32) :
    k3_pay1 x0 x1 x2 (ix2 p q) = max ((∑ j : Fin 16, x0 (ix2 p j) * x1 (ix2 j q)) + x2 (ix2 (0 : Fin 1) q)) 0 := by
  unfold k3_pay1
  simp only [shapeCast_self]
  refine (maximumf_apply _ _ _).trans ?_
  refine congrArg₂ max ?_ Ideal.ofBits_zero_f32
  refine (addf_apply _ _ _).trans ?_
  exact congrArg₂ (· + ·) (matmul_rows_prec hd (some .fp32) x0 x1 p q) (broadcastTo_1b_ab_apply x2 _ p q)

/-- The printed index maps over the grid: the row block follows the point, everything else stays at block 0. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_3.index t (1 : Fin 2) = 0 ∧ win3_3.index t (0 : Fin 2) ≤ 9
    ∧ win3_2.index t (0 : Fin 2) = 0 ∧ win3_2.index t (1 : Fin 2) = 0 :=
  (by decide +kernel : ∀ t : Fin grid3.N, _)

/-- Every row block of the result is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- What point `t` writes back is block `t` of the one function of the arrays the call finds. -/
theorem flushed_eq (c : Dev nD) (t : Fin cfg3.N) :
    (dat3 V c).flushed 3 t = ((cfg3.win 3).blk t).view.read (Elt Ideal) (denseReluArr (V c main_v131) (V c main_arg8) (V c main_v132)) := by
  show (cfg3.win 3).cut (grid3.coords t) ((dat3 V c).after 3 t) = _
  rw [after3_3]
  unfold out3_3
  rw [View.canon_unit_zero hz]
  simp only [View.ld_unit_zero (S := S10000x16) hz, View.ld_unit_zero (S := S16x32) hz, View.ld_unit_zero (S := S1x32) hz]
  obtain ⟨e0, e1, e2, e3, e4, e5, e6, e7⟩ := idx_facts t
  show (fun j : S10000x32.Idx => k3_pay1 (iblk3 V c 0 t) (iblk3 V c 1 t) (iblk3 V c 2 t) j)
    = fun j : S10000x32.Idx => denseReluArr (V c main_v131) (V c main_arg8) (V c main_v132) (((cfg3.win 3).blk t).view.emb j)
  funext j
  obtain ⟨p, q, rfl⟩ : ∃ (p : Fin 10000) (q : Fin 32), j = ix2 p q := ⟨j 0, j 1, eq_ix2 j⟩
  refine (pay_apply (iblk3 V c 0 t) (iblk3 V c 1 t) (iblk3 V c 2 t) p q).trans ?_
  refine congrArg (max · 0) ?_
  refine congrArg₂ (· + ·) ?_ ?_
  · refine Finset.sum_congr rfl fun k _ => congrArg₂ (· * ·) ?_ ?_
    ·
      show V c main_v131 (((cfg3.win 0).blk t).view.emb (ix2 p k)) = V c main_v131 (ix2 ((((cfg3.win 3).blk t).view.emb (ix2 p q)) 0) k)
      refine congrArg _ (funext fun a => Fin.ext ?_)
      match a with
      | ⟨0, _⟩ => show win3_0.index t (0 : Fin 2) * 10000 + 1 * p.val = win3_3.index t (0 : Fin 2) * 10000 + 1 * p.val; omega
      | ⟨1, _⟩ => show win3_0.index t (1 : Fin 2) * 16 + 1 * k.val = k.val; omega
    ·
      show V c main_arg8 (((cfg3.win 1).blk t).view.emb (ix2 k q)) = V c main_arg8 (ix2 k ((((cfg3.win 3).blk t).view.emb (ix2 p q)) 1))
      refine congrArg _ (funext fun a => Fin.ext ?_)
      match a with
      | ⟨0, _⟩ => show win3_1.index t (0 : Fin 2) * 16 + 1 * k.val = k.val; omega
      | ⟨1, _⟩ => show win3_1.index t (1 : Fin 2) * 32 + 1 * q.val = win3_3.index t (1 : Fin 2) * 32 + 1 * q.val; omega
  ·
    show V c main_v132 (((cfg3.win 2).blk t).view.emb (ix2 (0 : Fin 1) q)) = V c main_v132 (ix2 (0 : Fin 1) ((((cfg3.win 3).blk t).view.emb (ix2 p q)) 1))
    refine congrArg _ (funext fun a => Fin.ext ?_)
    match a with
    | ⟨0, _⟩ => show win3_2.index t (0 : Fin 2) * 1 + 1 * 0 = 0; omega
    | ⟨1, _⟩ => show win3_2.index t (1 : Fin 2) * 32 + 1 * q.val = win3_3.index t (1 : Fin 2) * 32 + 1 * q.val; omega

/-- An index of the result is in point `t`'s block iff each coordinate is in the block's range on its axis. -/
theorem mem_blk (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v133).slice (win3_3.rect t)).set ↔ _
  rw [View.set_slice_whole, Rect.mem_set_unit]
  exact Iff.rfl

/-- The ten blocks tile the result: row `r` is in the block of point `r / 10000`. -/
theorem cover (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- The result array after the call. -/
theorem final (c : Dev nD) : (dat3 V c).arrAt 3 cfg3.N = denseReluArr (V c main_v131) (V c main_arg8) (V c main_v132) :=
  (dat3 V c).arrAt_eq_of_cover 3 _ (fun t _ => flushed_eq V c t) cover

end Cert.Gala.Region3

end
-- ==== Proof.Region4.lean ====
/-
  Dense call 4 of the kernel program, from row blocks to the whole array.

  The call runs over ten grid points; point `t` stages rows `10000·t … 10000·t + 9999` of its first operand, the whole
  `[32, 64]` projection and the whole bias row, and writes back the product of its row block with the whole projection, plus the bias row, rectified: rows `10000·t …` of the result.
  The ten blocks tile the `[100000, 64]` result, and each is the restriction of ONE function of the arrays the call
  finds — `denseReluArr` (entry `(p, q)` is `∑ j, x (p, j) · w (j, q)` plus `b (0, q)`, then the maximum with 0) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region4

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x32_S32x64_S10000x64_1_0_0_1_n_n where
  rank := rfl
  size := rfl
  l0 := fun i q => by
    unfold DotDims.lhsIdx
    rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
    rfl
  l1 := fun i q => dot_S10000x32_S32x64_S10000x64_1_0_0_1_n_n.lhsIdx_val_of_single rfl i q
  r0 := fun i q => dot_S10000x32_S32x64_S10000x64_1_0_0_1_n_n.rhsIdx_val_of_single rfl i q
  r1 := fun i q => by
    unfold DotDims.rhsIdx
    rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
    rfl

/-- The body's arithmetic on one block, at an entry. -/
theorem pay_apply (x0 : FVec Ideal S10000x32 .f32) (x1 : FVec Ideal S32x64 .f32) (x2 : FVec Ideal S1x64 .f32) (p : Fin 10000) (q : Fin 64) :
    k4_pay1 x0 x1 x2 (ix2 p q) = max ((∑ j : Fin 32, x0 (ix2 p j) * x1 (ix2 j q)) + x2 (ix2 (0 : Fin 1) q)) 0 := by
  unfold k4_pay1
  simp only [shapeCast_self]
  refine (maximumf_apply _ _ _).trans ?_
  refine congrArg₂ max ?_ Ideal.ofBits_zero_f32
  refine (addf_apply _ _ _).trans ?_
  exact congrArg₂ (· + ·) (matmul_rows_prec hd (some .fp32) x0 x1 p q) (broadcastTo_1b_ab_apply x2 _ p q)

/-- The printed index maps over the grid: the row block follows the point, everything else stays at block 0. -/
theorem idx_facts : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_3.index t (1 : Fin 2) = 0 ∧ win4_3.index t (0 : Fin 2) ≤ 9
    ∧ win4_2.index t (0 : Fin 2) = 0 ∧ win4_2.index t (1 : Fin 2) = 0 :=
  (by decide +kernel : ∀ t : Fin grid4.N, _)

/-- Every row block of the result is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- What point `t` writes back is block `t` of the one function of the arrays the call finds. -/
theorem flushed_eq (c : Dev nD) (t : Fin cfg4.N) :
    (dat4 V c).flushed 3 t = ((cfg4.win 3).blk t).view.read (Elt Ideal) (denseReluArr (V c main_v146) (V c main_arg10) (V c main_v147)) := by
  show (cfg4.win 3).cut (grid4.coords t) ((dat4 V c).after 3 t) = _
  rw [after4_3]
  unfold out4_3
  rw [View.canon_unit_zero hz]
  simp only [View.ld_unit_zero (S := S10000x32) hz, View.ld_unit_zero (S := S32x64) hz, View.ld_unit_zero (S := S1x64) hz]
  obtain ⟨e0, e1, e2, e3, e4, e5, e6, e7⟩ := idx_facts t
  show (fun j : S10000x64.Idx => k4_pay1 (iblk4 V c 0 t) (iblk4 V c 1 t) (iblk4 V c 2 t) j)
    = fun j : S10000x64.Idx => denseReluArr (V c main_v146) (V c main_arg10) (V c main_v147) (((cfg4.win 3).blk t).view.emb j)
  funext j
  obtain ⟨p, q, rfl⟩ : ∃ (p : Fin 10000) (q : Fin 64), j = ix2 p q := ⟨j 0, j 1, eq_ix2 j⟩
  refine (pay_apply (iblk4 V c 0 t) (iblk4 V c 1 t) (iblk4 V c 2 t) p q).trans ?_
  refine congrArg (max · 0) ?_
  refine congrArg₂ (· + ·) ?_ ?_
  · refine Finset.sum_congr rfl fun k _ => congrArg₂ (· * ·) ?_ ?_
    ·
      show V c main_v146 (((cfg4.win 0).blk t).view.emb (ix2 p k)) = V c main_v146 (ix2 ((((cfg4.win 3).blk t).view.emb (ix2 p q)) 0) k)
      refine congrArg _ (funext fun a => Fin.ext ?_)
      match a with
      | ⟨0, _⟩ => show win4_0.index t (0 : Fin 2) * 10000 + 1 * p.val = win4_3.index t (0 : Fin 2) * 10000 + 1 * p.val; omega
      | ⟨1, _⟩ => show win4_0.index t (1 : Fin 2) * 32 + 1 * k.val = k.val; omega
    ·
      show V c main_arg10 (((cfg4.win 1).blk t).view.emb (ix2 k q)) = V c main_arg10 (ix2 k ((((cfg4.win 3).blk t).view.emb (ix2 p q)) 1))
      refine congrArg _ (funext fun a => Fin.ext ?_)
      match a with
      | ⟨0, _⟩ => show win4_1.index t (0 : Fin 2) * 32 + 1 * k.val = k.val; omega
      | ⟨1, _⟩ => show win4_1.index t (1 : Fin 2) * 64 + 1 * q.val = win4_3.index t (1 : Fin 2) * 64 + 1 * q.val; omega
  ·
    show V c main_v147 (((cfg4.win 2).blk t).view.emb (ix2 (0 : Fin 1) q)) = V c main_v147 (ix2 (0 : Fin 1) ((((cfg4.win 3).blk t).view.emb (ix2 p q)) 1))
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega

/-- An index of the result is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v148).slice (win4_3.rect t)).set ↔ _
  rw [View.set_slice_whole, Rect.mem_set_unit]
  exact Iff.rfl

/-- The ten blocks tile the result: row `r` is in the block of point `r / 10000`. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The result array after the call. -/
theorem final (c : Dev nD) : (dat4 V c).arrAt 3 cfg4.N = denseReluArr (V c main_v146) (V c main_arg10) (V c main_v147) :=
  (dat4 V c).arrAt_eq_of_cover 3 _ (fun t _ => flushed_eq V c t) cover

end Cert.Gala.Region4

end
-- ==== Proof.Region5.lean ====
/-
  Dense call 5 of the kernel program, from row blocks to the whole array.

  The call runs over ten grid points; point `t` stages rows `10000·t … 10000·t + 9999` of its first operand, the whole
  `[64, 128]` projection and the whole bias row, and writes back the product of its row block with the whole projection, plus the bias row: rows `10000·t …` of the result.
  The ten blocks tile the `[100000, 128]` result, and each is the restriction of ONE function of the arrays the call
  finds — `denseArr` (entry `(p, q)` is `∑ j, x (p, j) · w (j, q)` plus `b (0, q)`) —, so the array after the call
  is that function, whatever the buffers held when the call was entered (`V`).
-/
import proofs.«118487_j45509473469002_2_alg».proof.Proof.Gen.KernelIdeal.Frame
import proofs.«118487_j45509473469002_2_alg».proof.Proof.ConvOps
import Idealize.ShloMosaic.Lib.Pipeline.Value
import Idealize.ShloMosaic.Lib.ValueLayout

set_option maxRecDepth 16384

noncomputable section

open scoped BigOperators

namespace Cert.Gala.Region5

open Idealize.ShloMosaic Idealize.ShloMosaic.ValueIdx Idealize.ShloMosaic.TcCoe Idealize.SL.Sem
open Cert.KernelIdeal Cert.KernelIdeal.Gen Cert.LibMatRows Cert.Gala
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record says what a plain rows-times-matrix product says. -/
theorem hd : RowsTimesMat dot_S10000x64_S64x128_S10000x128_1_0_0_1_n_n where
  rank := rfl
  size := rfl
  l0 := fun i q => by
    unfold DotDims.lhsIdx
    rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
    rfl
  l1 := fun i q => dot_S10000x64_S64x128_S10000x128_1_0_0_1_n_n.lhsIdx_val_of_single rfl i q
  r0 := fun i q => dot_S10000x64_S64x128_S10000x128_1_0_0_1_n_n.rhsIdx_val_of_single rfl i q
  r1 := fun i q => by
    unfold DotDims.rhsIdx
    rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
    rfl

/-- The body's arithmetic on one block, at an entry. -/
theorem pay_apply (x0 : FVec Ideal S10000x64 .f32) (x1 : FVec Ideal S64x128 .f32) (x2 : FVec Ideal S1x128 .f32) (p : Fin 10000) (q : Fin 128) :
    k5_pay1 x0 x1 x2 (ix2 p q) = (∑ j : Fin 64, x0 (ix2 p j) * x1 (ix2 j q)) + x2 (ix2 (0 : Fin 1) q) := by
  unfold k5_pay1
  simp only [shapeCast_self]
  refine (addf_apply _ _ _).trans ?_
  exact congrArg₂ (· + ·) (matmul_rows_prec hd (some .fp32) x0 x1 p q) (broadcastTo_1b_ab_apply x2 _ p q)

/-- The printed index maps over the grid: the row block follows the point, everything else stays at block 0. -/
theorem idx_facts : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_3.index t (1 : Fin 2) = 0 ∧ win5_3.index t (0 : Fin 2) ≤ 9
    ∧ win5_2.index t (0 : Fin 2) = 0 ∧ win5_2.index t (1 : Fin 2) = 0 :=
  (by decide +kernel : ∀ t : Fin grid5.N, _)

/-- Every row block of the result is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

/-- What point `t` writes back is block `t` of the one function of the arrays the call finds. -/
theorem flushed_eq (c : Dev nD) (t : Fin cfg5.N) :
    (dat5 V c).flushed 3 t = ((cfg5.win 3).blk t).view.read (Elt Ideal) (denseArr (V c main_v161) (V c main_arg12) (V c main_v162)) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x128) hz, View.ld_unit_zero (S := S1x128) hz]
  obtain ⟨e0, e1, e2, e3, e4, e5, e6, e7⟩ := idx_facts t
  show (fun j : S10000x128.Idx => k5_pay1 (iblk5 V c 0 t) (iblk5 V c 1 t) (iblk5 V c 2 t) j)
    = fun j : S10000x128.Idx => denseArr (V c main_v161) (V c main_arg12) (V c main_v162) (((cfg5.win 3).blk t).view.emb j)
  funext j
  obtain ⟨p, q, rfl⟩ : ∃ (p : Fin 10000) (q : Fin 128), j = ix2 p q := ⟨j 0, j 1, eq_ix2 j⟩
  refine (pay_apply (iblk5 V c 0 t) (iblk5 V c 1 t) (iblk5 V c 2 t) p q).trans ?_
  refine congrArg₂ (· + ·) ?_ ?_
  · refine Finset.sum_congr rfl fun k _ => congrArg₂ (· * ·) ?_ ?_
    ·
      show V c main_v161 (((cfg5.win 0).blk t).view.emb (ix2 p k)) = V c main_v161 (ix2 ((((cfg5.win 3).blk t).view.emb (ix2 p q)) 0) k)
      refine congrArg _ (funext fun a => Fin.ext ?_)
      match a with
      | ⟨0, _⟩ => show win5_0.index t (0 : Fin 2) * 10000 + 1 * p.val = win5_3.index t (0 : Fin 2) * 10000 + 1 * p.val; omega
      | ⟨1, _⟩ => show win5_0.index t (1 : Fin 2) * 64 + 1 * k.val = k.val; omega
    ·
      show V c main_arg12 (((cfg5.win 1).blk t).view.emb (ix2 k q)) = V c main_arg12 (ix2 k ((((cfg5.win 3).blk t).view.emb (ix2 p q)) 1))
      refine congrArg _ (funext fun a => Fin.ext ?_)
      match a with
      | ⟨0, _⟩ => show win5_1.index t (0 : Fin 2) * 64 + 1 * k.val = k.val; omega
      | ⟨1, _⟩ => show win5_1.index t (1 : Fin 2) * 128 + 1 * q.val = win5_3.index t (1 : Fin 2) * 128 + 1 * q.val; omega
  ·
    show V c main_v162 (((cfg5.win 2).blk t).view.emb (ix2 (0 : Fin 1) q)) = V c main_v162 (ix2 (0 : Fin 1) ((((cfg5.win 3).blk t).view.emb (ix2 p q)) 1))
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega

/-- An index of the result is in point `t`'s block iff each coordinate is in the block's range on its axis. -/
theorem mem_blk (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v163).slice (win5_3.rect t)).set ↔ _
  rw [View.set_slice_whole, Rect.mem_set_unit]
  exact Iff.rfl

/-- The ten blocks tile the result: row `r` is in the block of point `r / 10000`. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The result array after the call. -/
theorem final (c : Dev nD) : (dat5 V c).arrAt 3 cfg5.N = denseArr (V c main_v161) (V c main_arg12) (V c main_v162) :=
  (dat5 V c).arrAt_eq_of_cover 3 _ (fun t _ => flushed_eq V c t) cover

end Cert.Gala.Region5

end
-- ==== Proof.KChain.lean ====
/-
  The kernel program, boundary by boundary, is the six-layer network.

  `netK` is the network whose graph data are the kernel program's own prologue values (the row and column words and
  the two weight vectors it computes once, `W5`) and whose parameters are its arguments. Walking the boundaries: each
  encoder layer is a dense call (the projection of the previous activation), a gather / scale / scatter-add stretch with
  the bias, and a rectifier — the layer's entry with the weight on the right, equal by commutativity; each decoder layer
  is a gather / scale / scatter-add stretch and then a dense call with bias (and rectifier) — aggregate first, then
  project, equal to the layer's entry because the activations, the weights and the projections are real.
-/
import proofs.«118487_j45509473469002_2_alg».proof.Proof.Gen.KernelIdeal.Frame
import proofs.«118487_j45509473469002_2_alg».proof.Proof.KStretch
import proofs.«118487_j45509473469002_2_alg».proof.Proof.KKeptRows
import proofs.«118487_j45509473469002_2_alg».proof.Proof.KKeptCols
import proofs.«118487_j45509473469002_2_alg».proof.Proof.KKeptWeights
import proofs.«118487_j45509473469002_2_alg».proof.Proof.KKeptArgsA
import proofs.«118487_j45509473469002_2_alg».proof.Proof.KKeptArgsB
import proofs.«118487_j45509473469002_2_alg».proof.Proof.Region0
import proofs.«118487_j45509473469002_2_alg».proof.Proof.Region1
import proofs.«118487_j45509473469002_2_alg».proof.Proof.Region2
import proofs.«118487_j45509473469002_2_alg».proof.Proof.Region3
import proofs.«118487_j45509473469002_2_alg».proof.Proof.Region4
import proofs.«118487_j45509473469002_2_alg».proof.Proof.Region5

set_option maxRecDepth 16384

noncomputable section

open scoped BigOperators

namespace Cert.Gala.KChain

open Idealize.ShloMosaic Idealize.ShloMosaic.ValueIdx Idealize.ShloMosaic.TcCoe Idealize.SL.Sem Idealize.ShloMosaic.StableHlo
open Cert.KernelIdeal Cert.KernelIdeal.Gen Cert.Gala Cert.LibHostBroadcast Cert.LibGcnBatchNorm

variable (m : (ℓ : Loc nD τ sig) → Buf (Elt Ideal) ℓ) (ρ : Dev nD → PrngReg) (c : Dev nD)

/-- The kernel program's network: the graph from its own prologue values, the parameters from its arguments. -/
def netK : Net 100000 700000 where
  into := fun p => edgesInto (colWords bcast_S700000_S700000x1_0 (W5 m ρ c (Proc.devRef .tc main_v6))) p
  src := srcOf (by omega) (rowWords bcast_S_S700000 bcast_S700000_S700000x1_0 100000#32 (W5 m ρ c (Proc.devRef .tc main_v3)))
  ws := fun e => asF S700000 (W5 m ρ c (Proc.devRef .tc main_v30)) (ix1 e)
  wh := fun e => asF S700000 (W5 m ρ c (Proc.devRef .tc main_v64)) (ix1 e)
  X := fun n k => asF S100000x128 (m ((c : Thread nD τ).loc main_arg0)) (ix2 n k)
  W1 := fun k j => asF S128x64 (m ((c : Thread nD τ).loc main_arg2)) (ix2 k j)
  b1 := fun j => asF S64 (m ((c : Thread nD τ).loc main_arg3)) (ix1 j)
  W2 := fun k j => asF S64x32 (m ((c : Thread nD τ).loc main_arg4)) (ix2 k j)
  b2 := fun j => asF S32 (m ((c : Thread nD τ).loc main_arg5)) (ix1 j)
  W3 := fun k j => asF S32x16 (m ((c : Thread nD τ).loc main_arg6)) (ix2 k j)
  b3 := fun j => asF S16 (m ((c : Thread nD τ).loc main_arg7)) (ix1 j)
  U1 := fun k j => asF S16x32 (m ((c : Thread nD τ).loc main_arg8)) (ix2 k j)
  c1 := fun j => asF S32 (m ((c : Thread nD τ).loc main_arg9)) (ix1 j)
  U2 := fun k j => asF S32x64 (m ((c : Thread nD τ).loc main_arg10)) (ix2 k j)
  c2 := fun j => asF S64 (m ((c : Thread nD τ).loc main_arg11)) (ix1 j)
  U3 := fun k j => asF S64x128 (m ((c : Thread nD τ).loc main_arg12)) (ix2 k j)
  c3 := fun j => asF S128 (m ((c : Thread nD τ).loc main_arg13)) (ix1 j)

/-- Encoder layer 1: the buffer after its rectifier is the network's activation `a1`. -/
theorem a1_eq (p : Fin 100000) (q : Fin 64) :
    asF S100000x64 (W8 m ρ c (Proc.devRef .tc main_v82)) (ix2 p q) = (netK m ρ c).a1 p q := by
  have hfeat : asF S100000x64 (W6 m ρ c (Proc.devRef .tc main_v65))
      = matArr (m ((c : Thread nD τ).loc main_arg0)) (m ((c : Thread nD τ).loc main_arg2)) := by
    refine ((W6_arr m ρ c 2).trans (Region0.final (V5 m ρ) c)).trans ?_
    rw [show V5 m ρ c main_arg0 = m ((c : Thread nD τ).loc main_arg0) from KKept.arg0_at5 m ρ c,
      show V5 m ρ c main_arg2 = m ((c : Thread nD τ).loc main_arg2) from KKept.arg2_at5 m ρ c]
  refine (KStretch.relu1 (W7 m ρ c) (ix2 p q)).trans (congrArg (max · 0) ?_)
  refine (KStretch.enc1 (W6 m ρ c) p q).trans ?_
  rw [KKept.v3_at6 m ρ c, KKept.v6_at6 m ρ c, KKept.v30_at6 m ρ c, KKept.arg3_at6 m ρ c, hfeat]
  exact conv_weight_right ((netK m ρ c).into p) (netK m ρ c).src (netK m ρ c).ws (netK m ρ c).X
    (fun k => (netK m ρ c).W1 k q) ((netK m ρ c).b1 q)

/-- Encoder layer 2: the buffer after its rectifier is the network's activation `a2`. -/
theorem a2_eq (p : Fin 100000) (q : Fin 32) :
    asF S100000x32 (W11 m ρ c (Proc.devRef .tc main_v100)) (ix2 p q) = (netK m ρ c).a2 p q := by
  have hfeat : asF S100000x32 (W9 m ρ c (Proc.devRef .tc main_v83))
      = matArr (asF S100000x64 (W8 m ρ c (Proc.devRef .tc main_v82))) (m ((c : Thread nD τ).loc main_arg4)) := by
    refine ((W9_arr m ρ c 2).trans (Region1.final (V8 m ρ) c)).trans ?_
    rw [show V8 m ρ c main_arg4 = m ((c : Thread nD τ).loc main_arg4) from KKept.arg4_at8 m ρ c]
  refine (KStretch.relu2 (W10 m ρ c) (ix2 p q)).trans (congrArg (max · 0) ?_)
  refine (KStretch.enc2 (W9 m ρ c) p q).trans ?_
  rw [KKept.v3_at9 m ρ c, KKept.v6_at9 m ρ c, KKept.v30_at9 m ρ c, KKept.arg5_at9 m ρ c, hfeat]
  simp only [matArr_apply, a1_eq m ρ c]
  exact conv_weight_right ((netK m ρ c).into p) (netK m ρ c).src (netK m ρ c).ws (netK m ρ c).a1
    (fun k => (netK m ρ c).W2 k q) ((netK m ρ c).b2 q)

/-- Encoder layer 3: the buffer after its rectifier is the network's activation `a3`. -/
theorem a3_eq (p : Fin 100000) (q : Fin 16) :
    asF S100000x16 (W14 m ρ c (Proc.devRef .tc main_v118)) (ix2 p q) = (netK m ρ c).a3 p q := by
  have hfeat : asF S100000x16 (W12 m ρ c (Proc.devRef .tc main_v101))
      = matArr (asF S100000x32 (W11 m ρ c (Proc.devRef .tc main_v100))) (m ((c : Thread nD τ).loc main_arg6)) := by
    refine ((W12_arr m ρ c 2).trans (Region2.final (V11 m ρ) c)).trans ?_
    rw [show V11 m ρ c main_arg6 = m ((c : Thread nD τ).loc main_arg6) from KKept.arg6_at11 m ρ c]
  refine (KStretch.relu3 (W13 m ρ c) (ix2 p q)).trans (congrArg (max · 0) ?_)
  refine (KStretch.enc3 (W12 m ρ c) p q).trans ?_
  rw [KKept.v3_at12 m ρ c, KKept.v6_at12 m ρ c, KKept.v30_at12 m ρ c, KKept.arg7_at12 m ρ c, hfeat]
  simp only [matArr_apply, a2_eq m ρ c]
  exact conv_weight_right ((netK m ρ c).into p) (netK m ρ c).src (netK m ρ c).ws (netK m ρ c).a2
    (fun k => (netK m ρ c).W3 k q) ((netK m ρ c).b3 q)

/-- Decoder layer 1: the dense call's result is the network's `d1` — aggregate first, then project, which is
    the layer's entry because every factor is real. -/
theorem d1_eq (hR : (netK m ρ c).Real) (p : Fin 100000) (q : Fin 32) :
    asF S100000x32 (W16 m ρ c (Proc.devRef .tc main_v133)) (ix2 p q) = (netK m ρ c).d1 p q := by
  have hres : asF S100000x32 (W16 m ρ c (Proc.devRef .tc main_v133))
      = denseReluArr (asF S100000x16 (W15 m ρ c (Proc.devRef .tc main_v131))) (m ((c : Thread nD τ).loc main_arg8)) (asF S1x32 (W15 m ρ c (Proc.devRef .tc main_v132))) := by
    refine ((W16_arr m ρ c 3).trans (Region3.final (V15 m ρ) c)).trans ?_
    rw [show V15 m ρ c main_arg8 = m ((c : Thread nD τ).loc main_arg8) from KKept.arg8_at15 m ρ c]
  have hagg : ∀ k, asF S100000x16 (W15 m ρ c (Proc.devRef .tc main_v131)) (ix2 p k)
      = 0 + ∑ e ∈ (netK m ρ c).into p, (netK m ρ c).a3 ((netK m ρ c).src e) k * (netK m ρ c).wh e := fun k => by
    refine (KStretch.dec1 (W14 m ρ c) p k).trans ?_
    rw [KKept.v3_at14 m ρ c, KKept.v6_at14 m ρ c, KKept.v64_at14 m ρ c]
    simp only [a3_eq m ρ c]
    rfl
  have hbias : asF S1x32 (W15 m ρ c (Proc.devRef .tc main_v132)) (ix2 (0 : Fin 1) q) = (netK m ρ c).c1 q :=
    (KStretch.dec1_bias (W14 m ρ c) q).trans (congrFun (KKept.arg9_at14 m ρ c) (ix1 q))
  rw [hres, denseReluArr_apply, hbias]
  simp only [hagg]
  refine congrArg (max · 0) ?_
  exact conv_aggregate_first ((netK m ρ c).into p) (netK m ρ c).src (netK m ρ c).wh (netK m ρ c).a3
    (fun k => (netK m ρ c).U1 k q) ((netK m ρ c).c1 q) (Net.a3_real hR) hR.wh (fun k => hR.U1 k q)

/-- Decoder layer 2: the dense call's result is the network's `d2` — aggregate first, then project, which is
    the layer's entry because every factor is real. -/
theorem d2_eq (hR : (netK m ρ c).Real) (p : Fin 100000) (q : Fin 64) :
    asF S100000x64 (W18 m ρ c (Proc.devRef .tc main_v148)) (ix2 p q) = (netK m ρ c).d2 p q := by
  have hres : asF S100000x64 (W18 m ρ c (Proc.devRef .tc main_v148))
      = denseReluArr (asF S100000x32 (W17 m ρ c (Proc.devRef .tc main_v146))) (m ((c : Thread nD τ).loc main_arg10)) (asF S1x64 (W17 m ρ c (Proc.devRef .tc main_v147))) := by
    refine ((W18_arr m ρ c 3).trans (Region4.final (V17 m ρ) c)).trans ?_
    rw [show V17 m ρ c main_arg10 = m ((c : Thread nD τ).loc main_arg10) from KKept.arg10_at17 m ρ c]
  have hagg : ∀ k, asF S100000x32 (W17 m ρ c (Proc.devRef .tc main_v146)) (ix2 p k)
      = 0 + ∑ e ∈ (netK m ρ c).into p, (netK m ρ c).d1 ((netK m ρ c).src e) k * (netK m ρ c).wh e := fun k => by
    refine (KStretch.dec2 (W16 m ρ c) p k).trans ?_
    rw [KKept.v3_at16 m ρ c, KKept.v6_at16 m ρ c, KKept.v64_at16 m ρ c]
    simp only [d1_eq m ρ c hR]
    rfl
  have hbias : asF S1x64 (W17 m ρ c (Proc.devRef .tc main_v147)) (ix2 (0 : Fin 1) q) = (netK m ρ c).c2 q :=
    (KStretch.dec2_bias (W16 m ρ c) q).trans (congrFun (KKept.arg11_at16 m ρ c) (ix1 q))
  rw [hres, denseReluArr_apply, hbias]
  simp only [hagg]
  refine congrArg (max · 0) ?_
  exact conv_aggregate_first ((netK m ρ c).into p) (netK m ρ c).src (netK m ρ c).wh (netK m ρ c).d1
    (fun k => (netK m ρ c).U2 k q) ((netK m ρ c).c2 q) (Net.d1_real hR) hR.wh (fun k => hR.U2 k q)

/-- Decoder layer 3: the dense call's result is the network's `out` — aggregate first, then project, which is
    the layer's entry because every factor is real. -/
theorem out_eq (hR : (netK m ρ c).Real) (p : Fin 100000) (q : Fin 128) :
    asF S100000x128 (W20 m ρ c (Proc.devRef .tc main_v163)) (ix2 p q) = (netK m ρ c).out p q := by
  have hres : asF S100000x128 (W20 m ρ c (Proc.devRef .tc main_v163))
      = denseArr (asF S100000x64 (W19 m ρ c (Proc.devRef .tc main_v161))) (m ((c : Thread nD τ).loc main_arg12)) (asF S1x128 (W19 m ρ c (Proc.devRef .tc main_v162))) := by
    refine ((W20_arr m ρ c 3).trans (Region5.final (V19 m ρ) c)).trans ?_
    rw [show V19 m ρ c main_arg12 = m ((c : Thread nD τ).loc main_arg12) from KKept.arg12_at19 m ρ c]
  have hagg : ∀ k, asF S100000x64 (W19 m ρ c (Proc.devRef .tc main_v161)) (ix2 p k)
      = 0 + ∑ e ∈ (netK m ρ c).into p, (netK m ρ c).d2 ((netK m ρ c).src e) k * (netK m ρ c).wh e := fun k => by
    refine (KStretch.dec3 (W18 m ρ c) p k).trans ?_
    rw [KKept.v3_at18 m ρ c, KKept.v6_at18 m ρ c, KKept.v64_at18 m ρ c]
    simp only [d2_eq m ρ c hR]
    rfl
  have hbias : asF S1x128 (W19 m ρ c (Proc.devRef .tc main_v162)) (ix2 (0 : Fin 1) q) = (netK m ρ c).c3 q :=
    (KStretch.dec3_bias (W18 m ρ c) q).trans (congrFun (KKept.arg13_at18 m ρ c) (ix1 q))
  rw [hres, denseArr_apply, hbias]
  simp only [hagg]
  exact conv_aggregate_first ((netK m ρ c).into p) (netK m ρ c).src (netK m ρ c).wh (netK m ρ c).d2
    (fun k => (netK m ρ c).U3 k q) ((netK m ρ c).c3 q) (Net.d2_real hR) hR.wh (fun k => hR.U3 k q)
end Cert.Gala.KChain

end
-- ==== Proof.LibStretch.lean ====
/-
  Three small tools for reading what a line of array operations leaves in a buffer (`StableHlo.after ops V b`), general in
  the program's signature and in the float values.

  * `after_append`: what two lists of operations run one after the other leave is what the second leaves of what the first
    left. It lets a long line be read in consecutive parts, each over an ARBITRARY valuation `V` — which matters: a part's
    lemma stated over a valuation that is itself an earlier fold lets a definitional check open that fold and evaluate it.
  * `ofBuf_toBuf`: contents carried to a typed reference's own buffer type and back are the contents (the transport is
    along an equation of buffer types; substitute it). Functions jax outlined are printed over typed references, so their
    operations' results come wrapped in such pairs.
  * `results_inside`: a reading of the whole line in one simplification pass cannot rewrite under the dependent pairs
    ⟨shape, contents⟩ of a concatenation's operand list; this tactic finishes those positions by rewriting with the
    operations' result lemmas.
-/
import Idealize.ShloMosaic.Lib.StableHlo.Run

noncomputable section

namespace Cert.LibStretch

open Idealize.ShloMosaic Idealize.ShloMosaic.StableHlo

variable {τ : Topo} {sig : RefSig} {Val : EltTy → Type}

/-- What two lists of operations run one after the other leave is what the second leaves of what the first left. -/
theorem after_append : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-- Contents carried to a typed reference's own buffer type and back are the contents. -/
theorem ofBuf_toBuf {T : BufTy} (x : TRef sig T) (v : T.Contents Val) : x.ofBuf (Val := Val) (x.toBuf v) = v := by
  obtain ⟨r, h, h2, h3⟩ := x
  subst h
  rfl

/-- The remnants of a one-pass reading: contents read inside the operand list of a concatenation. -/
macro "results_inside" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.LibStretch

end
-- ==== Proof.RefLayers.lean ====
/-
  The reference program, layer by layer, is the six-layer network.

  `netR` is the network whose graph data are the reference's own row and column words and its smooth and sharp weight
  vectors (as functions of the edge list argument) and whose parameters are the arguments. Each layer of the reference is
  the same eighteen operations — project, wrap and gather the source rows, scale by the edge weight, scatter-add into
  zeros at the column words, add the bias, rectify — read at an entry by the generic layer lemma. The reference builds its
  row and column words twice (once per normalisation); the two builds are the same operations of the same argument.
-/
import proofs.«118487_j45509473469002_2_alg».proof.Proof.RefReadP
import proofs.«118487_j45509473469002_2_alg».proof.Proof.ConvOps

set_option maxRecDepth 16384

noncomputable section

open scoped BigOperators

namespace Cert.Gala.RefLayers

open Idealize.ShloMosaic Idealize.ShloMosaic.ValueIdx Idealize.ShloMosaic.TcCoe Idealize.SL.Sem
open Cert.ReferenceIdeal Cert.ReferenceIdeal.Gen Cert.ReferenceIdeal.Read Cert.Gala Cert.LibMatRows

variable (x0 : (⟨S100000x128, .f32⟩ : BufTy).Contents (Elt Ideal)) (x1 : (⟨S2x600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x32, .f32⟩ : BufTy).Contents (Elt Ideal)) (x9 : (⟨S32, .f32⟩ : BufTy).Contents (Elt Ideal)) (x10 : (⟨S32x64, .f32⟩ : BufTy).Contents (Elt Ideal)) (x11 : (⟨S64, .f32⟩ : BufTy).Contents (Elt Ideal)) (x12 : (⟨S64x128, .f32⟩ : BufTy).Contents (Elt Ideal)) (x13 : (⟨S128, .f32⟩ : BufTy).Contents (Elt Ideal))

/-- The second build of the column words is the first. -/
theorem v37_eq (x1 : (⟨S2x600000, .i32⟩ : BufTy).Contents (Elt Ideal)) : val_main_v37 (F := Ideal) x1 = val_main_v6 (F := Ideal) x1 := by
  unfold val_main_v37 val_main_v36 val_main_v35 val_main_v31 val_main_v6 val_main_v5 val_main_v4 val_main_v0
  rfl

/-- The second build of the row words is the first. -/
theorem v34_eq (x1 : (⟨S2x600000, .i32⟩ : BufTy).Contents (Elt Ideal)) : val_main_v34 (F := Ideal) x1 = val_main_v3 (F := Ideal) x1 := by
  unfold val_main_v34 val_main_v33 val_main_v32 val_main_v31 val_main_v3 val_main_v2 val_main_v1 val_main_v0
  rfl

/-- The reference's network: the graph from its own index words and weights, the parameters from its arguments. -/
def netR : Net 100000 700000 where
  into := fun p => edgesInto (colWords bcast_S700000_S700000x1_0 (val_main_v6 (F := Ideal) x1)) p
  src := srcOf (by omega) (rowWords bcast_S_S700000 bcast_S700000_S700000x1_0 100000#32 (val_main_v3 (F := Ideal) x1))
  ws := fun e => val_main_v30 (F := Ideal) x1 (ix1 e)
  wh := fun e => val_main_v71 (F := Ideal) x1 (ix1 e)
  X := fun n k => x0 (ix2 n k)
  W1 := fun k j => x2 (ix2 k j)
  b1 := fun j => x3 (ix1 j)
  W2 := fun k j => x4 (ix2 k j)
  b2 := fun j => x5 (ix1 j)
  W3 := fun k j => x6 (ix2 k j)
  b3 := fun j => x7 (ix1 j)
  U1 := fun k j => x8 (ix2 k j)
  c1 := fun j => x9 (ix1 j)
  U2 := fun k j => x10 (ix2 k j)
  c2 := fun j => x11 (ix1 j)
  U3 := fun k j => x12 (ix2 k j)
  c3 := fun j => x13 (ix1 j)

/-- Layer 1 of the reference: `main_v89` is the network's `a1`. -/
theorem a1_eq (p : Fin 100000) (q : Fin 64) :
    val_main_v89 (F := Ideal) x0 x1 x2 x3 (ix2 p q) = (netR x0 x1 x2 x3 x4 x5 x6 x7 x8 x9 x10 x11 x12 x13).a1 p q := by
  unfold val_main_v89 val_main_call2_v0 val_main_call2_cst val_main_v88 val_main_v87 val_main_v86 val_main_v85 val_main_v84 val_main_v83 val_main_cst_21 val_main_v82 val_main_v81 val_main_v80 val_main_v79 val_main_v78 val_main_v77 val_main_v76 val_main_c_20 val_main_v75 val_main_v74 val_main_c_19 val_main_v73 val_main_v72
  refine (maximumf_apply _ _ _).trans (congrArg₂ max ?_ (zeros_apply _ _))
  refine (reference_layer_apply (by omega) _ ⟨rfl, rfl, lhs_main_v72_0, lhs_main_v72_1, rhs_main_v72_0, rhs_main_v72_1⟩ _ rfl rfl rfl rfl rfl rfl rfl _ rfl rfl rfl rfl _ _ _ _ _
    x0 x2 x3 (val_main_v30 (F := Ideal) x1) _ _ p q).trans ?_
  rfl

/-- Layer 2 of the reference: `main_v107` is the network's `a2`. -/
theorem a2_eq (p : Fin 100000) (q : Fin 32) :
    val_main_v107 (F := Ideal) x0 x1 x2 x3 x4 x5 (ix2 p q) = (netR x0 x1 x2 x3 x4 x5 x6 x7 x8 x9 x10 x11 x12 x13).a2 p q := by
  have hprev : (fun n k => val_main_v89 (F := Ideal) x0 x1 x2 x3 (ix2 n k)) = (netR x0 x1 x2 x3 x4 x5 x6 x7 x8 x9 x10 x11 x12 x13).a1 :=
    funext fun n => funext fun k => a1_eq x0 x1 x2 x3 x4 x5 x6 x7 x8 x9 x10 x11 x12 x13 n k
  unfold val_main_v107 val_main_call3_v0 val_main_call3_cst val_main_v106 val_main_v105 val_main_v104 val_main_v103 val_main_v102 val_main_v101 val_main_cst_24 val_main_v100 val_main_v99 val_main_v98 val_main_v97 val_main_v96 val_main_v95 val_main_v94 val_main_c_23 val_main_v93 val_main_v92 val_main_c_22 val_main_v91 val_main_v90
  refine (maximumf_apply _ _ _).trans (congrArg₂ max ?_ (zeros_apply _ _))
  refine (reference_layer_apply (by omega) _ ⟨rfl, rfl, lhs_main_v90_0, lhs_main_v90_1, rhs_main_v90_0, rhs_main_v90_1⟩ _ rfl rfl rfl rfl rfl rfl rfl _ rfl rfl rfl rfl _ _ _ _ _
    (val_main_v89 (F := Ideal) x0 x1 x2 x3) x4 x5 (val_main_v30 (F := Ideal) x1) _ _ p q).trans ?_
  rw [hprev]
  rfl

/-- Layer 3 of the reference: `main_v125` is the network's `a3`. -/
theorem a3_eq (p : Fin 100000) (q : Fin 16) :
    val_main_v125 (F := Ideal) x0 x1 x2 x3 x4 x5 x6 x7 (ix2 p q) = (netR x0 x1 x2 x3 x4 x5 x6 x7 x8 x9 x10 x11 x12 x13).a3 p q := by
  have hprev : (fun n k => val_main_v107 (F := Ideal) x0 x1 x2 x3 x4 x5 (ix2 n k)) = (netR x0 x1 x2 x3 x4 x5 x6 x7 x8 x9 x10 x11 x12 x13).a2 :=
    funext fun n => funext fun k => a2_eq x0 x1 x2 x3 x4 x5 x6 x7 x8 x9 x10 x11 x12 x13 n k
  unfold val_main_v125 val_main_call4_v0 val_main_call4_cst val_main_v124 val_main_v123 val_main_v122 val_main_v121 val_main_v120 val_main_v119 val_main_cst_27 val_main_v118 val_main_v117 val_main_v116 val_main_v115 val_main_v114 val_main_v113 val_main_v112 val_main_c_26 val_main_v111 val_main_v110 val_main_c_25 val_main_v109 val_main_v108
  refine (maximumf_apply _ _ _).trans (congrArg₂ max ?_ (zeros_apply _ _))
  refine (reference_layer_apply (by omega) _ ⟨rfl, rfl, lhs_main_v108_0, lhs_main_v108_1, rhs_main_v108_0, rhs_main_v108_1⟩ _ rfl rfl rfl rfl rfl rfl rfl _ rfl rfl rfl rfl _ _ _ _ _
    (val_main_v107 (F := Ideal) x0 x1 x2 x3 x4 x5) x6 x7 (val_main_v30 (F := Ideal) x1) _ _ p q).trans ?_
  rw [hprev]
  rfl

/-- Layer 4 of the reference: `main_v143` is the network's `d1`. -/
theorem d1_eq (p : Fin 100000) (q : Fin 32) :
    val_main_v143 (F := Ideal) x0 x1 x2 x3 x4 x5 x6 x7 x8 x9 (ix2 p q) = (netR x0 x1 x2 x3 x4 x5 x6 x7 x8 x9 x10 x11 x12 x13).d1 p q := by
  have hprev : (fun n k => val_main_v125 (F := Ideal) x0 x1 x2 x3 x4 x5 x6 x7 (ix2 n k)) = (netR x0 x1 x2 x3 x4 x5 x6 x7 x8 x9 x10 x11 x12 x13).a3 :=
    funext fun n => funext fun k => a3_eq x0 x1 x2 x3 x4 x5 x6 x7 x8 x9 x10 x11 x12 x13 n k
  unfold val_main_v143 val_main_call5_v0 val_main_call5_cst val_main_v142 val_main_v141 val_main_v140 val_main_v139 val_main_v138 val_main_v137 val_main_cst_30 val_main_v136 val_main_v135 val_main_v134 val_main_v133 val_main_v132 val_main_v131 val_main_v130 val_main_c_29 val_main_v129 val_main_v128 val_main_c_28 val_main_v127 val_main_v126
  refine (maximumf_apply _ _ _).trans (congrArg₂ max ?_ (zeros_apply _ _))
  refine (reference_layer_apply (by omega) _ ⟨rfl, rfl, lhs_main_v126_0, lhs_main_v126_1, rhs_main_v126_0, rhs_main_v126_1⟩ _ rfl rfl rfl rfl rfl rfl rfl _ rfl rfl rfl rfl _ _ _ _ _
    (val_main_v125 (F := Ideal) x0 x1 x2 x3 x4 x5 x6 x7) x8 x9 (val_main_v71 (F := Ideal) x1) _ _ p q).trans ?_
  rw [hprev]
  simp only [v37_eq x1, v34_eq x1]
  rfl

/-- Layer 5 of the reference: `main_v161` is the network's `d2`. -/
theorem d2_eq (p : Fin 100000) (q : Fin 64) :
    val_main_v161 (F := Ideal) x0 x1 x2 x3 x4 x5 x6 x7 x8 x9 x10 x11 (ix2 p q) = (netR x0 x1 x2 x3 x4 x5 x6 x7 x8 x9 x10 x11 x12 x13).d2 p q := by
  have hprev : (fun n k => val_main_v143 (F := Ideal) x0 x1 x2 x3 x4 x5 x6 x7 x8 x9 (ix2 n k)) = (netR x0 x1 x2 x3 x4 x5 x6 x7 x8 x9 x10 x11 x12 x13).d1 :=
    funext fun n => funext fun k => d1_eq x0 x1 x2 x3 x4 x5 x6 x7 x8 x9 x10 x11 x12 x13 n k
  unfold val_main_v161 val_main_call6_v0 val_main_call6_cst val_main_v160 val_main_v159 val_main_v158 val_main_v157 val_main_v156 val_main_v155 val_main_cst_33 val_main_v154 val_main_v153 val_main_v152 val_main_v151 val_main_v150 val_main_v149 val_main_v148 val_main_c_32 val_main_v147 val_main_v146 val_main_c_31 val_main_v145 val_main_v144
  refine (maximumf_apply _ _ _).trans (congrArg₂ max ?_ (zeros_apply _ _))
  refine (reference_layer_apply (by omega) _ ⟨rfl, rfl, lhs_main_v144_0, lhs_main_v144_1, rhs_main_v144_0, rhs_main_v144_1⟩ _ rfl rfl rfl rfl rfl rfl rfl _ rfl rfl rfl rfl _ _ _ _ _
    (val_main_v143 (F := Ideal) x0 x1 x2 x3 x4 x5 x6 x7 x8 x9) x10 x11 (val_main_v71 (F := Ideal) x1) _ _ p q).trans ?_
  rw [hprev]
  simp only [v37_eq x1, v34_eq x1]
  rfl

/-- Layer 6 of the reference: `main_v178` is the network's `out`. -/
theorem out_eq (p : Fin 100000) (q : Fin 128) :
    val_main_v178 (F := Ideal) x0 x1 x2 x3 x4 x5 x6 x7 x8 x9 x10 x11 x12 x13 (ix2 p q) = (netR x0 x1 x2 x3 x4 x5 x6 x7 x8 x9 x10 x11 x12 x13).out p q := by
  have hprev : (fun n k => val_main_v161 (F := Ideal) x0 x1 x2 x3 x4 x5 x6 x7 x8 x9 x10 x11 (ix2 n k)) = (netR x0 x1 x2 x3 x4 x5 x6 x7 x8 x9 x10 x11 x12 x13).d2 :=
    funext fun n => funext fun k => d2_eq x0 x1 x2 x3 x4 x5 x6 x7 x8 x9 x10 x11 x12 x13 n k
  unfold val_main_v178 val_main_v177 val_main_v176 val_main_v175 val_main_v174 val_main_v173 val_main_cst_36 val_main_v172 val_main_v171 val_main_v170 val_main_v169 val_main_v168 val_main_v167 val_main_v166 val_main_c_35 val_main_v165 val_main_v164 val_main_c_34 val_main_v163 val_main_v162
  refine (reference_layer_apply (by omega) _ ⟨rfl, rfl, lhs_main_v162_0, lhs_main_v162_1, rhs_main_v162_0, rhs_main_v162_1⟩ _ rfl rfl rfl rfl rfl rfl rfl _ rfl rfl rfl rfl _ _ _ _ _
    (val_main_v161 (F := Ideal) x0 x1 x2 x3 x4 x5 x6 x7 x8 x9 x10 x11) x12 x13 (val_main_v71 (F := Ideal) x1) _ _ p q).trans ?_
  rw [hprev]
  simp only [v37_eq x1, v34_eq x1]
  rfl

end Cert.Gala.RefLayers

end
-- ==== Proof.Prologue.lean ====
/-
  The kernel program's prologue and the reference's are the same operations of the edge list.

  Before its first dense call the kernel program computes, once, the row and column words (the edge list's two rows, each
  followed by the self loops 0 … N-1), the smooth weights (the inverse square roots of the in-degrees counted with the
  self loops, at both ends of each edge) and the sharp weights (the same with a doubled self loop in the degree and the
  sign pattern -1 on the edges, 2 on the self loops). The reference computes the same four vectors, operation for
  operation; so what the kernel program's buffers hold after its prologue are the reference's stages of the edge list.
-/
import proofs.«118487_j45509473469002_2_alg».proof.Proof.Gen.KernelIdeal.Launch
import proofs.«118487_j45509473469002_2_alg».proof.Proof.RefReadP
import proofs.«118487_j45509473469002_2_alg».proof.Proof.LibStretch
import Idealize.ShloMosaic.Lib.StableHlo.Run

set_option maxRecDepth 16384

noncomputable section

namespace Cert.Gala.Prologue

open Idealize.ShloMosaic Idealize.ShloMosaic.TcCoe Idealize.SL.Sem Idealize.ShloMosaic.StableHlo
open Cert.KernelIdeal Cert.KernelIdeal.Gen Cert.LibStretch

/-- The row words. -/
theorem rows_eq (V : Valuation τ sig (Elt Ideal)) :
    (StableHlo.after hostOps0_4 (StableHlo.after hostOps0_3 (StableHlo.after hostOps0_2 (StableHlo.after hostOps0_1
        (StableHlo.after hostOps0 V)))) (Proc.devRef .tc main_v3) : S700000.Idx → BitVec 32)
      = Cert.ReferenceIdeal.Read.val_main_v3 (F := Ideal) (V (Proc.devRef .tc main_arg1)) := by
  simp only [hostOps0, hostOps0_1, hostOps0_2, hostOps0_3, hostOps0_4]
  after_results_simp
  results_inside
  simp only [cast_eq]
  rfl

/-- The column words. -/
theorem cols_eq (V : Valuation τ sig (Elt Ideal)) :
    (StableHlo.after hostOps0_4 (StableHlo.after hostOps0_3 (StableHlo.after hostOps0_2 (StableHlo.after hostOps0_1
        (StableHlo.after hostOps0 V)))) (Proc.devRef .tc main_v6) : S700000.Idx → BitVec 32)
      = Cert.ReferenceIdeal.Read.val_main_v6 (F := Ideal) (V (Proc.devRef .tc main_arg1)) := by
  simp only [hostOps0, hostOps0_1, hostOps0_2, hostOps0_3, hostOps0_4]
  after_results_simp
  results_inside
  simp only [cast_eq]
  rfl

set_option maxHeartbeats 4000000 in
/-- The smooth weights. -/
theorem smooth_eq (V : Valuation τ sig (Elt Ideal)) :
    (StableHlo.after hostOps0_4 (StableHlo.after hostOps0_3 (StableHlo.after hostOps0_2 (StableHlo.after hostOps0_1
        (StableHlo.after hostOps0 V)))) (Proc.devRef .tc main_v30) : S700000.Idx → EReal)
      = Cert.ReferenceIdeal.Read.val_main_v30 (F := Ideal) (V (Proc.devRef .tc main_arg1)) := by
  simp only [hostOps0, hostOps0_1, hostOps0_2, hostOps0_3, hostOps0_4]
  after_results_simp
  results_inside
  simp only [cast_eq]
  rfl

set_option maxHeartbeats 4000000 in
/-- The sharp weights: the reference builds its index words a second time for them (the same operations of the same argument). -/
theorem sharp_eq (V : Valuation τ sig (Elt Ideal)) :
    (StableHlo.after hostOps0_4 (StableHlo.after hostOps0_3 (StableHlo.after hostOps0_2 (StableHlo.after hostOps0_1
        (StableHlo.after hostOps0 V)))) (Proc.devRef .tc main_v64) : S700000.Idx → EReal)
      = Cert.ReferenceIdeal.Read.val_main_v71 (F := Ideal) (V (Proc.devRef .tc main_arg1)) := by
  simp only [hostOps0, hostOps0_1, hostOps0_2, hostOps0_3, hostOps0_4]
  after_results_simp
  results_inside
  simp only [cast_eq]
  rfl

end Cert.Gala.Prologue

end
-- ==== Proof.LibGcnAlgebra.lean ====
/-
  The extended-real algebra of a degree-normalised graph convolution.

  A degree is a count of edges plus one, hence a real number at least one; its reciprocal square root is
  a positive real; guards against a vanishing degree are inert. Over real-valued features, weights and
  normalisers the aggregation of projected rows equals the projection of aggregated rows: the extended
  reals do not distribute at infinities, so the identity is proved over the reals and carried across
  the coercion.
-/
import Idealize.ShloMosaic.PureOps.Ideal
import Idealize.ShloMosaic.PureOps.Ideal.Laws
import Idealize.ShloMosaic.Lib.ValueIdx

noncomputable section

open scoped BigOperators

namespace Cert.GcnAlgebra

open Idealize.ShloMosaic

/-- The coercion of the reals into the extended reals carries a finite sum to the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A sum of ones over a finite set is the set's cardinality, a real number. -/
theorem count_real {E : Type} (s : Finset E) : (∑ _e ∈ s, (1 : EReal)) = ((s.card : ℝ) : EReal) := by
  rw [← EReal.coe_one, ← coe_sum]
  simp

/-- One plus a count is at least one. -/
theorem one_le_count {E : Type} (s : Finset E) : (1 : EReal) ≤ (0 + (∑ _e ∈ s, (1 : EReal))) + 1 := by
  have hc : (0 : ℝ) ≤ (s.card : ℝ) := Nat.cast_nonneg _
  rw [count_real, zero_add, ← EReal.coe_one, ← EReal.coe_add, EReal.coe_le_coe_iff]
  linarith

/-- One plus a count is at least one, with the sum bracketed the other way. -/
theorem one_le_count' {E : Type} (s : Finset E) : (1 : EReal) ≤ 0 + ((∑ _e ∈ s, (1 : EReal)) + 1) := by
  rw [← add_assoc]
  exact one_le_count s

/-- The reciprocal square root of one plus a count is a positive real number. -/
theorem rsqrt_count {E : Type} (s : Finset E) :
    ∃ a : ℝ, 0 < a ∧ Ideal.rsqrt ((0 + ∑ _e ∈ s, (1 : EReal)) + 1) = (a : EReal) := by
  have hc : (0 : ℝ) ≤ (s.card : ℝ) := Nat.cast_nonneg _
  have hpos : (0 : ℝ) < (s.card : ℝ) + 1 := by linarith
  refine ⟨(Real.sqrt ((s.card : ℝ) + 1))⁻¹, inv_pos.2 (Real.sqrt_pos.2 hpos), ?_⟩
  rw [count_real, zero_add, ← EReal.coe_one, ← EReal.coe_add, Ideal.rsqrt_coe,
    if_neg (not_lt.2 hpos.le), if_neg hpos.ne']

/-- A maximum with something at most one leaves a value at least one unchanged. -/
theorem guard_max (d tiny : EReal) (hd : 1 ≤ d) (ht : tiny ≤ 1) : max d tiny = d :=
  max_eq_left (ht.trans hd)

/-- A value at least one is positive. -/
theorem guard_pos (d : EReal) (hd : 1 ≤ d) : (0 : EReal) < d :=
  lt_of_lt_of_le zero_lt_one hd

/-- Both guards of a reciprocal square root of a degree at least one are inert: the maximum with a tiny
    constant is the degree itself, and the degree is positive. -/
theorem guard_rsqrt (d tiny : EReal) (hd : 1 ≤ d) (ht : tiny ≤ 1) : max d tiny = d ∧ (0 : EReal) < d :=
  ⟨guard_max d tiny hd ht, guard_pos d hd⟩

/-- PROJECTION AND AGGREGATION COMMUTE. For real features `x`, weights `W` and normalisers `dis`, and a set `s`
    of edges all of whose targets `cg e` are the node `c`: normalising the aggregated row of `c` (the sum over
    the edges of the source rows scaled by the source's normaliser, plus the node's own scaled row), then
    projecting by `W`, equals aggregating the projected rows, each scaled by the product of the two endpoint
    normalisers, plus the node's own projected row scaled by its normaliser squared. A bias `b j`, an arbitrary
    extended real, is added on both sides. -/
theorem project_aggregate {E N K J : Type} [Fintype K]
    (x : N → K → ℝ) (W : K → J → ℝ) (dis : N → ℝ) (b : J → EReal) (r cg : E → N) (s : Finset E) (c : N)
    (h : ∀ e ∈ s, cg e = c) (j : J) :
    (∑ k, ((dis c : EReal) * ((∑ e ∈ s, (x (r e) k : EReal) * (dis (r e) : EReal))
        + (x c k : EReal) * (dis c : EReal))) * (W k j : EReal)) + b j
      = ((∑ e ∈ s, (∑ k, (x (r e) k : EReal) * (W k j : EReal)) * ((dis (r e) : EReal) * (dis (cg e) : EReal)))
        + (∑ k, (x c k : EReal) * (W k j : EReal)) * ((dis c : EReal) * (dis c : EReal))) + b j := by
  have hreal : (∑ k, (dis c * ((∑ e ∈ s, x (r e) k * dis (r e)) + x c k * dis c)) * W k j)
      = (∑ e ∈ s, (∑ k, x (r e) k * W k j) * (dis (r e) * dis (cg e)))
        + (∑ k, x c k * W k j) * (dis c * dis c) := by
    have h1 : (∑ e ∈ s, (∑ k, x (r e) k * W k j) * (dis (r e) * dis (cg e)))
        = ∑ e ∈ s, (∑ k, x (r e) k * W k j) * (dis (r e) * dis c) :=
      Finset.sum_congr rfl fun e he => by rw [h e he]
    have hk : ∀ k, (dis c * ((∑ e ∈ s, x (r e) k * dis (r e)) + x c k * dis c)) * W k j
        = (∑ e ∈ s, x (r e) k * W k j * (dis (r e) * dis c)) + x c k * W k j * (dis c * dis c) := by
      intro k
      rw [mul_add, add_mul, Finset.mul_sum, Finset.sum_mul]
      congr 1
      · exact Finset.sum_congr rfl fun e _ => by ring
      · ring
    rw [h1, Finset.sum_congr rfl (fun k _ => hk k), Finset.sum_add_distrib, Finset.sum_comm]
    simp only [Finset.sum_mul]
  simp only [← EReal.coe_mul, ← EReal.coe_add, ← coe_sum]
  rw [hreal]

end Cert.GcnAlgebra

end
-- ==== Proof.EdgeWeightsReal.lean ====
/-
  The edge weights of the two normalised adjacency operators are real numbers.

  Both operators weight an edge by the product of a normaliser at each endpoint and a fixed
  coefficient. A node's degree is a sum, over the edges that point at it, of coefficients that are each
  1 or 2: a finite sum of reals, hence a real. Its normaliser is the reciprocal square root of the
  degree where the degree is positive and 0 elsewhere: for a positive real the reciprocal square root
  is a real, and everywhere else the guard takes the branch 0, so the normaliser is a real at every
  node whatever the sign of the degree. An edge reads the normaliser at some node (a gather), so what
  it reads is a real; the coefficient is 1, -1 or 2; and a product of reals is a real.

  * scatterAdd_real: a scatter-add of real updates into a real operand is real at every index.
  * gather_real: a gather from an everywhere-real array is real at every index.
  * where_rsqrt_real: where(d > 0, rsqrt d, e) is real when d and e are.
  * concatenate_forall, concatenate_pair_real: every entry of a concatenation is an entry of a piece.
  * smooth_real, sharp_real: the two operators' edge weights are real at every edge.
-/
import proofs.«118487_j45509473469002_2_alg».proof.Proof.RefReadP
import proofs.«118487_j45509473469002_2_alg».proof.Proof.LibScatterGather
import proofs.«118487_j45509473469002_2_alg».proof.Proof.LibGcnBatchNorm
import proofs.«118487_j45509473469002_2_alg».proof.Proof.LibGcnAlgebra

noncomputable section

namespace Cert.Gala.EdgeWeights

open Cert.ReferenceIdeal Cert.ReferenceIdeal.Gen Cert.ReferenceIdeal.Read Idealize.ShloMosaic Idealize.ShloMosaic.TcCoe
  Idealize.SL.Sem Idealize.ShloMosaic.StableHlo
open Cert.LibGcnBatchNorm
open scoped BigOperators

/-! ### Generic facts: which operations keep every entry real -/

/-- A scatter-add of real updates into a real operand is real at every index: the entry is the operand's entry
    plus a finite sum of updates. -/
theorem scatterAdd_real {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A gather from an everywhere-real array is real at every index: each result entry is some operand entry. -/
theorem gather_real {s si t : Shape} {w : Nat} (d : GatherDims s si t) (x : s.Idx → EReal) (idx : IVec si w)
    (hx : ∀ i, IsReal (x i)) (j : t.Idx) : IsReal (Host.gather d x idx j) := by
  unfold Host.gather
  exact hx _

/-- The reciprocal square root of a real d guarded by d > 0, with a real e elsewhere, is real: a positive real has
    a real reciprocal square root, and when d is not positive the guard takes e. -/
theorem where_rsqrt_real {φ : FTy} (d z e : Ideal φ) (hd : IsReal d) (hz : z = 0) (he : IsReal e) :
    IsReal (Scalar.select (FloatOps.cmpf .ogt d z) (FloatOps.hostUnary .rsqrt d) e) := by
  obtain ⟨r, rfl⟩ := hd
  subst hz
  rw [Ideal.cmpf_def, Ideal.hostUnary_rsqrt_def]
  unfold Scalar.select Ideal.cmp
  by_cases h : (0 : ℝ) < r
  · have h' : (0 : EReal) < (r : EReal) := EReal.coe_pos.mpr h
    simp only [h', decide_true, BitVec.ofBool_true, if_true]
    rw [Ideal.rsqrt_coe, if_neg (not_lt.2 h.le), if_neg h.ne']
    exact isReal_coe _
  · have h' : ¬ (0 : EReal) < (r : EReal) := fun hh => h (EReal.coe_pos.mp hh)
    simp only [h', decide_false, BitVec.ofBool_false]
    rw [if_neg (by decide)]
    exact he

/-- Every entry of a concatenation has a property that every entry of every piece has: the entry is an entry of
    the piece its coordinate on the joined axis falls in. -/
theorem concatenate_forall {α : Type} (P : α → Prop) (t : Shape) (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- A concatenation of two everywhere-real arrays is everywhere real. -/
theorem concatenate_pair_real {t s₁ s₂ : Shape} (a : Fin t.rank) (x₁ : s₁.Idx → EReal) (x₂ : s₂.Idx → EReal)
    (h : Shape.Concatenates [s₁, s₂] t a) (h₁ : ∀ i, IsReal (x₁ i)) (h₂ : ∀ i, IsReal (x₂ i)) (j : t.Idx) :
    IsReal (concatenate t a [⟨s₁, x₁⟩, ⟨s₂, x₂⟩] h j) := by
  refine concatenate_forall IsReal t a [⟨s₁, x₁⟩, ⟨s₂, x₂⟩] h ?_ j
  intro p hp i
  simp only [List.mem_cons, List.not_mem_nil, or_false] at hp
  rcases hp with rfl | rfl
  · exact h₁ i
  · exact h₂ i

/-- The single-precision words of 0, 1 and 2 denote reals. -/
theorem word_zero_real : IsReal (Ideal.ofBits .f32 0x00000000#32) := isReal_ofBits_f32 _ (by decide)
theorem word_one_real : IsReal (Ideal.ofBits .f32 0x3F800000#32) := isReal_ofBits_f32 _ (by decide)
theorem word_two_real : IsReal (Ideal.ofBits .f32 0x40000000#32) := isReal_ofBits_f32 _ (by decide)

/-! ### The first operator: coefficient 1 on every edge and self-loop -/

/-- The edge list. -/
abbrev Edges : Type := (⟨S2x600000, .i32⟩ : BufTy).Contents (Elt Ideal)

/-- The coefficient 1 of every edge and self-loop. -/
theorem v7_real (i : S700000.Idx) : IsReal (val_main_v7 (F := Ideal) i) := by
  rw [val_main_v7_apply, val_main_cst_apply, Ideal.ofBits_def]
  exact word_one_real

/-- The scatter's operand is 0 at every node. -/
theorem v8_real (c : S100000.Idx) : IsReal (val_main_v8 (F := Ideal) c) := by
  rw [val_main_v8_apply, val_main_cst_0_apply, Ideal.ofBits_def]
  exact word_zero_real

/-- The threshold the degree is compared with is 0. -/
theorem v11_zero (c : S100000.Idx) : val_main_v11 (F := Ideal) c = 0 := by
  rw [val_main_v11_apply, val_main_cst_1_apply, Ideal.ofBits_def]
  exact ofBits_f32_zero

/-- The guard's other branch is 0 at every node. -/
theorem call0_real (c : S100000.Idx) : IsReal (val_main_call0_v1 (F := Ideal) c) := by
  rw [val_main_call0_v1_apply, val_main_call0_v0_apply, val_main_cst_2_apply, Ideal.ofBits_def]
  exact word_zero_real

/-- A node's degree, 0 plus the sum of 1 over the edges that point at it, is a real. -/
theorem v10_real (x1 : Edges) (c : S100000.Idx) : IsReal (val_main_v10 (F := Ideal) x1 c) := by
  unfold val_main_v10 Host.scatterAdd
  rw [Ideal.hostScatterAdd_def]
  exact scatterAdd_real _ _ _ _ v8_real v7_real c

/-- A node's normaliser, the reciprocal square root of a positive degree and 0 otherwise, is a real. -/
theorem v14_real (x1 : Edges) (c : S100000.Idx) : IsReal (val_main_v14 (F := Ideal) x1 c) := by
  rw [val_main_v14_apply, val_main_v12_apply, val_main_v13_apply]
  exact where_rsqrt_real _ _ _ (v10_real x1 c) (v11_zero c) (call0_real c)

/-- The normaliser an edge reads at its first endpoint is a real. -/
theorem v21_real (x1 : Edges) (i : S700000.Idx) : IsReal (val_main_v21 (F := Ideal) x1 i) := by
  unfold val_main_v21
  exact gather_real _ _ _ (v14_real x1) i

/-- The normaliser an edge reads at its second endpoint is a real. -/
theorem v29_real (x1 : Edges) (i : S700000.Idx) : IsReal (val_main_v29 (F := Ideal) x1 i) := by
  unfold val_main_v29
  exact gather_real _ _ _ (v14_real x1) i

/-- THE FIRST OPERATOR'S EDGE WEIGHTS ARE REAL: each is a normaliser times the coefficient 1 times a normaliser. -/
theorem smooth_real (x1 : Edges) (i : S700000.Idx) : IsReal (val_main_v30 (F := Ideal) x1 i) := by
  rw [val_main_v30_apply, val_main_v22_apply, Ideal.mulf_def, Ideal.mulf_def]
  exact ((v21_real x1 i).mul (v7_real i)).mul (v29_real x1 i)

/-! ### The second operator: coefficient -1 on an edge, 2 on a self-loop; degrees count an edge 1 and a self-loop 2 -/

/-- The 1 that is negated into an edge's coefficient. -/
theorem v38_real (i : S600000.Idx) : IsReal (val_main_v38 (F := Ideal) i) := by
  rw [val_main_v38_apply, val_main_cst_6_apply, Ideal.ofBits_def]
  exact word_one_real

/-- An edge's coefficient -1. -/
theorem v39_real (i : S600000.Idx) : IsReal (val_main_v39 (F := Ideal) i) := by
  rw [val_main_v39_apply, Ideal.hostNegf_def, Ideal.negf_def]
  exact (v38_real i).neg

theorem v40_real (c : S100000.Idx) : IsReal (val_main_v40 (F := Ideal) c) := by
  rw [val_main_v40_apply, val_main_cst_7_apply, Ideal.ofBits_def]
  exact word_one_real

theorem v41_real (c : S100000.Idx) : IsReal (val_main_v41 (F := Ideal) c) := by
  rw [val_main_v41_apply, val_main_cst_8_apply, Ideal.ofBits_def]
  exact word_two_real

/-- A self-loop's coefficient 2 * 1. -/
theorem v42_real (c : S100000.Idx) : IsReal (val_main_v42 (F := Ideal) c) := by
  rw [val_main_v42_apply, Ideal.mulf_def]
  exact (v41_real c).mul (v40_real c)

/-- The coefficients, -1 on the edges followed by 2 on the self-loops, are real. -/
theorem v43_real (i : S700000.Idx) : IsReal (val_main_v43 (F := Ideal) i) := by
  unfold val_main_v43
  exact concatenate_pair_real _ _ _ _ v39_real v42_real i

theorem v44_real (i : S600000.Idx) : IsReal (val_main_v44 (F := Ideal) i) := by
  rw [val_main_v44_apply, val_main_cst_9_apply, Ideal.ofBits_def]
  exact word_one_real

theorem v45_real (c : S100000.Idx) : IsReal (val_main_v45 (F := Ideal) c) := by
  rw [val_main_v45_apply, val_main_cst_10_apply, Ideal.ofBits_def]
  exact word_one_real

theorem v46_real (c : S100000.Idx) : IsReal (val_main_v46 (F := Ideal) c) := by
  rw [val_main_v46_apply, val_main_cst_11_apply, Ideal.ofBits_def]
  exact word_two_real

theorem v47_real (c : S100000.Idx) : IsReal (val_main_v47 (F := Ideal) c) := by
  rw [val_main_v47_apply, Ideal.mulf_def]
  exact (v46_real c).mul (v45_real c)

/-- What an edge or self-loop adds to a degree, 1 on the edges followed by 2 on the self-loops, is real. -/
theorem v48_real (i : S700000.Idx) : IsReal (val_main_v48 (F := Ideal) i) := by
  unfold val_main_v48
  exact concatenate_pair_real _ _ _ _ v44_real v47_real i

theorem v49_real (c : S100000.Idx) : IsReal (val_main_v49 (F := Ideal) c) := by
  rw [val_main_v49_apply, val_main_cst_12_apply, Ideal.ofBits_def]
  exact word_zero_real

theorem v52_zero (c : S100000.Idx) : val_main_v52 (F := Ideal) c = 0 := by
  rw [val_main_v52_apply, val_main_cst_13_apply, Ideal.ofBits_def]
  exact ofBits_f32_zero

theorem call1_real (c : S100000.Idx) : IsReal (val_main_call1_v1 (F := Ideal) c) := by
  rw [val_main_call1_v1_apply, val_main_call1_v0_apply, val_main_cst_14_apply, Ideal.ofBits_def]
  exact word_zero_real

/-- A node's degree, 0 plus the sum of 1 or 2 over the edges and self-loops that point at it, is a real. -/
theorem v51_real (x1 : Edges) (c : S100000.Idx) : IsReal (val_main_v51 (F := Ideal) x1 c) := by
  unfold val_main_v51 Host.scatterAdd
  rw [Ideal.hostScatterAdd_def]
  exact scatterAdd_real _ _ _ _ v49_real v48_real c

/-- A node's normaliser is a real. -/
theorem v55_real (x1 : Edges) (c : S100000.Idx) : IsReal (val_main_v55 (F := Ideal) x1 c) := by
  rw [val_main_v55_apply, val_main_v53_apply, val_main_v54_apply]
  exact where_rsqrt_real _ _ _ (v51_real x1 c) (v52_zero c) (call1_real c)

theorem v62_real (x1 : Edges) (i : S700000.Idx) : IsReal (val_main_v62 (F := Ideal) x1 i) := by
  unfold val_main_v62
  exact gather_real _ _ _ (v55_real x1) i

theorem v70_real (x1 : Edges) (i : S700000.Idx) : IsReal (val_main_v70 (F := Ideal) x1 i) := by
  unfold val_main_v70
  exact gather_real _ _ _ (v55_real x1) i

/-- THE SECOND OPERATOR'S EDGE WEIGHTS ARE REAL: each is a normaliser times the coefficient -1 or 2 times a
    normaliser. -/
theorem sharp_real (x1 : Edges) (i : S700000.Idx) : IsReal (val_main_v71 (F := Ideal) x1 i) := by
  rw [val_main_v71_apply, val_main_v63_apply, Ideal.mulf_def, Ideal.mulf_def]
  exact ((v62_real x1 i).mul (v43_real i)).mul (v70_real x1 i)

end Cert.Gala.EdgeWeights

end
-- ==== Proof.FiniteInputs.lean ====
import proofs.«118487_j45509473469002_2_alg».proof.Defs
import proofs.«118487_j45509473469002_2_alg».proof.Proof.LibGcnBatchNorm
import Idealize.ShloMosaic.Lib.ReduceAll

/-!
# The precondition makes every float input a real number

The precondition is the conjunction, over the thirteen float input arrays a, of "every entry x of a has |x| < +∞".
On the extended reals |x| = max x (-x), so |x| < +∞ excludes both x = +∞ and x = -∞: x is a real number.
Each conjunct is a reduction by "and" over all axes of the elementwise comparison, started from 1; it is 1
only if every compared entry gave 1.
-/

namespace Cert.Gala.FiniteInputs

open Idealize.ShloMosaic
open Cert.LibGcnBatchNorm

/-- The f32 word 0x7F800000 (sign 0, exponent all ones, fraction 0) denotes +∞. -/
theorem ofBits_inf : Ideal.ofBits .f32 0x7F800000#32 = (⊤ : EReal) := by
  simp [Ideal.ofBits, Ideal.ieee]

/-- |x| < +∞ on the extended reals says x is a real number: at x = +∞ and at x = -∞ alike, max x (-x) = +∞. -/
theorem isReal_of_abs_lt_top (x : EReal) (h : max x (-x) < (⊤ : EReal)) : IsReal x := by
  rw [isReal_iff]
  constructor
  · rintro rfl
    simp at h
  · rintro rfl
    simp at h

/-- A truth value read as a one-bit word is 1 exactly when it is true. -/
theorem ofBool_eq_one {b : Bool} : BitVec.ofBool b = 1#1 ↔ b = true := by cases b <;> decide

/-- The element test "|x| < +∞" giving the word 1 says x is a real number. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  apply isReal_of_abs_lt_top
  have h' : Ideal.cmp .olt (max x (-x)) (Ideal.ofBits .f32 0x7F800000#32) = 1#1 := h
  rw [ofBits_inf] at h'
  simpa [Ideal.cmp, ofBool_eq_one] using h'

/-- The shape of rank 0 has exactly one index. -/
theorem subsingleton_idx0 : Subsingleton (Shape.Idx ⟨0, ![]⟩) := ⟨fun a b => funext fun d => d.elim0⟩

/-- One conjunct of the precondition, read back: if the reduction by "and" over all axes of the elementwise
    test |x| < +∞ (against the broadcast scalar +∞), started from 1, is 1, then every entry of x is a real number. -/
theorem all_real {s : Shape} {axes : List (Fin s.rank)} (x : FVec Ideal s .f32)
    (hb : Shape.BroadcastsInDim ⟨0, ![]⟩ s (![] : Fin 0 → Fin s.rank))
    (hr : s.ReducesTo axes ⟨0, ![]⟩) (hu : 0 < Shape.numel ⟨0, ![]⟩) (j : Shape.Idx ⟨0, ![]⟩)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) :
    ∀ i, IsReal (x i) := by
  intro i
  haveI := subsingleton_idx0
  have h1 := Host.reduce_andi_all _ _ hr hu j e i
  exact isReal_of_cmp (x i) h1

/-- The "and" of two rank-0 truth values being 1 says both are 1. -/
theorem andi_split {x y : IVec ⟨0, ![]⟩ 1} {j : Shape.Idx ⟨0, ![]⟩} (h : andi x y j = 1#1) :
    x j = 1#1 ∧ y j = 1#1 := IntOp.andi_eq_one.1 h

open Cert.Pre_finite_inputs in
/-- The precondition, read back: every float input array holds real numbers only. The function is the
    left-nested conjunction, input by input, of "all |a| < +∞" (the integer array a1 has no conjunct); it is
    opened part by part, the conjunction is split from the outside in, and each conjunct is read by all_real. -/
theorem real_of_pre [Cert.Pre_finite_inputs.Facts] (a0 : FVec Ideal S100000x128 .f32) (a1 : IVec S2x600000 32)
    (a2 : FVec Ideal S128x64 .f32) (a3 : FVec Ideal S64 .f32) (a4 : FVec Ideal S64x32 .f32) (a5 : FVec Ideal S32 .f32)
    (a6 : FVec Ideal S32x16 .f32) (a7 : FVec Ideal S16 .f32) (a8 : FVec Ideal S16x32 .f32) (a9 : FVec Ideal S32 .f32)
    (a10 : FVec Ideal S32x64 .f32) (a11 : FVec Ideal S64 .f32) (a12 : FVec Ideal S64x128 .f32)
    (a13 : FVec Ideal S128 .f32)
    (h : Cert.Pre_finite_inputs.fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) := by
  have e := congrFun h (fun a => a.elim0)
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  obtain ⟨e, r13⟩ := andi_split e
  obtain ⟨e, r12⟩ := andi_split e
  obtain ⟨e, r11⟩ := andi_split e
  obtain ⟨e, r10⟩ := andi_split e
  obtain ⟨e, r9⟩ := andi_split e
  obtain ⟨e, r8⟩ := andi_split e
  obtain ⟨e, r7⟩ := andi_split e
  obtain ⟨e, r6⟩ := andi_split e
  obtain ⟨e, r5⟩ := andi_split e
  obtain ⟨e, r4⟩ := andi_split e
  obtain ⟨e, r3⟩ := andi_split e
  obtain ⟨r0, r2⟩ := andi_split e
  exact ⟨all_real a0 _ _ _ _ r0, all_real a2 _ _ _ _ r2, all_real a3 _ _ _ _ r3, all_real a4 _ _ _ _ r4,
    all_real a5 _ _ _ _ r5, all_real a6 _ _ _ _ r6, all_real a7 _ _ _ _ r7, all_real a8 _ _ _ _ r8,
    all_real a9 _ _ _ _ r9, all_real a10 _ _ _ _ r10, all_real a11 _ _ _ _ r11, all_real a12 _ _ _ _ r12,
    all_real a13 _ _ _ _ r13⟩

end Cert.Gala.FiniteInputs
-- ==== Proof.lean ====
/-
  Six graph-convolution layers, the dense half of each as a row-blocked kernel, against plain jnp.

  Both programs compute, from node features `x`, an edge list and six projections with biases, a graph autoencoder:
  three encoder layers under the smooth normalisation and three decoder layers under the sharp one, each layer
  `segment_sum(w ⊙ (h · U)[row], col) + b`, rectified except the last. The reference does exactly that. The kernel
  program runs the projections as row-blocked dense calls and, in the decoder, aggregates BEFORE projecting:
  `segment_sum(w ⊙ h[row], col) · U + b`.

  At the ideal values the dense calls are the plain matrix products (ten row blocks tile each result), the encoder layers
  differ from the reference's only in the order of one product, and the decoder layers are equal by distributing the
  projection over the sum over the incoming edges — which on the extended reals holds because every factor is a real
  number: the inputs by the precondition, the edge weights because a degree counted with its self loop is a real whose
  inverse square root is taken only where it is positive, the activations layer by layer.

  The three frames: the two kernel programs' are generated; the reference's is its run with the result dropped. The
  idealization rewrote nothing. The algebraic claim: both results are the network's output (`Net.out`) of the same
  graph and parameters.
-/
import proofs.«118487_j45509473469002_2_alg».proof.Defs
import proofs.«118487_j45509473469002_2_alg».proof.Proof.Gen.Kernel
import proofs.«118487_j45509473469002_2_alg».proof.Proof.Gen.Kernel.Frame
import proofs.«118487_j45509473469002_2_alg».proof.Proof.Gen.KernelIdeal
import proofs.«118487_j45509473469002_2_alg».proof.Proof.Gen.KernelIdeal.Frame
import proofs.«118487_j45509473469002_2_alg».proof.Proof.Gen.ReferenceIdeal
import proofs.«118487_j45509473469002_2_alg».proof.Proof.Gen.Pre_finite_inputs
import proofs.«118487_j45509473469002_2_alg».proof.Proof.KRun
import proofs.«118487_j45509473469002_2_alg».proof.Proof.KChain
import proofs.«118487_j45509473469002_2_alg».proof.Proof.RefLayers
import proofs.«118487_j45509473469002_2_alg».proof.Proof.Prologue
import proofs.«118487_j45509473469002_2_alg».proof.Proof.EdgeWeightsReal
import proofs.«118487_j45509473469002_2_alg».proof.Proof.FiniteInputs
import Idealize.ShloMosaic.Adequacy
import Idealize.ShloMosaic.Init

set_option maxRecDepth 16384

noncomputable section

namespace Cert.Proof

open Idealize.ShloMosaic Idealize.ShloMosaic.ValueIdx Idealize.SL.Sem Cert.Gala Cert.LibGcnBatchNorm

attribute [local instance] Cert.Pre_finite_inputs.Gen.facts Cert.Kernel.Gen.facts Cert.KernelIdeal.Gen.facts Cert.ReferenceIdeal.Gen.facts

/-- Under the precondition the reference's network has real weights, features, projections and biases. -/
theorem netR_real (x0 : FVec Ideal Cert.Pre_finite_inputs.S100000x128 .f32) (x1 : IVec Cert.Pre_finite_inputs.S2x600000 32)
    (x2 : FVec Ideal Cert.Pre_finite_inputs.S128x64 .f32) (x3 : FVec Ideal Cert.Pre_finite_inputs.S64 .f32)
    (x4 : FVec Ideal Cert.Pre_finite_inputs.S64x32 .f32) (x5 : FVec Ideal Cert.Pre_finite_inputs.S32 .f32)
    (x6 : FVec Ideal Cert.Pre_finite_inputs.S32x16 .f32) (x7 : FVec Ideal Cert.Pre_finite_inputs.S16 .f32)
    (x8 : FVec Ideal Cert.Pre_finite_inputs.S16x32 .f32) (x9 : FVec Ideal Cert.Pre_finite_inputs.S32 .f32)
    (x10 : FVec Ideal Cert.Pre_finite_inputs.S32x64 .f32) (x11 : FVec Ideal Cert.Pre_finite_inputs.S64 .f32)
    (x12 : FVec Ideal Cert.Pre_finite_inputs.S64x128 .f32) (x13 : FVec Ideal Cert.Pre_finite_inputs.S128 .f32)
    (h : Cert.Pre_finite_inputs.fn (F := Ideal) x0 x1 x2 x3 x4 x5 x6 x7 x8 x9 x10 x11 x12 x13 = fun _ => 1#1) :
    (RefLayers.netR x0 x1 x2 x3 x4 x5 x6 x7 x8 x9 x10 x11 x12 x13).Real := by
  obtain ⟨h0, h2, h3, h4, h5, h6, h7, h8, h9, h10, h11, h12, h13⟩ :=
    FiniteInputs.real_of_pre x0 x1 x2 x3 x4 x5 x6 x7 x8 x9 x10 x11 x12 x13 h
  exact ⟨fun e => EdgeWeights.smooth_real x1 _, fun e => EdgeWeights.sharp_real x1 _, fun n k => h0 _, fun k j => h2 _,
    fun j => h3 _, fun k j => h4 _, fun j => h5 _, fun k j => h6 _, fun j => h7 _, fun k j => h8 _, fun j => h9 _,
    fun k j => h10 _, fun j => h11 _, fun k j => h12 _⟩

/-- The kernel program's network is the reference's network of the same arguments: the two prologues agree. -/
theorem netK_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    KChain.netK m ρ c = RefLayers.netR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) := by
  unfold KChain.netK RefLayers.netR
  rw [show Cert.KernelIdeal.Gen.W5 m ρ c (Proc.devRef .tc Cert.KernelIdeal.main_v3) = _ from Prologue.rows_eq (Cert.KernelIdeal.Gen.W0 m ρ c),
    show Cert.KernelIdeal.Gen.W5 m ρ c (Proc.devRef .tc Cert.KernelIdeal.main_v6) = _ from Prologue.cols_eq (Cert.KernelIdeal.Gen.W0 m ρ c),
    show Cert.KernelIdeal.Gen.W5 m ρ c (Proc.devRef .tc Cert.KernelIdeal.main_v30) = _ from Prologue.smooth_eq (Cert.KernelIdeal.Gen.W0 m ρ c),
    show Cert.KernelIdeal.Gen.W5 m ρ c (Proc.devRef .tc Cert.KernelIdeal.main_v64) = _ from Prologue.sharp_eq (Cert.KernelIdeal.Gen.W0 m ρ c)]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's output of the same graph and parameters. -/
theorem algebraic : Cert.algebraic_KernelIdeal_ReferenceIdeal := by
  intro m ρ m' ρ' hpre hagree
  refine ⟨fun c => Cert.KernelIdeal.Gen.W20 m ρ c (Proc.devRef .tc Cert.KernelIdeal.main_v163), KRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v178_eq, e0, e1, e2, e3, e4, e5, e6, e7, e8, e9, e10, e11, e12, e13]
  have hR : (KChain.netK m ρ c).Real := by
    rw [netK_eq m ρ c]
    exact netR_real _ _ _ _ _ _ _ _ _ _ _ _ _ _ (hpre c)
  funext i
  obtain ⟨p, q, rfl⟩ : ∃ (p : Fin 100000) (q : Fin 128), i = ix2 p q := ⟨i 0, i 1, eq_ix2 i⟩
  refine (RefLayers.out_eq _ _ _ _ _ _ _ _ _ _ _ _ _ _ p q).trans ?_
  rw [← netK_eq m ρ c]
  exact (KChain.out_eq m ρ c hR p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
